-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S2000000 : Shape := ⟨1, ![2000000]⟩
abbrev S100000x64 : Shape := ⟨2, ![100000, 64]⟩
abbrev S60000x64 : Shape := ⟨2, ![60000, 64]⟩
abbrev S3x64x64 : Shape := ⟨3, ![3, 64, 64]⟩
abbrev S3x1x64 : Shape := ⟨3, ![3, 1, 64]⟩
abbrev S256x1 : Shape := ⟨2, ![256, 1]⟩
abbrev S1 : Shape := ⟨1, ![1]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S60000x64 : S_.BroadcastsInDim S60000x64 (![] : Fin 0 → Fin S60000x64.rank)
  reducesTo_S60000x64_S_d0_1 : S60000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x1x64 : S_.BroadcastsInDim S3x1x64 (![] : Fin 0 → Fin S3x1x64.rank)
  reducesTo_S3x1x64_S_d0_1_2 : S3x1x64.ReducesTo [0, 1, 2] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg11 : FVec F S256x1 .f32) (main_arg12 : FVec F S1 .f32) (main_v33 : IVec S_ 1) : IVec S_ 1 :=
  let main_v34 : FVec F S256x1 .f32 := Host.absf main_arg11
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg12
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg8 : FVec F S3x1x64 .f32) (main_arg9 : FVec F S3x64x64 .f32) (main_arg10 : FVec F S3x1x64 .f32) (main_arg11 : FVec F S256x1 .f32) (main_arg12 : FVec F S1 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x1x64 .f32 := Host.absf main_arg8
  let main_cst_6 : FVec F S_ .f32 := constant S_ .f32 0x7F800000#32
  let main_v20 : FVec F S3x1x64 .f32 := broadcastInDim S3x1x64 ![] bcast_S_S3x1x64 main_cst_6
  let main_v21 : IVec S3x1x64 1 := cmpf .olt main_v19 main_v20
  let main_c_7 : IVec S_ 1 := constantI S_ 1 1#1
  let main_v22 : IVec S_ 1 := (fun x v => Host.reduce IntOp.andi x v reducesTo_S3x1x64_S_d0_1_2 h_S_) main_v21 main_c_7
  let main_v23 : IVec S_ 1 := andi main_v18 main_v22
  let main_v24 : FVec F S3x64x64 .f32 := Host.absf main_arg9
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x1x64 .f32 := Host.absf main_arg10
  let main_cst_10 : FVec F S_ .f32 := constant S_ .f32 0x7F800000#32
  let main_v30 : FVec F S3x1x64 .f32 := broadcastInDim S3x1x64 ![] bcast_S_S3x1x64 main_cst_10
  let main_v31 : IVec S3x1x64 1 := cmpf .olt main_v29 main_v30
  let main_c_11 : IVec S_ 1 := constantI S_ 1 1#1
  let main_v32 : IVec S_ 1 := (fun x v => Host.reduce IntOp.andi x v reducesTo_S3x1x64_S_d0_1_2 h_S_) main_v31 main_c_11
  let main_v33 : IVec S_ 1 := andi main_v28 main_v32
  fn_part2 (F := F) main_arg11 main_arg12 main_v33

def fn {F : FTy → Type} [FloatOps F] (main_arg0 : IVec S16384 32) (main_arg1 : IVec S16384 32) (main_arg2 : IVec S2000000 32) (main_arg3 : IVec S2000000 32) (main_arg4 : FVec F S2000000 .f32) (main_arg5 : FVec F S100000x64 .f32) (main_arg6 : FVec F S60000x64 .f32) (main_arg7 : FVec F S3x64x64 .f32) (main_arg8 : FVec F S3x1x64 .f32) (main_arg9 : FVec F S3x64x64 .f32) (main_arg10 : FVec F S3x1x64 .f32) (main_arg11 : FVec F S256x1 .f32) (main_arg12 : FVec F S1 .f32) : IVec S_ 1 :=
  let main_v0 : FVec F S2000000 .f32 := Host.absf main_arg4
  let main_cst : FVec F S_ .f32 := constant S_ .f32 0x7F800000#32
  let main_v1 : FVec F S2000000 .f32 := broadcastInDim S2000000 ![] bcast_S_S2000000 main_cst
  let main_v2 : IVec S2000000 1 := cmpf .olt main_v0 main_v1
  let main_c : IVec S_ 1 := constantI S_ 1 1#1
  let main_v3 : IVec S_ 1 := (fun x v => Host.reduce IntOp.andi x v reducesTo_S2000000_S_d0 h_S_) main_v2 main_c
  let main_v4 : FVec F S100000x64 .f32 := Host.absf main_arg5
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S60000x64 .f32 := Host.absf main_arg6
  let main_cst_2 : FVec F S_ .f32 := constant S_ .f32 0x7F800000#32
  let main_v10 : FVec F S60000x64 .f32 := broadcastInDim S60000x64 ![] bcast_S_S60000x64 main_cst_2
  let main_v11 : IVec S60000x64 1 := cmpf .olt main_v9 main_v10
  let main_c_3 : IVec S_ 1 := constantI S_ 1 1#1
  let main_v12 : IVec S_ 1 := (fun x v => Host.reduce IntOp.andi x v reducesTo_S60000x64_S_d0_1 h_S_) main_v11 main_c_3
  let main_v13 : IVec S_ 1 := andi main_v8 main_v12
  let main_v14 : FVec F S3x64x64 .f32 := Host.absf main_arg7
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg8 main_arg9 main_arg10 main_arg11 main_arg12 main_v13 main_v16
-- ==== Kernel.lean ====
abbrev S16384 : Shape := ⟨1, ![16384]⟩
abbrev S2000000 : Shape := ⟨1, ![2000000]⟩
abbrev S100000x64 : Shape := ⟨2, ![100000, 64]⟩
abbrev S60000x64 : Shape := ⟨2, ![60000, 64]⟩
abbrev S3x64x64 : Shape := ⟨3, ![3, 64, 64]⟩
abbrev S3x1x64 : Shape := ⟨3, ![3, 1, 64]⟩
abbrev S256x1 : Shape := ⟨2, ![256, 1]⟩
abbrev S1 : Shape := ⟨1, ![1]⟩
abbrev S160000x64 : Shape := ⟨2, ![160000, 64]⟩
abbrev S_ : Shape := ⟨0, ![]⟩
abbrev S2000000x1 : Shape := ⟨2, ![2000000, 1]⟩
abbrev S2000000x64 : Shape := ⟨2, ![2000000, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S4000x64 : Shape := ⟨2, ![4000, 64]⟩
abbrev S4000 : Shape := ⟨1, ![4000]⟩
abbrev S4000x1 : Shape := ⟨2, ![4000, 1]⟩
abbrev S160000x256 : Shape := ⟨2, ![160000, 256]⟩
abbrev S100000x256 : Shape := ⟨2, ![100000, 256]⟩
abbrev S16384x1 : Shape := ⟨2, ![16384, 1]⟩
abbrev S16384x256 : Shape := ⟨2, ![16384, 256]⟩
abbrev S60000x256 : Shape := ⟨2, ![60000, 256]⟩
abbrev S1x1 : Shape := ⟨2, ![1, 1]⟩

abbrev nBuf : Space → Nat
  | .hbm => 127
  | .vmem => 36
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S2000000, .i32⟩
  | .hbm, ⟨3, _⟩ => ⟨S2000000, .i32⟩
  | .hbm, ⟨4, _⟩ => ⟨S2000000, .f32⟩
  | .hbm, ⟨5, _⟩ => ⟨S100000x64, .f32⟩
  | .hbm, ⟨6, _⟩ => ⟨S60000x64, .f32⟩
  | .hbm, ⟨7, _⟩ => ⟨S3x64x64, .f32⟩
  | .hbm, ⟨8, _⟩ => ⟨S3x1x64, .f32⟩
  | .hbm, ⟨9, _⟩ => ⟨S3x64x64, .f32⟩
  | .hbm, ⟨10, _⟩ => ⟨S3x1x64, .f32⟩
  | .hbm, ⟨11, _⟩ => ⟨S256x1, .f32⟩
  | .hbm, ⟨12, _⟩ => ⟨S1, .f32⟩
  | .hbm, ⟨13, _⟩ => ⟨S160000x64, .f32⟩
  | .hbm, ⟨14, _⟩ => ⟨S_, .i32⟩
  | .hbm, ⟨15, _⟩ => ⟨S2000000, .i32⟩
  | .hbm, ⟨16, _⟩ => ⟨S2000000, .i1⟩
  | .hbm, ⟨17, _⟩ => ⟨S_, .i32⟩
  | .hbm, ⟨18, _⟩ => ⟨S2000000, .i32⟩
  | .hbm, ⟨19, _⟩ => ⟨S2000000, .i32⟩
  | .hbm, ⟨20, _⟩ => ⟨S2000000, .i32⟩
  | .hbm, ⟨21, _⟩ => ⟨S2000000x1, .i32⟩
  | .hbm, ⟨22, _⟩ => ⟨S2000000x64, .f32⟩
  | .hbm, ⟨23, _⟩ => ⟨S2000000x1, .f32⟩
  | .hbm, ⟨24, _⟩ => ⟨S2000000x64, .f32⟩
  | .hbm, ⟨25, _⟩ => ⟨S2000000x64, .f32⟩
  | .hbm, ⟨26, _⟩ => ⟨S_, .f32⟩
  | .hbm, ⟨27, _⟩ => ⟨S160000x64, .f32⟩
  | .hbm, ⟨28, _⟩ => ⟨S2000000x1, .i32⟩
  | .hbm, ⟨29, _⟩ => ⟨S160000x64, .f32⟩
  | .hbm, ⟨30, _⟩ => ⟨S1x64x64, .f32⟩
  | .hbm, ⟨31, _⟩ => ⟨S64x64, .f32⟩
  | .hbm, ⟨32, _⟩ => ⟨S1x1x64, .f32⟩
  | .hbm, ⟨33, _⟩ => ⟨S1x64, .f32⟩
  | .hbm, ⟨34, _⟩ => ⟨S1x64x64, .f32⟩
  | .hbm, ⟨35, _⟩ => ⟨S64x64, .f32⟩
  | .hbm, ⟨36, _⟩ => ⟨S1x1x64, .f32⟩
  | .hbm, ⟨37, _⟩ => ⟨S1x64, .f32⟩
  | .hbm, ⟨38, _⟩ => ⟨S160000x64, .f32⟩
  | .hbm, ⟨39, _⟩ => ⟨S160000x64, .f32⟩
  | .hbm, ⟨40, _⟩ => ⟨S_, .i32⟩
  | .hbm, ⟨41, _⟩ => ⟨S2000000, .i32⟩
  | .hbm, ⟨42, _⟩ => ⟨S2000000, .i1⟩
  | .hbm, ⟨43, _⟩ => ⟨S_, .i32⟩
  | .hbm, ⟨44, _⟩ => ⟨S2000000, .i32⟩
  | .hbm, ⟨45, _⟩ => ⟨S2000000, .i32⟩
  | .hbm, ⟨46, _⟩ => ⟨S2000000, .i32⟩
  | .hbm, ⟨47, _⟩ => ⟨S2000000x1, .i32⟩
  | .hbm, ⟨48, _⟩ => ⟨S2000000x64, .f32⟩
  | .hbm, ⟨49, _⟩ => ⟨S2000000x1, .f32⟩
  | .hbm, ⟨50, _⟩ => ⟨S2000000x64, .f32⟩
  | .hbm, ⟨51, _⟩ => ⟨S2000000x64, .f32⟩
  | .hbm, ⟨52, _⟩ => ⟨S_, .f32⟩
  | .hbm, ⟨53, _⟩ => ⟨S160000x64, .f32⟩
  | .hbm, ⟨54, _⟩ => ⟨S2000000x1, .i32⟩
  | .hbm, ⟨55, _⟩ => ⟨S160000x64, .f32⟩
  | .hbm, ⟨56, _⟩ => ⟨S1x64x64, .f32⟩
  | .hbm, ⟨57, _⟩ => ⟨S64x64, .f32⟩
  | .hbm, ⟨58, _⟩ => ⟨S1x1x64, .f32⟩
  | .hbm, ⟨59, _⟩ => ⟨S1x64, .f32⟩
  | .hbm, ⟨60, _⟩ => ⟨S1x64x64, .f32⟩
  | .hbm, ⟨61, _⟩ => ⟨S64x64, .f32⟩
  | .hbm, ⟨62, _⟩ => ⟨S1x1x64, .f32⟩
  | .hbm, ⟨63, _⟩ => ⟨S1x64, .f32⟩
  | .hbm, ⟨64, _⟩ => ⟨S160000x64, .f32⟩
  | .hbm, ⟨65, _⟩ => ⟨S160000x64, .f32⟩
  | .hbm, ⟨66, _⟩ => ⟨S_, .i32⟩
  | .hbm, ⟨67, _⟩ => ⟨S2000000, .i32⟩
  | .hbm, ⟨68, _⟩ => ⟨S2000000, .i1⟩
  | .hbm, ⟨69, _⟩ => ⟨S_, .i32⟩
  | .hbm, ⟨70, _⟩ => ⟨S2000000, .i32⟩
  | .hbm, ⟨71, _⟩ => ⟨S2000000, .i32⟩
  | .hbm, ⟨72, _⟩ => ⟨S2000000, .i32⟩
  | .hbm, ⟨73, _⟩ => ⟨S2000000x1, .i32⟩
  | .hbm, ⟨74, _⟩ => ⟨S2000000x64, .f32⟩
  | .hbm, ⟨75, _⟩ => ⟨S2000000x1, .f32⟩
  | .hbm, ⟨76, _⟩ => ⟨S2000000x64, .f32⟩
  | .hbm, ⟨77, _⟩ => ⟨S2000000x64, .f32⟩
  | .hbm, ⟨78, _⟩ => ⟨S_, .f32⟩
  | .hbm, ⟨79, _⟩ => ⟨S160000x64, .f32⟩
  | .hbm, ⟨80, _⟩ => ⟨S2000000x1, .i32⟩
  | .hbm, ⟨81, _⟩ => ⟨S160000x64, .f32⟩
  | .hbm, ⟨82, _⟩ => ⟨S1x64x64, .f32⟩
  | .hbm, ⟨83, _⟩ => ⟨S64x64, .f32⟩
  | .hbm, ⟨84, _⟩ => ⟨S1x1x64, .f32⟩
  | .hbm, ⟨85, _⟩ => ⟨S1x64, .f32⟩
  | .hbm, ⟨86, _⟩ => ⟨S1x64x64, .f32⟩
  | .hbm, ⟨87, _⟩ => ⟨S64x64, .f32⟩
  | .hbm, ⟨88, _⟩ => ⟨S1x1x64, .f32⟩
  | .hbm, ⟨89, _⟩ => ⟨S1x64, .f32⟩
  | .hbm, ⟨90, _⟩ => ⟨S160000x64, .f32⟩
  | .hbm, ⟨91, _⟩ => ⟨S160000x64, .f32⟩
  | .hbm, ⟨92, _⟩ => ⟨S160000x256, .f32⟩
  | .hbm, ⟨93, _⟩ => ⟨S100000x256, .f32⟩
  | .hbm, ⟨94, _⟩ => ⟨S_, .i32⟩
  | .hbm, ⟨95, _⟩ => ⟨S16384, .i32⟩
  | .hbm, ⟨96, _⟩ => ⟨S16384, .i1⟩
  | .hbm, ⟨97, _⟩ => ⟨S_, .i32⟩
  | .hbm, ⟨98, _⟩ => ⟨S16384, .i32⟩
  | .hbm, ⟨99, _⟩ => ⟨S16384, .i32⟩
  | .hbm, ⟨100, _⟩ => ⟨S16384, .i32⟩
  | .hbm, ⟨101, _⟩ => ⟨S16384x1, .i32⟩
  | .hbm, ⟨102, _⟩ => ⟨S16384x256, .f32⟩
  | .hbm, ⟨103, _⟩ => ⟨S60000x256, .f32⟩
  | .hbm, ⟨104, _⟩ => ⟨S_, .i32⟩
  | .hbm, ⟨105, _⟩ => ⟨S16384, .i32⟩
  | .hbm, ⟨106, _⟩ => ⟨S16384, .i1⟩
  | .hbm, ⟨107, _⟩ => ⟨S_, .i32⟩
  | .hbm, ⟨108, _⟩ => ⟨S16384, .i32⟩
  | .hbm, ⟨109, _⟩ => ⟨S16384, .i32⟩
  | .hbm, ⟨110, _⟩ => ⟨S16384, .i32⟩
  | .hbm, ⟨111, _⟩ => ⟨S16384x1, .i32⟩
  | .hbm, ⟨112, _⟩ => ⟨S16384x256, .f32⟩
  | .hbm, ⟨113, _⟩ => ⟨S16384x256, .f32⟩
  | .hbm, ⟨114, _⟩ => ⟨S16384x1, .f32⟩
  | .hbm, ⟨115, _⟩ => ⟨S1x1, .f32⟩
  | .hbm, ⟨116, _⟩ => ⟨S16384x1, .f32⟩
  | .hbm, ⟨117, _⟩ => ⟨S16384x1, .f32⟩
  | .hbm, ⟨118, _⟩ => ⟨S16384, .f32⟩
  | .hbm, ⟨119, _⟩ => ⟨S16384, .f32⟩
  | .hbm, ⟨120, _⟩ => ⟨S16384, .f32⟩
  | .hbm, ⟨121, _⟩ => ⟨S_, .f32⟩
  | .hbm, ⟨122, _⟩ => ⟨S16384, .f32⟩
  | .hbm, ⟨123, _⟩ => ⟨S16384, .f32⟩
  | .hbm, ⟨124, _⟩ => ⟨S_, .f32⟩
  | .hbm, ⟨125, _⟩ => ⟨S16384, .f32⟩
  | .hbm, ⟨126, _⟩ => ⟨S16384, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S4000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x64, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22_0 : Ref sig .tc := ⟨.hbm, 38, rfl⟩
abbrev main_v22_1 : Ref sig .tc := ⟨.hbm, 39, rfl⟩
abbrev main_c_1 : Ref sig .tc := ⟨.hbm, 40, rfl⟩
abbrev main_v23 : Ref sig .tc := ⟨.hbm, 41, rfl⟩
abbrev main_v24 : Ref sig .tc := ⟨.hbm, 42, rfl⟩
abbrev main_c_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44_0 : Ref sig .tc := ⟨.hbm, 64, rfl⟩
abbrev main_v44_1 : Ref sig .tc := ⟨.hbm, 65, rfl⟩
abbrev main_c_4 : Ref sig .tc := ⟨.hbm, 66, rfl⟩
abbrev main_v45 : Ref sig .tc := ⟨.hbm, 67, rfl⟩
abbrev main_v46 : Ref sig .tc := ⟨.hbm, 68, rfl⟩
abbrev main_c_5 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_6 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66_0 : Ref sig .tc := ⟨.hbm, 90, rfl⟩
abbrev main_v66_1 : Ref sig .tc := ⟨.hbm, 91, rfl⟩
abbrev main_v67 : Ref sig .tc := ⟨.hbm, 92, rfl⟩
abbrev main_v68 : Ref sig .tc := ⟨.hbm, 93, rfl⟩
abbrev main_c_7 : Ref sig .tc := ⟨.hbm, 94, rfl⟩
abbrev main_v69 : Ref sig .tc := ⟨.hbm, 95, rfl⟩
abbrev main_v70 : Ref sig .tc := ⟨.hbm, 96, rfl⟩
abbrev main_c_8 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_9 : Ref sig .tc := ⟨.hbm, 104, rfl⟩
abbrev main_v77 : Ref sig .tc := ⟨.hbm, 105, rfl⟩
abbrev main_v78 : Ref sig .tc := ⟨.hbm, 106, rfl⟩
abbrev main_c_10 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_11 : Ref sig .tc := ⟨.hbm, 121, rfl⟩
abbrev main_v92 : Ref sig .tc := ⟨.hbm, 122, rfl⟩
abbrev main_v93 : Ref sig .tc := ⟨.hbm, 123, rfl⟩
abbrev main_cst_12 : Ref sig .tc := ⟨.hbm, 124, rfl⟩
abbrev main_v94 : Ref sig .tc := ⟨.hbm, 125, rfl⟩
abbrev main_v95 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S4000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  concatenates_S100000x64_S60000x64_S160000x64_d0 : Shape.Concatenates [S100000x64, S60000x64] S160000x64 0
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S160000x64 : S_.BroadcastsInDim S160000x64 (![] : Fin 0 → Fin S160000x64.rank)
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bitsLt_bf16_f32 : FTy.bits .bf16 < FTy.bits .f32
  broadcasts_S1x64_S4000x64 : S1x64.Broadcasts S4000x64
  reduces_S4000x64_S4000 : S4000x64.Reduces [1] S4000
  shapeCasts_S4000_S4000x1 : S4000.ShapeCasts S4000x1
  broadcasts_S4000x1_S4000x64 : S4000x1.Broadcasts S4000x64
  slices_S3x64x64_S1x64x64_1_0_0 : S3x64x64.Slices ![1, 0, 0] S1x64x64
  slices_S3x1x64_S1x1x64_1_0_0 : S3x1x64.Slices ![1, 0, 0] S1x1x64
  slices_S3x64x64_S1x64x64_2_0_0 : S3x64x64.Slices ![2, 0, 0] S1x64x64
  slices_S3x1x64_S1x1x64_2_0_0 : S3x1x64.Slices ![2, 0, 0] S1x1x64
  concatenates_S160000x64_S160000x64_S160000x64_S160000x64_S160000x256_d1 : Shape.Concatenates [S160000x64, S160000x64, S160000x64, S160000x64] S160000x256 1
  slices_S160000x256_S100000x256_0_0 : S160000x256.Slices ![0, 0] S100000x256
  bcast_S_S16384 : S_.BroadcastsInDim S16384 (![] : Fin 0 → Fin S16384.rank)
  bcast_S16384_S16384x1_0 : S16384.BroadcastsInDim S16384x1 (![0] : Fin 1 → Fin S16384x1.rank)
  slices_S160000x256_S60000x256_100000_0 : S160000x256.Slices ![100000, 0] S60000x256
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  gather_S160000x64_S2000000x1_S2000000x64_1_0_n_n_0_1_164_wf : GatherDims.WF S160000x64 S2000000x1 S2000000x64 [1] [0] [] [0] [] 1 ![1, 64]
  scatter_S160000x64_S2000000x1_S2000000x64_1_0_0_1_wf : ScatterDims.WF S160000x64 S2000000x1 S2000000x64 [1] [0] [0] 1
  dot_S4000x64_S64x64_S4000x64_1_0_0_1_n_n_wf : DotDims.WF S4000x64 S64x64 S4000x64 [1] [0] [0] [1] [] []
  gather_S100000x256_S16384x1_S16384x256_1_0_n_n_0_1_1256_wf : GatherDims.WF S100000x256 S16384x1 S16384x256 [1] [0] [] [0] [] 1 ![1, 256]
  gather_S60000x256_S16384x1_S16384x256_1_0_n_n_0_1_1256_wf : GatherDims.WF S60000x256 S16384x1 S16384x256 [1] [0] [] [0] [] 1 ![1, 256]
  dot_S16384x256_S256x1_S16384x1_1_0_0_1_n_n_wf : DotDims.WF S16384x256 S256x1 S16384x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S160000x64.size a
  hwx0_0 : ∀ i : grid0.Coords, EltTy.bits .f32 = 32 ∨ (Rect.block (s := S160000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S160000x64.size a
  hwx0_1 : ∀ i : grid0.Coords, EltTy.bits .f32 = 32 ∨ (Rect.block (s := S160000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S160000x64.size a
  hwx0_6 : ∀ i : grid0.Coords, EltTy.bits .f32 = 32 ∨ (Rect.block (s := S160000x64) S4000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S160000x64.size a
  hwx0_7 : ∀ i : grid0.Coords, EltTy.bits .f32 = 32 ∨ (Rect.block (s := S160000x64) S4000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S160000x64.size a
  hwx1_0 : ∀ i : grid1.Coords, EltTy.bits .f32 = 32 ∨ (Rect.block (s := S160000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S160000x64.size a
  hwx1_1 : ∀ i : grid1.Coords, EltTy.bits .f32 = 32 ∨ (Rect.block (s := S160000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S160000x64.size a
  hwx1_6 : ∀ i : grid1.Coords, EltTy.bits .f32 = 32 ∨ (Rect.block (s := S160000x64) S4000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x64.size a ≤ S160000x64.size a
  hwx1_7 : ∀ i : grid1.Coords, EltTy.bits .f32 = 32 ∨ (Rect.block (s := S160000x64) S4000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S160000x64.size a
  hwx2_0 : ∀ i : grid2.Coords, EltTy.bits .f32 = 32 ∨ (Rect.block (s := S160000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S160000x64.size a
  hwx2_1 : ∀ i : grid2.Coords, EltTy.bits .f32 = 32 ∨ (Rect.block (s := S160000x64) S4000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x64.size a ≤ S160000x64.size a
  hwx2_6 : ∀ i : grid2.Coords, EltTy.bits .f32 = 32 ∨ (Rect.block (s := S160000x64) S4000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x64.size a ≤ S160000x64.size a
  hwx2_7 : ∀ i : grid2.Coords, EltTy.bits .f32 = 32 ∨ (Rect.block (s := S160000x64) S4000x64.size (cc2_transform_7 i) (hinb2_7 i)).WholeWords (EltTy.packing .f32)

variable [Facts₀]

def gather_S160000x64_S2000000x1_S2000000x64_1_0_n_n_0_1_164 : GatherDims S160000x64 S2000000x1 S2000000x64 where
  offsetDims := [1]
  collapsedSliceDims := [0]
  operandBatchingDims := []
  startIndicesBatchingDims := []
  startIndexMap := [0]
  indexVectorDim := 1
  sliceSizes := ![1, 64]
  wf := gather_S160000x64_S2000000x1_S2000000x64_1_0_n_n_0_1_164_wf
def scatter_S160000x64_S2000000x1_S2000000x64_1_0_0_1 : ScatterDims S160000x64 S2000000x1 S2000000x64 where
  updateWindowDims := [1]
  insertedWindowDims := [0]
  scatterDimsToOperandDims := [0]
  indexVectorDim := 1
  wf := scatter_S160000x64_S2000000x1_S2000000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x256_S16384x1_S16384x256_1_0_n_n_0_1_1256 : GatherDims S100000x256 S16384x1 S16384x256 where
  offsetDims := [1]
  collapsedSliceDims := [0]
  operandBatchingDims := []
  startIndicesBatchingDims := []
  startIndexMap := [0]
  indexVectorDim := 1
  sliceSizes := ![1, 256]
  wf := gather_S100000x256_S16384x1_S16384x256_1_0_n_n_0_1_1256_wf
def gather_S60000x256_S16384x1_S16384x256_1_0_n_n_0_1_1256 : GatherDims S60000x256 S16384x1 S16384x256 where
  offsetDims := [1]
  collapsedSliceDims := [0]
  operandBatchingDims := []
  startIndicesBatchingDims := []
  startIndexMap := [0]
  indexVectorDim := 1
  sliceSizes := ![1, 256]
  wf := gather_S60000x256_S16384x1_S16384x256_1_0_n_n_0_1_1256_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf

abbrev win0_0 : Pipeline.Window sig grid0 :=
  Pipeline.Window.ofSpec (Memref.whole main_v0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22_0) S4000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v22_1) S4000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22_0) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44_0) S4000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v44_1) S4000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v44_0) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66_0) S4000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v66_1) S4000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S16384 : Shape := ⟨1, ![16384]⟩
abbrev S2000000 : Shape := ⟨1, ![2000000]⟩
abbrev S100000x64 : Shape := ⟨2, ![100000, 64]⟩
abbrev S60000x64 : Shape := ⟨2, ![60000, 64]⟩
abbrev S3x64x64 : Shape := ⟨3, ![3, 64, 64]⟩
abbrev S3x1x64 : Shape := ⟨3, ![3, 1, 64]⟩
abbrev S256x1 : Shape := ⟨2, ![256, 1]⟩
abbrev S1 : Shape := ⟨1, ![1]⟩
abbrev S160000x64 : Shape := ⟨2, ![160000, 64]⟩
abbrev S2000000x1 : Shape := ⟨2, ![2000000, 1]⟩
abbrev S_ : Shape := ⟨0, ![]⟩
abbrev S2000000x64 : Shape := ⟨2, ![2000000, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S160000 : Shape := ⟨1, ![160000]⟩
abbrev S160000x1 : Shape := ⟨2, ![160000, 1]⟩
abbrev S160000x256 : Shape := ⟨2, ![160000, 256]⟩
abbrev S100000x256 : Shape := ⟨2, ![100000, 256]⟩
abbrev S16384x1 : Shape := ⟨2, ![16384, 1]⟩
abbrev S16384x256 : Shape := ⟨2, ![16384, 256]⟩
abbrev S60000x256 : Shape := ⟨2, ![60000, 256]⟩
abbrev S1x1 : Shape := ⟨2, ![1, 1]⟩

abbrev nBuf : Space → Nat
  | .hbm => 199
  | .vmem => 0
  | .smem => 0
  | _ => 0

abbrev hbmTy0_0 (i : Nat) : BufTy := match i % 128 with
  | 0 => ⟨S16384, .i32⟩
  | 1 => ⟨S16384, .i32⟩
  | 2 => ⟨S2000000, .i32⟩
  | 3 => ⟨S2000000, .i32⟩
  | 4 => ⟨S2000000, .f32⟩
  | 5 => ⟨S100000x64, .f32⟩
  | 6 => ⟨S60000x64, .f32⟩
  | 7 => ⟨S3x64x64, .f32⟩
  | 8 => ⟨S3x1x64, .f32⟩
  | 9 => ⟨S3x64x64, .f32⟩
  | 10 => ⟨S3x1x64, .f32⟩
  | 11 => ⟨S256x1, .f32⟩
  | 12 => ⟨S1, .f32⟩
  | 13 => ⟨S160000x64, .f32⟩
  | 14 => ⟨S2000000x1, .f32⟩
  | 15 => ⟨S_, .i32⟩
  | 16 => ⟨S2000000, .i32⟩
  | 17 => ⟨S2000000, .i1⟩
  | 18 => ⟨S_, .i32⟩
  | 19 => ⟨S2000000, .i32⟩
  | 20 => ⟨S2000000, .i32⟩
  | 21 => ⟨S2000000, .i32⟩
  | 22 => ⟨S2000000x1, .i32⟩
  | 23 => ⟨S2000000x64, .f32⟩
  | 24 => ⟨S2000000x64, .f32⟩
  | 25 => ⟨S2000000x64, .f32⟩
  | 26 => ⟨S_, .f32⟩
  | 27 => ⟨S160000x64, .f32⟩
  | 28 => ⟨S2000000x1, .i32⟩
  | 29 => ⟨S160000x64, .f32⟩
  | 30 => ⟨S1x64x64, .f32⟩
  | 31 => ⟨S64x64, .f32⟩
  | 32 => ⟨S160000x64, .f32⟩
  | 33 => ⟨S1x1x64, .f32⟩
  | 34 => ⟨S1x64, .f32⟩
  | 35 => ⟨S160000x64, .f32⟩
  | 36 => ⟨S160000x64, .f32⟩
  | 37 => ⟨S160000x64, .f32⟩
  | 38 => ⟨S1x64x64, .f32⟩
  | 39 => ⟨S64x64, .f32⟩
  | 40 => ⟨S160000x64, .f32⟩
  | 41 => ⟨S1x1x64, .f32⟩
  | 42 => ⟨S1x64, .f32⟩
  | 43 => ⟨S160000x64, .f32⟩
  | 44 => ⟨S160000x64, .f32⟩
  | 45 => ⟨S160000x64, .f32⟩
  | 46 => ⟨S_, .f32⟩
  | 47 => ⟨S_, .f32⟩
  | 48 => ⟨S160000x64, .f32⟩
  | 49 => ⟨S160000x64, .i1⟩
  | 50 => ⟨S_, .f32⟩
  | 51 => ⟨S160000x64, .f32⟩
  | 52 => ⟨S160000x64, .f32⟩
  | 53 => ⟨S160000x64, .f32⟩
  | 54 => ⟨S160000x64, .f32⟩
  | 55 => ⟨S_, .f32⟩
  | 56 => ⟨S160000, .f32⟩
  | 57 => ⟨S160000x1, .f32⟩
  | 58 => ⟨S160000x1, .f32⟩
  | 59 => ⟨S_, .f32⟩
  | 60 => ⟨S160000x1, .f32⟩
  | 61 => ⟨S160000x1, .f32⟩
  | 62 => ⟨S160000x64, .f32⟩
  | 63 => ⟨S160000x64, .f32⟩
  | 64 => ⟨S2000000x1, .f32⟩
  | 65 => ⟨S_, .i32⟩
  | 66 => ⟨S2000000, .i32⟩
  | 67 => ⟨S2000000, .i1⟩
  | 68 => ⟨S_, .i32⟩
  | 69 => ⟨S2000000, .i32⟩
  | 70 => ⟨S2000000, .i32⟩
  | 71 => ⟨S2000000, .i32⟩
  | 72 => ⟨S2000000x1, .i32⟩
  | 73 => ⟨S2000000x64, .f32⟩
  | 74 => ⟨S2000000x64, .f32⟩
  | 75 => ⟨S2000000x64, .f32⟩
  | 76 => ⟨S_, .f32⟩
  | 77 => ⟨S160000x64, .f32⟩
  | 78 => ⟨S2000000x1, .i32⟩
  | 79 => ⟨S160000x64, .f32⟩
  | 80 => ⟨S1x64x64, .f32⟩
  | 81 => ⟨S64x64, .f32⟩
  | 82 => ⟨S160000x64, .f32⟩
  | 83 => ⟨S1x1x64, .f32⟩
  | 84 => ⟨S1x64, .f32⟩
  | 85 => ⟨S160000x64, .f32⟩
  | 86 => ⟨S160000x64, .f32⟩
  | 87 => ⟨S160000x64, .f32⟩
  | 88 => ⟨S1x64x64, .f32⟩
  | 89 => ⟨S64x64, .f32⟩
  | 90 => ⟨S160000x64, .f32⟩
  | 91 => ⟨S1x1x64, .f32⟩
  | 92 => ⟨S1x64, .f32⟩
  | 93 => ⟨S160000x64, .f32⟩
  | 94 => ⟨S160000x64, .f32⟩
  | 95 => ⟨S160000x64, .f32⟩
  | 96 => ⟨S_, .f32⟩
  | 97 => ⟨S_, .f32⟩
  | 98 => ⟨S160000x64, .f32⟩
  | 99 => ⟨S160000x64, .i1⟩
  | 100 => ⟨S_, .f32⟩
  | 101 => ⟨S160000x64, .f32⟩
  | 102 => ⟨S160000x64, .f32⟩
  | 103 => ⟨S160000x64, .f32⟩
  | 104 => ⟨S160000x64, .f32⟩
  | 105 => ⟨S_, .f32⟩
  | 106 => ⟨S160000, .f32⟩
  | 107 => ⟨S160000x1, .f32⟩
  | 108 => ⟨S160000x1, .f32⟩
  | 109 => ⟨S_, .f32⟩
  | 110 => ⟨S160000x1, .f32⟩
  | 111 => ⟨S160000x1, .f32⟩
  | 112 => ⟨S160000x64, .f32⟩
  | 113 => ⟨S160000x64, .f32⟩
  | 114 => ⟨S2000000x1, .f32⟩
  | 115 => ⟨S_, .i32⟩
  | 116 => ⟨S2000000, .i32⟩
  | 117 => ⟨S2000000, .i1⟩
  | 118 => ⟨S_, .i32⟩
  | 119 => ⟨S2000000, .i32⟩
  | 120 => ⟨S2000000, .i32⟩
  | 121 => ⟨S2000000, .i32⟩
  | 122 => ⟨S2000000x1, .i32⟩
  | 123 => ⟨S2000000x64, .f32⟩
  | 124 => ⟨S2000000x64, .f32⟩
  | 125 => ⟨S2000000x64, .f32⟩
  | 126 => ⟨S_, .f32⟩
  | 127 => ⟨S160000x64, .f32⟩
  | _ => ⟨S16384, .i32⟩

abbrev hbmTy0_1 (i : Nat) : BufTy := match i % 128 with
  | 0 => ⟨S2000000x1, .i32⟩
  | 1 => ⟨S160000x64, .f32⟩
  | 2 => ⟨S1x64x64, .f32⟩
  | 3 => ⟨S64x64, .f32⟩
  | 4 => ⟨S160000x64, .f32⟩
  | 5 => ⟨S1x1x64, .f32⟩
  | 6 => ⟨S1x64, .f32⟩
  | 7 => ⟨S160000x64, .f32⟩
  | 8 => ⟨S160000x64, .f32⟩
  | 9 => ⟨S160000x64, .f32⟩
  | 10 => ⟨S1x64x64, .f32⟩
  | 11 => ⟨S64x64, .f32⟩
  | 12 => ⟨S160000x64, .f32⟩
  | 13 => ⟨S1x1x64, .f32⟩
  | 14 => ⟨S1x64, .f32⟩
  | 15 => ⟨S160000x64, .f32⟩
  | 16 => ⟨S160000x64, .f32⟩
  | 17 => ⟨S160000x64, .f32⟩
  | 18 => ⟨S_, .f32⟩
  | 19 => ⟨S_, .f32⟩
  | 20 => ⟨S160000x64, .f32⟩
  | 21 => ⟨S160000x64, .i1⟩
  | 22 => ⟨S_, .f32⟩
  | 23 => ⟨S160000x64, .f32⟩
  | 24 => ⟨S160000x64, .f32⟩
  | 25 => ⟨S160000x64, .f32⟩
  | 26 => ⟨S160000x64, .f32⟩
  | 27 => ⟨S_, .f32⟩
  | 28 => ⟨S160000, .f32⟩
  | 29 => ⟨S160000x1, .f32⟩
  | 30 => ⟨S160000x1, .f32⟩
  | 31 => ⟨S_, .f32⟩
  | 32 => ⟨S160000x1, .f32⟩
  | 33 => ⟨S160000x1, .f32⟩
  | 34 => ⟨S160000x64, .f32⟩
  | 35 => ⟨S160000x64, .f32⟩
  | 36 => ⟨S160000x256, .f32⟩
  | 37 => ⟨S100000x256, .f32⟩
  | 38 => ⟨S_, .i32⟩
  | 39 => ⟨S16384, .i32⟩
  | 40 => ⟨S16384, .i1⟩
  | 41 => ⟨S_, .i32⟩
  | 42 => ⟨S16384, .i32⟩
  | 43 => ⟨S16384, .i32⟩
  | 44 => ⟨S16384, .i32⟩
  | 45 => ⟨S16384x1, .i32⟩
  | 46 => ⟨S16384x256, .f32⟩
  | 47 => ⟨S60000x256, .f32⟩
  | 48 => ⟨S_, .i32⟩
  | 49 => ⟨S16384, .i32⟩
  | 50 => ⟨S16384, .i1⟩
  | 51 => ⟨S_, .i32⟩
  | 52 => ⟨S16384, .i32⟩
  | 53 => ⟨S16384, .i32⟩
  | 54 => ⟨S16384, .i32⟩
  | 55 => ⟨S16384x1, .i32⟩
  | 56 => ⟨S16384x256, .f32⟩
  | 57 => ⟨S16384x256, .f32⟩
  | 58 => ⟨S16384x1, .f32⟩
  | 59 => ⟨S1x1, .f32⟩
  | 60 => ⟨S16384x1, .f32⟩
  | 61 => ⟨S16384x1, .f32⟩
  | 62 => ⟨S16384, .f32⟩
  | 63 => ⟨S16384, .f32⟩
  | 64 => ⟨S16384, .f32⟩
  | 65 => ⟨S_, .f32⟩
  | 66 => ⟨S16384, .f32⟩
  | 67 => ⟨S16384, .f32⟩
  | 68 => ⟨S_, .f32⟩
  | 69 => ⟨S16384, .f32⟩
  | 70 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_1 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v30 : Ref sig .tc := ⟨.hbm, 53, rfl⟩
abbrev main_call1_v0 : Ref sig .tc := ⟨.hbm, 54, rfl⟩
abbrev main_call1_cst : Ref sig .tc := ⟨.hbm, 55, rfl⟩
abbrev main_call1_v1 : Ref sig .tc := ⟨.hbm, 56, rfl⟩
abbrev main_call1_v2 : Ref sig .tc := ⟨.hbm, 57, rfl⟩
abbrev main_v31 : Ref sig .tc := ⟨.hbm, 58, rfl⟩
abbrev main_cst_2 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_3 : Ref sig .tc := ⟨.hbm, 65, rfl⟩
abbrev main_v37 : Ref sig .tc := ⟨.hbm, 66, rfl⟩
abbrev main_v38 : Ref sig .tc := ⟨.hbm, 67, rfl⟩
abbrev main_c_4 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_5 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_6 : Ref sig .tc := ⟨.hbm, 96, rfl⟩
abbrev main_call2_cst : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_v65 : Ref sig .tc := ⟨.hbm, 103, rfl⟩
abbrev main_call3_v0 : Ref sig .tc := ⟨.hbm, 104, rfl⟩
abbrev main_call3_cst : Ref sig .tc := ⟨.hbm, 105, rfl⟩
abbrev main_call3_v1 : Ref sig .tc := ⟨.hbm, 106, rfl⟩
abbrev main_call3_v2 : Ref sig .tc := ⟨.hbm, 107, rfl⟩
abbrev main_v66 : Ref sig .tc := ⟨.hbm, 108, rfl⟩
abbrev main_cst_7 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_c_8 : Ref sig .tc := ⟨.hbm, 115, rfl⟩
abbrev main_v72 : Ref sig .tc := ⟨.hbm, 116, rfl⟩
abbrev main_v73 : Ref sig .tc := ⟨.hbm, 117, rfl⟩
abbrev main_c_9 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_10 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_11 : Ref sig .tc := ⟨.hbm, 146, rfl⟩
abbrev main_call4_cst : Ref sig .tc := ⟨.hbm, 147, rfl⟩
abbrev main_call4_v0 : Ref sig .tc := ⟨.hbm, 148, rfl⟩
abbrev main_call4_v1 : Ref sig .tc := ⟨.hbm, 149, rfl⟩
abbrev main_call4_v2 : Ref sig .tc := ⟨.hbm, 150, rfl⟩
abbrev main_call4_v3 : Ref sig .tc := ⟨.hbm, 151, rfl⟩
abbrev main_call4_v4 : Ref sig .tc := ⟨.hbm, 152, rfl⟩
abbrev main_v100 : Ref sig .tc := ⟨.hbm, 153, rfl⟩
abbrev main_call5_v0 : Ref sig .tc := ⟨.hbm, 154, rfl⟩
abbrev main_call5_cst : Ref sig .tc := ⟨.hbm, 155, rfl⟩
abbrev main_call5_v1 : Ref sig .tc := ⟨.hbm, 156, rfl⟩
abbrev main_call5_v2 : Ref sig .tc := ⟨.hbm, 157, rfl⟩
abbrev main_v101 : Ref sig .tc := ⟨.hbm, 158, rfl⟩
abbrev main_cst_12 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_c_13 : Ref sig .tc := ⟨.hbm, 166, rfl⟩
abbrev main_v108 : Ref sig .tc := ⟨.hbm, 167, rfl⟩
abbrev main_v109 : Ref sig .tc := ⟨.hbm, 168, rfl⟩
abbrev main_c_14 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_c_15 : Ref sig .tc := ⟨.hbm, 176, rfl⟩
abbrev main_v116 : Ref sig .tc := ⟨.hbm, 177, rfl⟩
abbrev main_v117 : Ref sig .tc := ⟨.hbm, 178, rfl⟩
abbrev main_c_16 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_cst_17 : Ref sig .tc := ⟨.hbm, 193, rfl⟩
abbrev main_v131 : Ref sig .tc := ⟨.hbm, 194, rfl⟩
abbrev main_v132 : Ref sig .tc := ⟨.hbm, 195, rfl⟩
abbrev main_cst_18 : Ref sig .tc := ⟨.hbm, 196, rfl⟩
abbrev main_v133 : Ref sig .tc := ⟨.hbm, 197, rfl⟩
abbrev main_v134 : Ref sig .tc := ⟨.hbm, 198, rfl⟩

abbrev nD : Nat := 1
abbrev τ : Topo := Topo.v7x

variable {F : FTy → Type} [FloatOps F]

class Facts₀ : Prop where
  concatenates_S100000x64_S60000x64_S160000x64_d0 : Shape.Concatenates [S100000x64, S60000x64] S160000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S160000x64 : S_.BroadcastsInDim S160000x64 (![] : Fin 0 → Fin S160000x64.rank)
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  bcast_S1x64_S160000x64_0_1 : S1x64.BroadcastsInDim S160000x64 (![0, 1] : Fin 2 → Fin S160000x64.rank)
  reducesTo_S160000x64_S160000_d1 : S160000x64.ReducesTo [1] S160000
  h_S_ : 0 < S_.numel
  bcast_S160000_S160000x1_0 : S160000.BroadcastsInDim S160000x1 (![0] : Fin 1 → Fin S160000x1.rank)
  bcast_S_S160000x1 : S_.BroadcastsInDim S160000x1 (![] : Fin 0 → Fin S160000x1.rank)
  bcast_S160000x1_S160000x64_0_1 : S160000x1.BroadcastsInDim S160000x64 (![0, 1] : Fin 2 → Fin S160000x64.rank)
  slices_S3x64x64_S1x64x64_1_0_0 : S3x64x64.Slices ![1, 0, 0] S1x64x64
  slices_S3x1x64_S1x1x64_1_0_0 : S3x1x64.Slices ![1, 0, 0] S1x1x64
  slices_S3x64x64_S1x64x64_2_0_0 : S3x64x64.Slices ![2, 0, 0] S1x64x64
  slices_S3x1x64_S1x1x64_2_0_0 : S3x1x64.Slices ![2, 0, 0] S1x1x64
  concatenates_S160000x64_S160000x64_S160000x64_S160000x64_S160000x256_d1 : Shape.Concatenates [S160000x64, S160000x64, S160000x64, S160000x64] S160000x256 1
  slices_S160000x256_S100000x256_0_0 : S160000x256.Slices ![0, 0] S100000x256
  bcast_S_S16384 : S_.BroadcastsInDim S16384 (![] : Fin 0 → Fin S16384.rank)
  bcast_S16384_S16384x1_0 : S16384.BroadcastsInDim S16384x1 (![0] : Fin 1 → Fin S16384x1.rank)
  slices_S160000x256_S60000x256_100000_0 : S160000x256.Slices ![100000, 0] S60000x256
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  gather_S160000x64_S2000000x1_S2000000x64_1_0_n_n_0_1_164_wf : GatherDims.WF S160000x64 S2000000x1 S2000000x64 [1] [0] [] [0] [] 1 ![1, 64]
  scatter_S160000x64_S2000000x1_S2000000x64_1_0_0_1_wf : ScatterDims.WF S160000x64 S2000000x1 S2000000x64 [1] [0] [0] 1
  dot_S160000x64_S64x64_S160000x64_1_0_0_1_n_n_wf : DotDims.WF S160000x64 S64x64 S160000x64 [1] [0] [0] [1] [] []
  gather_S100000x256_S16384x1_S16384x256_1_0_n_n_0_1_1256_wf : GatherDims.WF S100000x256 S16384x1 S16384x256 [1] [0] [] [0] [] 1 ![1, 256]
  gather_S60000x256_S16384x1_S16384x256_1_0_n_n_0_1_1256_wf : GatherDims.WF S60000x256 S16384x1 S16384x256 [1] [0] [] [0] [] 1 ![1, 256]
  dot_S16384x256_S256x1_S16384x1_1_0_0_1_n_n_wf : DotDims.WF S16384x256 S256x1 S16384x1 [1] [0] [0] [1] [] []

variable [Facts₀]

def gather_S160000x64_S2000000x1_S2000000x64_1_0_n_n_0_1_164 : GatherDims S160000x64 S2000000x1 S2000000x64 where
  offsetDims := [1]
  collapsedSliceDims := [0]
  operandBatchingDims := []
  startIndicesBatchingDims := []
  startIndexMap := [0]
  indexVectorDim := 1
  sliceSizes := ![1, 64]
  wf := gather_S160000x64_S2000000x1_S2000000x64_1_0_n_n_0_1_164_wf
def scatter_S160000x64_S2000000x1_S2000000x64_1_0_0_1 : ScatterDims S160000x64 S2000000x1 S2000000x64 where
  updateWindowDims := [1]
  insertedWindowDims := [0]
  scatterDimsToOperandDims := [0]
  indexVectorDim := 1
  wf := scatter_S160000x64_S2000000x1_S2000000x64_1_0_0_1_wf
def dot_S160000x64_S64x64_S160000x64_1_0_0_1_n_n : DotDims S160000x64 S64x64 S160000x64 where
  lhsContracting := [1]
  rhsContracting := [0]
  lhsNonContracting := [0]
  rhsNonContracting := [1]
  lhsBatch := []
  rhsBatch := []
  wf := dot_S160000x64_S64x64_S160000x64_1_0_0_1_n_n_wf
def gather_S100000x256_S16384x1_S16384x256_1_0_n_n_0_1_1256 : GatherDims S100000x256 S16384x1 S16384x256 where
  offsetDims := [1]
  collapsedSliceDims := [0]
  operandBatchingDims := []
  startIndicesBatchingDims := []
  startIndexMap := [0]
  indexVectorDim := 1
  sliceSizes := ![1, 256]
  wf := gather_S100000x256_S16384x1_S16384x256_1_0_n_n_0_1_1256_wf
def gather_S60000x256_S16384x1_S16384x256_1_0_n_n_0_1_1256 : GatherDims S60000x256 S16384x1 S16384x256 where
  offsetDims := [1]
  collapsedSliceDims := [0]
  operandBatchingDims := []
  startIndicesBatchingDims := []
  startIndexMap := [0]
  indexVectorDim := 1
  sliceSizes := ![1, 256]
  wf := gather_S60000x256_S16384x1_S16384x256_1_0_n_n_0_1_1256_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf

class Facts : Prop extends Facts₀ where

variable [Facts]
-- ==== Proof.KernelRegion0.lean ====
/- The kernel-side half of region 0 (custom call 0, `cc0__layer_kernel`, pipeline 0) at a parameter `V`, the
   buffer contents when the region is entered: each window's block at a grid point, what the body leaves in the two
   output windows' staging buffers as a closed function of the six input blocks, the body's triple, the pipeline's
   proof data and the body obligation at every point. Stated for any float model `F`. -/
import proofs.«162997_j3143916060680_1_alg».proof.Proof.Gen.Kernel.Launch
import proofs.«162997_j3143916060680_1_alg».proof.Proof.Gen.Kernel.Skeleton
import proofs.«162997_j3143916060680_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents (`View.cover_of_tiled`): the structural check
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched the block index has not moved, so the block kept from the point before is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not: where it is not
    fetched the block index has not moved, so the block kept from the point before is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not: where it is not
    fetched the block index has not moved, so the block kept from the point before is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not: where it is not
    fetched the block index has not moved, so the block kept from the point before is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not: where it is not
    fetched the block index has not moved, so the block kept from the point before is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not: where it is not
    fetched the block index has not moved, so the block kept from the point before is this point's. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev r0_0 : Rect S4000x64 := Rect.unit (s := S4000x64) ![0, 0] S4000x64.size inb_S4000x64_S4000x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0

/-! ## What the body leaves in each output window's buffer -/

/-- Window 6's staging buffer after the body, from the input windows' blocks: its one store, of the first payload. -/
def out0_6 (x0 : Vec F S4000x64 .f32) (x1 : Vec F S4000x64 .f32) (x2 : Vec F S64x64 .f32) (x3 : Vec F S1x64 .f32) (x4 : Vec F S64x64 .f32) (x5 : Vec F S1x64 .f32) : Vec F S4000x64 .f32 :=
  View.canon [⟨r0_0, k0_pay1 (View.ld x0 r0_0) (View.ld x1 r0_0) (View.ld x2 r0_1) (View.ld x3 r0_2) (View.ld x4 r0_1) (View.ld x5 r0_2)⟩]

/-- Window 7's staging buffer after the body, from the input windows' blocks: its one store, of the second payload. -/
def out0_7 (x0 : Vec F S4000x64 .f32) (x1 : Vec F S4000x64 .f32) (x2 : Vec F S64x64 .f32) (x3 : Vec F S1x64 .f32) (x4 : Vec F S64x64 .f32) (x5 : Vec F S1x64 .f32) : Vec F S4000x64 .f32 :=
  View.canon [⟨r0_0, k0_pay2 (View.ld x0 r0_0) (View.ld x1 r0_0) (View.ld x2 r0_1) (View.ld x3 r0_2) (View.ld x4 r0_1) (View.ld x5 r0_2)⟩]

/-- The one store covers the buffer. -/
theorem cover0_6 (p0 : Vec F S4000x64 .f32) (y : S4000x64.Idx) :
    ∃ pc ∈ ([⟨r0_0, p0⟩] : List (View.Piece (Elt F) S4000x64 .f32)), y ∈ pc.1.set :=
  View.cover_of_tiled [⟨r0_0, p0⟩] S4000x64.size (by rfl) y

/-- The one store covers the buffer. -/
theorem cover0_7 (p0 : Vec F S4000x64 .f32) (y : S4000x64.Idx) :
    ∃ pc ∈ ([⟨r0_0, p0⟩] : List (View.Piece (Elt F) S4000x64 .f32)), y ∈ pc.1.set :=
  View.cover_of_tiled [⟨r0_0, p0⟩] S4000x64.size (by rfl) y

/-! ## The body's triple -/

set_option maxHeartbeats 1000000 in
/-- The kernel body on whole staging memrefs, the six inputs' at read contents `x0 … x5` and the two outputs' at
    anything, runs to the continuation holding the inputs' as they were and each output's at `out0_6` / `out0_7` of
    the inputs. The body loads each output buffer before storing into it; the loaded values are not used. -/
theorem sound_kernel0 (c : Dev nD) (E : Set ℕ) (i : grid0.Coords) (arg1 : Memref sig .tc .vmem S4000x64 .f32) (harg1 : arg1.IsWhole) (arg2 : Memref sig .tc .vmem S4000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4000x64 .f32) (harg7 : arg7.IsWhole) (arg8 : Memref sig .tc .vmem S4000x64 .f32) (harg8 : arg8.IsWhole)
    (x0 : Vec F S4000x64 .f32) (x1 : Vec F S4000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of pipeline 0 on core `c`: the arrays as the region finds them (`V`); after the body at point `t`
    each input's buffer at its block and each output's at `out0_6` / `out0_7` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_w`), so `sound_kernel0` applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Run

end
-- ==== Proof.KernelRegion1.lean ====
/- The kernel-side half of region 1 (custom call 1, `cc1__layer_kernel`, pipeline 1) at a parameter `V`, the
   buffer contents when the region is entered: each window's block at a grid point, what the body leaves in the two
   output windows' staging buffers as a closed function of the six input blocks, the body's triple, the pipeline's
   proof data and the body obligation at every point. Stated for any float model `F`. -/
import proofs.«162997_j3143916060680_1_alg».proof.Proof.Gen.Kernel.Launch
import proofs.«162997_j3143916060680_1_alg».proof.Proof.Gen.Kernel.Skeleton
import proofs.«162997_j3143916060680_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents (`View.cover_of_tiled`): the structural check
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched the block index has not moved, so the block kept from the point before is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not: where it is not
    fetched the block index has not moved, so the block kept from the point before is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not: where it is not
    fetched the block index has not moved, so the block kept from the point before is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not: where it is not
    fetched the block index has not moved, so the block kept from the point before is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not: where it is not
    fetched the block index has not moved, so the block kept from the point before is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not: where it is not
    fetched the block index has not moved, so the block kept from the point before is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

abbrev r1_0 : Rect S4000x64 := Rect.unit (s := S4000x64) ![0, 0] S4000x64.size inb_S4000x64_S4000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0

/-! ## What the body leaves in each output window's buffer -/

/-- Window 6's staging buffer after the body, from the input windows' blocks: its one store, of the first payload. -/
def out1_6 (x0 : Vec F S4000x64 .f32) (x1 : Vec F S4000x64 .f32) (x2 : Vec F S64x64 .f32) (x3 : Vec F S1x64 .f32) (x4 : Vec F S64x64 .f32) (x5 : Vec F S1x64 .f32) : Vec F S4000x64 .f32 :=
  View.canon [⟨r1_0, k1_pay1 (View.ld x0 r1_0) (View.ld x1 r1_0) (View.ld x2 r1_1) (View.ld x3 r1_2) (View.ld x4 r1_1) (View.ld x5 r1_2)⟩]

/-- Window 7's staging buffer after the body, from the input windows' blocks: its one store, of the second payload. -/
def out1_7 (x0 : Vec F S4000x64 .f32) (x1 : Vec F S4000x64 .f32) (x2 : Vec F S64x64 .f32) (x3 : Vec F S1x64 .f32) (x4 : Vec F S64x64 .f32) (x5 : Vec F S1x64 .f32) : Vec F S4000x64 .f32 :=
  View.canon [⟨r1_0, k1_pay2 (View.ld x0 r1_0) (View.ld x1 r1_0) (View.ld x2 r1_1) (View.ld x3 r1_2) (View.ld x4 r1_1) (View.ld x5 r1_2)⟩]

/-- The one store covers the buffer. -/
theorem cover1_6 (p0 : Vec F S4000x64 .f32) (y : S4000x64.Idx) :
    ∃ pc ∈ ([⟨r1_0, p0⟩] : List (View.Piece (Elt F) S4000x64 .f32)), y ∈ pc.1.set :=
  View.cover_of_tiled [⟨r1_0, p0⟩] S4000x64.size (by rfl) y

/-- The one store covers the buffer. -/
theorem cover1_7 (p0 : Vec F S4000x64 .f32) (y : S4000x64.Idx) :
    ∃ pc ∈ ([⟨r1_0, p0⟩] : List (View.Piece (Elt F) S4000x64 .f32)), y ∈ pc.1.set :=
  View.cover_of_tiled [⟨r1_0, p0⟩] S4000x64.size (by rfl) y

/-! ## The body's triple -/

set_option maxHeartbeats 1000000 in
/-- The kernel body on whole staging memrefs, the six inputs' at read contents `x0 … x5` and the two outputs' at
    anything, runs to the continuation holding the inputs' as they were and each output's at `out1_6` / `out1_7` of
    the inputs. The body loads each output buffer before storing into it; the loaded values are not used. -/
theorem sound_kernel1 (c : Dev nD) (E : Set ℕ) (i : grid1.Coords) (arg1 : Memref sig .tc .vmem S4000x64 .f32) (harg1 : arg1.IsWhole) (arg2 : Memref sig .tc .vmem S4000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4000x64 .f32) (harg7 : arg7.IsWhole) (arg8 : Memref sig .tc .vmem S4000x64 .f32) (harg8 : arg8.IsWhole)
    (x0 : Vec F S4000x64 .f32) (x1 : Vec F S4000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  iexists _; isplitr
  swap; · iexact H7
  ipureintro
  exact View.read_writes_eq_canon _ _ _ (cover1_7 _)

/-! ## The pipeline's proof data -/

/-- The proof data of pipeline 1 on core `c`: the arrays as the region finds them (`V`); after the body at point `t`
    each input's buffer at its block and each output's at `out1_6` / `out1_7` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks (`before1_w`), so `sound_kernel1` applies; the
    invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Run

end
-- ==== Proof.KernelRegion2.lean ====
/- The kernel-side half of region 2 (custom call 2, `cc2__layer_kernel`, pipeline 2) at a parameter `V`, the
   buffer contents when the region is entered: each window's block at a grid point, what the body leaves in the two
   output windows' staging buffers as a closed function of the six input blocks, the body's triple, the pipeline's
   proof data and the body obligation at every point. Stated for any float model `F`. -/
import proofs.«162997_j3143916060680_1_alg».proof.Proof.Gen.Kernel.Launch
import proofs.«162997_j3143916060680_1_alg».proof.Proof.Gen.Kernel.Skeleton
import proofs.«162997_j3143916060680_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents (`View.cover_of_tiled`): the structural check
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched the block index has not moved, so the block kept from the point before is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not: where it is not
    fetched the block index has not moved, so the block kept from the point before is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not: where it is not
    fetched the block index has not moved, so the block kept from the point before is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not: where it is not
    fetched the block index has not moved, so the block kept from the point before is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not: where it is not
    fetched the block index has not moved, so the block kept from the point before is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not: where it is not
    fetched the block index has not moved, so the block kept from the point before is this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole staging buffer -/

abbrev r2_0 : Rect S4000x64 := Rect.unit (s := S4000x64) ![0, 0] S4000x64.size inb_S4000x64_S4000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0

/-! ## What the body leaves in each output window's buffer -/

/-- Window 6's staging buffer after the body, from the input windows' blocks: its one store, of the first payload. -/
def out2_6 (x0 : Vec F S4000x64 .f32) (x1 : Vec F S4000x64 .f32) (x2 : Vec F S64x64 .f32) (x3 : Vec F S1x64 .f32) (x4 : Vec F S64x64 .f32) (x5 : Vec F S1x64 .f32) : Vec F S4000x64 .f32 :=
  View.canon [⟨r2_0, k2_pay1 (View.ld x0 r2_0) (View.ld x1 r2_0) (View.ld x2 r2_1) (View.ld x3 r2_2) (View.ld x4 r2_1) (View.ld x5 r2_2)⟩]

/-- Window 7's staging buffer after the body, from the input windows' blocks: its one store, of the second payload. -/
def out2_7 (x0 : Vec F S4000x64 .f32) (x1 : Vec F S4000x64 .f32) (x2 : Vec F S64x64 .f32) (x3 : Vec F S1x64 .f32) (x4 : Vec F S64x64 .f32) (x5 : Vec F S1x64 .f32) : Vec F S4000x64 .f32 :=
  View.canon [⟨r2_0, k2_pay2 (View.ld x0 r2_0) (View.ld x1 r2_0) (View.ld x2 r2_1) (View.ld x3 r2_2) (View.ld x4 r2_1) (View.ld x5 r2_2)⟩]

/-- The one store covers the buffer. -/
theorem cover2_6 (p0 : Vec F S4000x64 .f32) (y : S4000x64.Idx) :
    ∃ pc ∈ ([⟨r2_0, p0⟩] : List (View.Piece (Elt F) S4000x64 .f32)), y ∈ pc.1.set :=
  View.cover_of_tiled [⟨r2_0, p0⟩] S4000x64.size (by rfl) y

/-- The one store covers the buffer. -/
theorem cover2_7 (p0 : Vec F S4000x64 .f32) (y : S4000x64.Idx) :
    ∃ pc ∈ ([⟨r2_0, p0⟩] : List (View.Piece (Elt F) S4000x64 .f32)), y ∈ pc.1.set :=
  View.cover_of_tiled [⟨r2_0, p0⟩] S4000x64.size (by rfl) y

/-! ## The body's triple -/

set_option maxHeartbeats 1000000 in
/-- The kernel body on whole staging memrefs, the six inputs' at read contents `x0 … x5` and the two outputs' at
    anything, runs to the continuation holding the inputs' as they were and each output's at `out2_6` / `out2_7` of
    the inputs. The body loads each output buffer before storing into it; the loaded values are not used. -/
theorem sound_kernel2 (c : Dev nD) (E : Set ℕ) (i : grid2.Coords) (arg1 : Memref sig .tc .vmem S4000x64 .f32) (harg1 : arg1.IsWhole) (arg2 : Memref sig .tc .vmem S4000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4000x64 .f32) (harg7 : arg7.IsWhole) (arg8 : Memref sig .tc .vmem S4000x64 .f32) (harg8 : arg8.IsWhole)
    (x0 : Vec F S4000x64 .f32) (x1 : Vec F S4000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8) K := by
  simp only [cc2__layer_kernel_eq_skeleton]; unfold cc2__layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

/-! ## The pipeline's proof data -/

/-- The proof data of pipeline 2 on core `c`: the arrays as the region finds them (`V`); after the body at point `t`
    each input's buffer at its block and each output's at `out2_6` / `out2_7` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks (`before2_w`), so `sound_kernel2` applies; the
    invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Run

end
-- ==== Proof.KernelRun.lean ====
/- The whole-program run of the kernel program's @main — four stretches of host operations around three kernel
   regions — for any float model `F`: the buffer contents at every boundary between two items as a fold from the launch
   memory (a host stretch's `StableHlo.after`; a region's window arrays at what its write-backs leave), each argument
   array read back through the fold to its launch contents, the regions as segments over the thread state "every
   unscoped buffer at the boundary's contents, the generator register at some state, nothing owed", and the two
   theorems: every unscoped buffer ends at the fold's last contents (`run_all`), hence every argument array ends as
   launched (`frame`). -/
import proofs.«162997_j3143916060680_1_alg».proof.Proof.KernelRegion0
import proofs.«162997_j3143916060680_1_alg».proof.Proof.KernelRegion1
import proofs.«162997_j3143916060680_1_alg».proof.Proof.KernelRegion2
import proofs.«162997_j3143916060680_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents (`View.cover_of_tiled`): the structural check
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references (what region 0's proof data take). -/
abbrev E1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev X2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (E1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = E1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev E3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev X4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (E3 m ρ) c).arrAt w cfg1.N = X4 m ρ c (Pipeline.arrRef spec1 w) :=
  (W4_arr m ρ c w).symm
theorem hrest1 (c : Dev nD) : ∀ b, b ∉ Finset.univ.image (Pipeline.arrRef spec1) → X4 m ρ c b = E3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev E5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev X6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (E5 m ρ) c).arrAt w cfg2.N = X6 m ρ c (Pipeline.arrRef spec2 w) :=
  (W6_arr m ρ c w).symm
theorem hrest2 (c : Dev nD) : ∀ b, b ∉ Finset.univ.image (Pipeline.arrRef spec2) → X6 m ρ c b = E5 m ρ c b :=
  fun b hb => W6_of_ne m ρ c b fun w e => hb (Finset.mem_image.mpr ⟨w, Finset.mem_univ _, e⟩)

/-- After `hostOps3` (the return). -/
abbrev W7 : Dev nD → Valuation τ sig (Elt F) := fun c => StableHlo.after hostOps3 (W6 m ρ c)

/-! ### The arguments end as launched: no host operation writes one and no region stages one, so the fold at an
    argument's buffer walks back to the launch memory -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W7_main_arg12 (c : Dev nD) : W7 m ρ c (Proc.devRef .tc main_arg12) = m ((c : Thread nD τ).loc main_arg12) :=
  calc W7 m ρ c (Proc.devRef .tc main_arg12)
    _ = W6 m ρ c (Proc.devRef .tc main_arg12) := StableHlo.after_of_writes_sub hostOps3 _ hostOps3_writes (by decide)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-! ## The proof data family and the thread state -/

/-- Every pipeline's proof data, each at its region's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W7`, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- REGION 0 (custom call 0) over the thread state: entered from every unscoped buffer at `W1`, left at `W2`.
    Its arrays are split out of the unscoped buffers and put back at the exit contents; the generator register goes
    into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom call 1) over the thread state: entered from every unscoped buffer at `W3`, left at `W4`.
    Its arrays are split out of the unscoped buffers and put back at the exit contents; the generator register goes
    into the class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (X4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom call 2) over the thread state: entered from every unscoped buffer at `W5`, left at `W6`.
    Its arrays are split out of the unscoped buffers and put back at the exit contents; the generator register goes
    into the class invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (X6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per kernel call. -/
abbrev rsegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

set_option backward.isDefEq.respectTransparency.types false in
/-- THE RUN: at the compiled mesh, from any memory with zero counters, every weakly fair execution of @main on the
    TensorCores terminates, nothing faulting, and in every final state each core's every unscoped buffer holds the
    fold's last contents `W7`. -/
theorem run_all (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (rsegs m ρ)
    (fun c Q => by
      rewrite [main_chain c, Seg.run_eq_chain,
        show (rsegs m ρ).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every argument array ends holding its launch contents — `run_all` read at the thirteen arguments, each
    through the fold by `W7_main_argJ`. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c)⟩) (run_all m ρ)

end Cert.Kernel.Run

end
-- ==== Proof.KernelIdealRegion0.lean ====
/- The kernel-side half of region 0 (custom call 0, `cc0__layer_kernel`, pipeline 0) at a parameter `V`, the
   buffer contents when the region is entered: each window's block at a grid point, what the body leaves in the two
   output windows' staging buffers as a closed function of the six input blocks, the body's triple, the pipeline's
   proof data and the body obligation at every point. Stated for any float model `F`. -/
import proofs.«162997_j3143916060680_1_alg».proof.Proof.Gen.KernelIdeal.Launch
import proofs.«162997_j3143916060680_1_alg».proof.Proof.Gen.KernelIdeal.Skeleton
import proofs.«162997_j3143916060680_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents (`View.cover_of_tiled`): the structural check
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched the block index has not moved, so the block kept from the point before is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not: where it is not
    fetched the block index has not moved, so the block kept from the point before is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not: where it is not
    fetched the block index has not moved, so the block kept from the point before is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not: where it is not
    fetched the block index has not moved, so the block kept from the point before is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not: where it is not
    fetched the block index has not moved, so the block kept from the point before is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not: where it is not
    fetched the block index has not moved, so the block kept from the point before is this point's. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev r0_0 : Rect S4000x64 := Rect.unit (s := S4000x64) ![0, 0] S4000x64.size inb_S4000x64_S4000x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0

/-! ## What the body leaves in each output window's buffer -/

/-- Window 6's staging buffer after the body, from the input windows' blocks: its one store, of the first payload. -/
def out0_6 (x0 : Vec F S4000x64 .f32) (x1 : Vec F S4000x64 .f32) (x2 : Vec F S64x64 .f32) (x3 : Vec F S1x64 .f32) (x4 : Vec F S64x64 .f32) (x5 : Vec F S1x64 .f32) : Vec F S4000x64 .f32 :=
  View.canon [⟨r0_0, k0_pay1 (View.ld x0 r0_0) (View.ld x1 r0_0) (View.ld x2 r0_1) (View.ld x3 r0_2) (View.ld x4 r0_1) (View.ld x5 r0_2)⟩]

/-- Window 7's staging buffer after the body, from the input windows' blocks: its one store, of the second payload. -/
def out0_7 (x0 : Vec F S4000x64 .f32) (x1 : Vec F S4000x64 .f32) (x2 : Vec F S64x64 .f32) (x3 : Vec F S1x64 .f32) (x4 : Vec F S64x64 .f32) (x5 : Vec F S1x64 .f32) : Vec F S4000x64 .f32 :=
  View.canon [⟨r0_0, k0_pay2 (View.ld x0 r0_0) (View.ld x1 r0_0) (View.ld x2 r0_1) (View.ld x3 r0_2) (View.ld x4 r0_1) (View.ld x5 r0_2)⟩]

/-- The one store covers the buffer. -/
theorem cover0_6 (p0 : Vec F S4000x64 .f32) (y : S4000x64.Idx) :
    ∃ pc ∈ ([⟨r0_0, p0⟩] : List (View.Piece (Elt F) S4000x64 .f32)), y ∈ pc.1.set :=
  View.cover_of_tiled [⟨r0_0, p0⟩] S4000x64.size (by rfl) y

/-- The one store covers the buffer. -/
theorem cover0_7 (p0 : Vec F S4000x64 .f32) (y : S4000x64.Idx) :
    ∃ pc ∈ ([⟨r0_0, p0⟩] : List (View.Piece (Elt F) S4000x64 .f32)), y ∈ pc.1.set :=
  View.cover_of_tiled [⟨r0_0, p0⟩] S4000x64.size (by rfl) y

/-! ## The body's triple -/

set_option maxHeartbeats 1000000 in
/-- The kernel body on whole staging memrefs, the six inputs' at read contents `x0 … x5` and the two outputs' at
    anything, runs to the continuation holding the inputs' as they were and each output's at `out0_6` / `out0_7` of
    the inputs. The body loads each output buffer before storing into it; the loaded values are not used. -/
theorem sound_kernel0 (c : Dev nD) (E : Set ℕ) (i : grid0.Coords) (arg1 : Memref sig .tc .vmem S4000x64 .f32) (harg1 : arg1.IsWhole) (arg2 : Memref sig .tc .vmem S4000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4000x64 .f32) (harg7 : arg7.IsWhole) (arg8 : Memref sig .tc .vmem S4000x64 .f32) (harg8 : arg8.IsWhole)
    (x0 : Vec F S4000x64 .f32) (x1 : Vec F S4000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of pipeline 0 on core `c`: the arrays as the region finds them (`V`); after the body at point `t`
    each input's buffer at its block and each output's at `out0_6` / `out0_7` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_w`), so `sound_kernel0` applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Run

end
-- ==== Proof.KernelIdealRegion1.lean ====
/- The kernel-side half of region 1 (custom call 1, `cc1__layer_kernel`, pipeline 1) at a parameter `V`, the
   buffer contents when the region is entered: each window's block at a grid point, what the body leaves in the two
   output windows' staging buffers as a closed function of the six input blocks, the body's triple, the pipeline's
   proof data and the body obligation at every point. Stated for any float model `F`. -/
import proofs.«162997_j3143916060680_1_alg».proof.Proof.Gen.KernelIdeal.Launch
import proofs.«162997_j3143916060680_1_alg».proof.Proof.Gen.KernelIdeal.Skeleton
import proofs.«162997_j3143916060680_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents (`View.cover_of_tiled`): the structural check
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched the block index has not moved, so the block kept from the point before is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not: where it is not
    fetched the block index has not moved, so the block kept from the point before is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not: where it is not
    fetched the block index has not moved, so the block kept from the point before is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not: where it is not
    fetched the block index has not moved, so the block kept from the point before is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not: where it is not
    fetched the block index has not moved, so the block kept from the point before is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not: where it is not
    fetched the block index has not moved, so the block kept from the point before is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

abbrev r1_0 : Rect S4000x64 := Rect.unit (s := S4000x64) ![0, 0] S4000x64.size inb_S4000x64_S4000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0

/-! ## What the body leaves in each output window's buffer -/

/-- Window 6's staging buffer after the body, from the input windows' blocks: its one store, of the first payload. -/
def out1_6 (x0 : Vec F S4000x64 .f32) (x1 : Vec F S4000x64 .f32) (x2 : Vec F S64x64 .f32) (x3 : Vec F S1x64 .f32) (x4 : Vec F S64x64 .f32) (x5 : Vec F S1x64 .f32) : Vec F S4000x64 .f32 :=
  View.canon [⟨r1_0, k1_pay1 (View.ld x0 r1_0) (View.ld x1 r1_0) (View.ld x2 r1_1) (View.ld x3 r1_2) (View.ld x4 r1_1) (View.ld x5 r1_2)⟩]

/-- Window 7's staging buffer after the body, from the input windows' blocks: its one store, of the second payload. -/
def out1_7 (x0 : Vec F S4000x64 .f32) (x1 : Vec F S4000x64 .f32) (x2 : Vec F S64x64 .f32) (x3 : Vec F S1x64 .f32) (x4 : Vec F S64x64 .f32) (x5 : Vec F S1x64 .f32) : Vec F S4000x64 .f32 :=
  View.canon [⟨r1_0, k1_pay2 (View.ld x0 r1_0) (View.ld x1 r1_0) (View.ld x2 r1_1) (View.ld x3 r1_2) (View.ld x4 r1_1) (View.ld x5 r1_2)⟩]

/-- The one store covers the buffer. -/
theorem cover1_6 (p0 : Vec F S4000x64 .f32) (y : S4000x64.Idx) :
    ∃ pc ∈ ([⟨r1_0, p0⟩] : List (View.Piece (Elt F) S4000x64 .f32)), y ∈ pc.1.set :=
  View.cover_of_tiled [⟨r1_0, p0⟩] S4000x64.size (by rfl) y

/-- The one store covers the buffer. -/
theorem cover1_7 (p0 : Vec F S4000x64 .f32) (y : S4000x64.Idx) :
    ∃ pc ∈ ([⟨r1_0, p0⟩] : List (View.Piece (Elt F) S4000x64 .f32)), y ∈ pc.1.set :=
  View.cover_of_tiled [⟨r1_0, p0⟩] S4000x64.size (by rfl) y

/-! ## The body's triple -/

set_option maxHeartbeats 1000000 in
/-- The kernel body on whole staging memrefs, the six inputs' at read contents `x0 … x5` and the two outputs' at
    anything, runs to the continuation holding the inputs' as they were and each output's at `out1_6` / `out1_7` of
    the inputs. The body loads each output buffer before storing into it; the loaded values are not used. -/
theorem sound_kernel1 (c : Dev nD) (E : Set ℕ) (i : grid1.Coords) (arg1 : Memref sig .tc .vmem S4000x64 .f32) (harg1 : arg1.IsWhole) (arg2 : Memref sig .tc .vmem S4000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4000x64 .f32) (harg7 : arg7.IsWhole) (arg8 : Memref sig .tc .vmem S4000x64 .f32) (harg8 : arg8.IsWhole)
    (x0 : Vec F S4000x64 .f32) (x1 : Vec F S4000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  iexists _; isplitr
  swap; · iexact H7
  ipureintro
  exact View.read_writes_eq_canon _ _ _ (cover1_7 _)

/-! ## The pipeline's proof data -/

/-- The proof data of pipeline 1 on core `c`: the arrays as the region finds them (`V`); after the body at point `t`
    each input's buffer at its block and each output's at `out1_6` / `out1_7` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks (`before1_w`), so `sound_kernel1` applies; the
    invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Run

end
-- ==== Proof.KernelIdealRegion2.lean ====
/- The kernel-side half of region 2 (custom call 2, `cc2__layer_kernel`, pipeline 2) at a parameter `V`, the
   buffer contents when the region is entered: each window's block at a grid point, what the body leaves in the two
   output windows' staging buffers as a closed function of the six input blocks, the body's triple, the pipeline's
   proof data and the body obligation at every point. Stated for any float model `F`. -/
import proofs.«162997_j3143916060680_1_alg».proof.Proof.Gen.KernelIdeal.Launch
import proofs.«162997_j3143916060680_1_alg».proof.Proof.Gen.KernelIdeal.Skeleton
import proofs.«162997_j3143916060680_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents (`View.cover_of_tiled`): the structural check
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched the block index has not moved, so the block kept from the point before is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not: where it is not
    fetched the block index has not moved, so the block kept from the point before is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not: where it is not
    fetched the block index has not moved, so the block kept from the point before is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not: where it is not
    fetched the block index has not moved, so the block kept from the point before is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not: where it is not
    fetched the block index has not moved, so the block kept from the point before is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not: where it is not
    fetched the block index has not moved, so the block kept from the point before is this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole staging buffer -/

abbrev r2_0 : Rect S4000x64 := Rect.unit (s := S4000x64) ![0, 0] S4000x64.size inb_S4000x64_S4000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0

/-! ## What the body leaves in each output window's buffer -/

/-- Window 6's staging buffer after the body, from the input windows' blocks: its one store, of the first payload. -/
def out2_6 (x0 : Vec F S4000x64 .f32) (x1 : Vec F S4000x64 .f32) (x2 : Vec F S64x64 .f32) (x3 : Vec F S1x64 .f32) (x4 : Vec F S64x64 .f32) (x5 : Vec F S1x64 .f32) : Vec F S4000x64 .f32 :=
  View.canon [⟨r2_0, k2_pay1 (View.ld x0 r2_0) (View.ld x1 r2_0) (View.ld x2 r2_1) (View.ld x3 r2_2) (View.ld x4 r2_1) (View.ld x5 r2_2)⟩]

/-- Window 7's staging buffer after the body, from the input windows' blocks: its one store, of the second payload. -/
def out2_7 (x0 : Vec F S4000x64 .f32) (x1 : Vec F S4000x64 .f32) (x2 : Vec F S64x64 .f32) (x3 : Vec F S1x64 .f32) (x4 : Vec F S64x64 .f32) (x5 : Vec F S1x64 .f32) : Vec F S4000x64 .f32 :=
  View.canon [⟨r2_0, k2_pay2 (View.ld x0 r2_0) (View.ld x1 r2_0) (View.ld x2 r2_1) (View.ld x3 r2_2) (View.ld x4 r2_1) (View.ld x5 r2_2)⟩]

/-- The one store covers the buffer. -/
theorem cover2_6 (p0 : Vec F S4000x64 .f32) (y : S4000x64.Idx) :
    ∃ pc ∈ ([⟨r2_0, p0⟩] : List (View.Piece (Elt F) S4000x64 .f32)), y ∈ pc.1.set :=
  View.cover_of_tiled [⟨r2_0, p0⟩] S4000x64.size (by rfl) y

/-- The one store covers the buffer. -/
theorem cover2_7 (p0 : Vec F S4000x64 .f32) (y : S4000x64.Idx) :
    ∃ pc ∈ ([⟨r2_0, p0⟩] : List (View.Piece (Elt F) S4000x64 .f32)), y ∈ pc.1.set :=
  View.cover_of_tiled [⟨r2_0, p0⟩] S4000x64.size (by rfl) y

/-! ## The body's triple -/

set_option maxHeartbeats 1000000 in
/-- The kernel body on whole staging memrefs, the six inputs' at read contents `x0 … x5` and the two outputs' at
    anything, runs to the continuation holding the inputs' as they were and each output's at `out2_6` / `out2_7` of
    the inputs. The body loads each output buffer before storing into it; the loaded values are not used. -/
theorem sound_kernel2 (c : Dev nD) (E : Set ℕ) (i : grid2.Coords) (arg1 : Memref sig .tc .vmem S4000x64 .f32) (harg1 : arg1.IsWhole) (arg2 : Memref sig .tc .vmem S4000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4000x64 .f32) (harg7 : arg7.IsWhole) (arg8 : Memref sig .tc .vmem S4000x64 .f32) (harg8 : arg8.IsWhole)
    (x0 : Vec F S4000x64 .f32) (x1 : Vec F S4000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8) K := by
  simp only [cc2__layer_kernel_eq_skeleton]; unfold cc2__layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

/-! ## The pipeline's proof data -/

/-- The proof data of pipeline 2 on core `c`: the arrays as the region finds them (`V`); after the body at point `t`
    each input's buffer at its block and each output's at `out2_6` / `out2_7` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks (`before2_w`), so `sound_kernel2` applies; the
    invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Run

end
-- ==== Proof.KernelIdealRun.lean ====
/- The whole-program run of the kernel program's @main — four stretches of host operations around three kernel
   regions — for any float model `F`: the buffer contents at every boundary between two items as a fold from the launch
   memory (a host stretch's `StableHlo.after`; a region's window arrays at what its write-backs leave), each argument
   array read back through the fold to its launch contents, the regions as segments over the thread state "every
   unscoped buffer at the boundary's contents, the generator register at some state, nothing owed", and the two
   theorems: every unscoped buffer ends at the fold's last contents (`run_all`), hence every argument array ends as
   launched (`frame`). -/
import proofs.«162997_j3143916060680_1_alg».proof.Proof.KernelIdealRegion0
import proofs.«162997_j3143916060680_1_alg».proof.Proof.KernelIdealRegion1
import proofs.«162997_j3143916060680_1_alg».proof.Proof.KernelIdealRegion2
import proofs.«162997_j3143916060680_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents (`View.cover_of_tiled`): the structural check
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references (what region 0's proof data take). -/
abbrev E1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev X2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (E1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = E1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev E3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev X4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (E3 m ρ) c).arrAt w cfg1.N = X4 m ρ c (Pipeline.arrRef spec1 w) :=
  (W4_arr m ρ c w).symm
theorem hrest1 (c : Dev nD) : ∀ b, b ∉ Finset.univ.image (Pipeline.arrRef spec1) → X4 m ρ c b = E3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev E5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev X6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (E5 m ρ) c).arrAt w cfg2.N = X6 m ρ c (Pipeline.arrRef spec2 w) :=
  (W6_arr m ρ c w).symm
theorem hrest2 (c : Dev nD) : ∀ b, b ∉ Finset.univ.image (Pipeline.arrRef spec2) → X6 m ρ c b = E5 m ρ c b :=
  fun b hb => W6_of_ne m ρ c b fun w e => hb (Finset.mem_image.mpr ⟨w, Finset.mem_univ _, e⟩)

/-- After `hostOps3` (the return). -/
abbrev W7 : Dev nD → Valuation τ sig (Elt F) := fun c => StableHlo.after hostOps3 (W6 m ρ c)

/-! ### The arguments end as launched: no host operation writes one and no region stages one, so the fold at an
    argument's buffer walks back to the launch memory -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W7_main_arg12 (c : Dev nD) : W7 m ρ c (Proc.devRef .tc main_arg12) = m ((c : Thread nD τ).loc main_arg12) :=
  calc W7 m ρ c (Proc.devRef .tc main_arg12)
    _ = W6 m ρ c (Proc.devRef .tc main_arg12) := StableHlo.after_of_writes_sub hostOps3 _ hostOps3_writes (by decide)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-! ## The proof data family and the thread state -/

/-- Every pipeline's proof data, each at its region's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W7`, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- REGION 0 (custom call 0) over the thread state: entered from every unscoped buffer at `W1`, left at `W2`.
    Its arrays are split out of the unscoped buffers and put back at the exit contents; the generator register goes
    into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom call 1) over the thread state: entered from every unscoped buffer at `W3`, left at `W4`.
    Its arrays are split out of the unscoped buffers and put back at the exit contents; the generator register goes
    into the class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (X4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom call 2) over the thread state: entered from every unscoped buffer at `W5`, left at `W6`.
    Its arrays are split out of the unscoped buffers and put back at the exit contents; the generator register goes
    into the class invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (X6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per kernel call. -/
abbrev rsegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

set_option backward.isDefEq.respectTransparency.types false in
/-- THE RUN: at the compiled mesh, from any memory with zero counters, every weakly fair execution of @main on the
    TensorCores terminates, nothing faulting, and in every final state each core's every unscoped buffer holds the
    fold's last contents `W7`. -/
theorem run_all (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (rsegs m ρ)
    (fun c Q => by
      rewrite [main_chain c, Seg.run_eq_chain,
        show (rsegs m ρ).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every argument array ends holding its launch contents — `run_all` read at the thirteen arguments, each
    through the fold by `W7_main_argJ`. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c)⟩) (run_all m ρ)

end Cert.KernelIdeal.Run

end
-- ==== Proof.LayerSpec.lean ====
/-
  One layer of the network, row by row, over the extended reals.

  A row of the layer takes the row `e` of the first feature matrix and the row `s` of the second, two `64 × 64`
  weight matrices `wg`, `wb` and two bias rows `bg`, `bb`, and computes at column `q`

    pre q  = ((∑ k, s k * wg k q) + bg q) + ((∑ k, (e k * s k) * wb k q) + bb q),
    act q  = pre q where pre q ≥ 0, and 0.2 * pre q elsewhere,
    out q  = act q / max (sqrt (∑ j, act j * act j)) 1e-12.

  The two float literals of the activation (the zero it compares against and the slope 0.2) and the literal 1e-12
  of the normalisation are kept as the extended reals their 32-bit words denote; nothing here depends on their
  values. Every operation is the extended reals' own (sum, product, the order's comparison, `Ideal.sqrt`,
  `Ideal.div`), in the order the layer performs them.
-/
import Idealize.ShloMosaic.PureOps.Ideal
import Idealize.ShloMosaic.PureOps.Ideal.Laws
import Idealize.ShloMosaic.Lib.ValueIdx

noncomputable section

open scoped BigOperators

namespace Cert.NGCF

open Idealize.ShloMosaic Idealize.ShloMosaic.ValueIdx

/-- The pre-activation of one row at column `q`: the second feature row through `wg` plus its bias, plus the
    elementwise product of the two feature rows through `wb` plus its bias. -/
def rowPre (e s : Fin 64 → EReal) (wg : Fin 64 → Fin 64 → EReal) (bg : Fin 64 → EReal)
    (wb : Fin 64 → Fin 64 → EReal) (bb : Fin 64 → EReal) (q : Fin 64) : EReal :=
  ((∑ k, s k * wg k q) + bg q) + ((∑ k, (e k * s k) * wb k q) + bb q)

/-- The leaky rectifier on one value: `z` itself where `z` is at least the zero literal, and the slope literal
    times `z` elsewhere. The condition is the one-bit word of the order's comparison. -/
def actS (z : EReal) : EReal :=
  Scalar.select (Ideal.cmp .oge z (Ideal.ofBits .f32 0x00000000#32)) z (Ideal.ofBits .f32 0x3E4CCCCD#32 * z)

/-- A row divided by its Euclidean norm, the norm bounded below by the literal 1e-12: column `q` of the row `a`
    over the larger of the square root of the row's sum of squares and that literal. -/
def rowNormed (a : Fin 64 → EReal) (q : Fin 64) : EReal :=
  Ideal.div (a q) (max (Ideal.sqrt (∑ j, a j * a j)) (Ideal.ofBits .f32 0x2B8CBCCC#32))

end Cert.NGCF

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.LibKeepdims.lean ====
/-
  Column ("keepdims") layout forms, one-axis reductions of a matrix and the one-hot mask, read at an index.

  A reduction that keeps its axis as a unit axis leaves a column `[a, 1]`; the next operation broadcasts the column along
  the rows' entries. Lib/ValueLayout.lean has the leading-unit-axis casts and the row broadcast `[1, b] → [a, b]`; here are
  the column cast `[a] → [a, 1]` and the column broadcast `[a, 1] → [a, b]`, in the same style.

  At the ideal values a `vector.multi_reduction` of a matrix over one of its two axes is the sum (or the fold of `max`)
  over that axis's coordinates with the other coordinate fixed: PureOps/Ideal/Laws.lean's one-axis readings with the
  inserted index written by coordinates.

  The one-hot mask `(iota along d == w)` converted to a float is `1` where the coordinate's word is `w` and `0` elsewhere; a
  sum of products with it keeps the one selected term, whatever the other factor is (on the extended reals `x * 0 = 0` and
  `x * 1 = x` for every `x`, infinite or not).
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibKeepdims

open Idealize.ShloMosaic Idealize.ShloMosaic.ValueIdx

/-! ## The column cast and the column broadcast -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A matrix reduced over one axis, at the ideal values -/

section Reduce
variable {φ : FTy}

/-- The sum over the entries of each row: `[a, b]` reduced over axis 1, read at row `i`. -/
theorem multiReduction_add_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

/-- The sum over the rows of each column: `[a, b]` reduced over axis 0, read at column `k`. -/
theorem multiReduction_add_axis0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (k : Fin b) :
    multiReduction .add [0] ⟨1, ![b]⟩ src acc h hφ hacc (ix1 k) = ∑ i : Fin a, src (ix2 i k) :=
  (Ideal.multiReduction_add_single src acc h hφ hacc (ix1 k)).trans
    (Finset.sum_congr rfl fun i _ => congrArg src (funext fun c => Fin.ext (by
      match c with
      | ⟨0, _⟩ => rfl
      | ⟨1, _⟩ => rfl)))

/-- The maximum over the entries of each row, from the accumulator's value: `[a, b]` reduced by `max` over axis 1. -/
theorem multiReduction_maximumf_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg ((Finset.univ : Finset (Fin b)).fold max (Ideal.ofBits φ acc)) (funext fun k => congrArg src (funext fun c => Fin.ext (by
      match c with
      | ⟨0, _⟩ => rfl
      | ⟨1, _⟩ => rfl))))

end Reduce

/-! ## The one-hot mask -/

section Mask

/-- Two naturals below `2 ^ 32` have the same 32-bit word exactly when they are equal. -/
theorem ofNat32_eq_iff {n b : ℕ} (hn : n < 2 ^ 32) (hb : b < 2 ^ 32) : BitVec.ofNat 32 n = BitVec.ofNat 32 b ↔ n = b := by
  constructor
  · intro e
    have := congrArg BitVec.toNat e
    rwa [BitVec.toNat_ofNat, BitVec.toNat_ofNat, Nat.mod_eq_of_lt hn, Nat.mod_eq_of_lt hb] at this
  · intro e; rw [e]

/-- A comparison bit, widened to a word and read as a signed integer at the ideal values, is `1` or `0`. -/
theorem sitofp_extui_cmpi_eq (x y : BitVec 32) (h : 1 < 32) :
    (FloatOps.sitofp (F := Ideal) .f32 ((IntOp.cmpi .eq x y).setWidth 32) : EReal) = if x = y then 1 else 0 := by
  show (((((BitVec.ofBool (x == y)).setWidth 32).toInt : ℝ)) : EReal) = _
  by_cases e : x = y
  · have h1 : ((BitVec.ofBool true).setWidth 32).toInt = 1 := by decide
    rw [if_pos e, beq_iff_eq.2 e, h1, Int.cast_one, EReal.coe_one]
  · have h0 : ((BitVec.ofBool false).setWidth 32).toInt = 0 := by decide
    rw [if_neg e, beq_eq_false_iff_ne.2 e, h0, Int.cast_zero, EReal.coe_zero]

/-- The mask `(iota along d == w)` as a float: `1` where the coordinate's word is `w`, `0` elsewhere. -/
theorem mask_apply (s : Shape) (d : Fin s.rank) (h : s.Iotas .tc 32 [d]) (w : BitVec 32) (hlt : 1 < 32) (i : s.Idx) :
    (sitofp .f32 (extui 32 (cmpi .eq (iota .tc s 32 [d] h) (broadcast s w)) hlt) : FVec Ideal s .f32) i
      = if BitVec.ofNat 32 (i d).val = w then (1 : EReal) else 0 := by
  rw [sitofp_apply, extui_apply]
  show (FloatOps.sitofp (F := Ideal) .f32 ((IntOp.cmpi .eq (iota .tc s 32 [d] h i) w).setWidth 32) : EReal) = _
  rw [iota_single_apply, sitofp_extui_cmpi_eq _ _ hlt]

/-- The same against the word of a natural `b`: the mask picks the coordinate `b`. -/
theorem mask_ofNat_apply (s : Shape) (d : Fin s.rank) (h : s.Iotas .tc 32 [d]) (b : ℕ) (hlt : 1 < 32) (i : s.Idx)
    (hi : (i d).val < 2 ^ 32) (hb : b < 2 ^ 32) :
    (sitofp .f32 (extui 32 (cmpi .eq (iota .tc s 32 [d] h) (broadcast s (BitVec.ofNat 32 b))) hlt) : FVec Ideal s .f32) i
      = if (i d).val = b then (1 : EReal) else 0 := by
  rw [mask_apply]
  by_cases e : (i d).val = b
  · rw [if_pos e, if_pos ((ofNat32_eq_iff hi hb).2 e)]
  · rw [if_neg e, if_neg (fun e' => e ((ofNat32_eq_iff hi hb).1 e'))]

/-- A sum of products with a one-hot factor keeps the selected term. No finiteness is asked: on the extended reals
    `x * 0 = 0` and `x * 1 = x` for every `x`. -/
theorem sum_mul_onehot {n : ℕ} (f : Fin n → EReal) (b : Fin n) :
    ∑ l : Fin n, f l * (if l.val = b.val then (1 : EReal) else 0) = f b := by
  rw [Finset.sum_eq_single b]
  · rw [if_pos rfl, mul_one]
  · intro l _ hl
    rw [if_neg (fun e => hl (Fin.ext e)), mul_zero]
  · intro hb; exact absurd (Finset.mem_univ b) hb

end Mask

end Cert.LibKeepdims

end
-- ==== Proof.LayerKernelValue.lean ====
/-
  The kernel's two stored values of one layer, read at one entry of a 4000 × 64 block.

  The first stored value is the activation: at row `p` and column `q` it is the leaky rectifier of the row's
  pre-activation `rowPre` (two 64-term products into the zero accumulator, each plus its bias row broadcast over the
  rows; the narrowing of the operands to bf16 is the identity on the extended reals). The second stored value is the
  activation divided by the row's norm: the sum of squares over the 64 columns, kept as a column, its square root, the
  maximum with the literal 1e-12, broadcast back over the columns, and the quotient.

  Both are first stated for ANY blocks of the right shapes in the kernel's own operations, then read off the three layer
  kernels' stored values, which are that term.
-/
import proofs.«162997_j3143916060680_1_alg».proof.Proof.Gen.KernelIdeal.Skeleton
import proofs.«162997_j3143916060680_1_alg».proof.Proof.LayerSpec
import proofs.«162997_j3143916060680_1_alg».proof.Proof.LibMatmulIx
import proofs.«162997_j3143916060680_1_alg».proof.Proof.LibKeepdims
import Idealize.ShloMosaic.Lib.ValueIdx
import Idealize.ShloMosaic.Lib.ValueLayout
import Idealize.ShloMosaic.Lib.Pipeline.Value

noncomputable section

open scoped BigOperators

namespace Cert.NGCF

open Idealize.ShloMosaic Idealize.ShloMosaic.ValueIdx

/-! ## The layer's operations on blocks of any height, at an entry -/

section General
variable {R : ℕ}

/-- The leaky rectifier on a block, at any index: the scalar rectifier of the entry. -/
theorem leaky_apply {s : Shape} (P : FVec Ideal s .f32) (i : s.Idx) :
    select (cmpf .oge P (broadcast s (Scalar.ofBits (F := Ideal) .f32 0x00000000#32))) P
        (mulf (broadcast s (Scalar.ofBits (F := Ideal) .f32 0x3E4CCCCD#32)) P) i = actS (P i) := rfl

/-- The pre-activation of a block of `R` rows at `(p, q)`: the row's `rowPre`. -/
theorem pre_apply (A B : FVec Ideal ⟨2, ![R, 64]⟩ .f32) (W : FVec Ideal ⟨2, ![64, 64]⟩ .f32)
    (b : FVec Ideal ⟨2, ![1, 64]⟩ .f32) (V : FVec Ideal ⟨2, ![64, 64]⟩ .f32) (c : FVec Ideal ⟨2, ![1, 64]⟩ .f32)
    (w : DotDims.WF ⟨2, ![R, 64]⟩ ⟨2, ![64, 64]⟩ ⟨2, ![R, 64]⟩ [1] [0] [0] [1] [] [])
    (hlt : FTy.bits .bf16 < FTy.bits .f32) (hb : (⟨2, ![1, 64]⟩ : Shape).Broadcasts ⟨2, ![R, 64]⟩)
    (p : Fin R) (q : Fin 64) :
    addf
        (addf (matmul (⟨[1], [0], [0], [1], [], [], w⟩ : DotDims _ _ _) none (truncf .bf16 B hlt) (truncf .bf16 W hlt)
            (constant (F := Ideal) ⟨2, ![R, 64]⟩ .f32 0x00000000#32))
          (broadcastTo ⟨2, ![R, 64]⟩ b hb))
        (addf (matmul (⟨[1], [0], [0], [1], [], [], w⟩ : DotDims _ _ _) none (truncf .bf16 (mulf A B) hlt)
            (truncf .bf16 V hlt) (constant (F := Ideal) ⟨2, ![R, 64]⟩ .f32 0x00000000#32))
          (broadcastTo ⟨2, ![R, 64]⟩ c hb))
        (ix2 p q)
      = rowPre (fun k => A (ix2 p k)) (fun k => B (ix2 p k)) (fun k q => W (ix2 k q)) (fun q => b (ix2 0 q))
          (fun k q => V (ix2 k q)) (fun q => c (ix2 0 q)) q := by
  rw [addf_apply, addf_apply, addf_apply, Cert.LibMatmulIx.matmul_zero_apply, Cert.LibMatmulIx.matmul_zero_apply,
    broadcastTo_1b_ab_apply, broadcastTo_1b_ab_apply]
  rfl

/-- A block divided by its rows' norms, at `(p, q)`: the row's `rowNormed`. -/
theorem normed_apply (P : FVec Ideal ⟨2, ![R, 64]⟩ .f32)
    (hr : (⟨2, ![R, 64]⟩ : Shape).Reduces [1] ⟨1, ![R]⟩) (hφ : FKind.Formats .f32)
    (hacc : (0x00000000#32 : BitVec 32) = FKind.add.neutral .f32 hφ)
    (hsc : (⟨1, ![R]⟩ : Shape).ShapeCasts ⟨2, ![R, 1]⟩) (hbc : (⟨2, ![R, 1]⟩ : Shape).Broadcasts ⟨2, ![R, 64]⟩)
    (p : Fin R) (q : Fin 64) :
    divf P
        (broadcastTo ⟨2, ![R, 64]⟩
          (maximumf
            (sqrt (shapeCast ⟨2, ![R, 1]⟩ (multiReduction .add [1] ⟨1, ![R]⟩ (mulf P P) 0x00000000#32 hr hφ hacc) hsc))
            (broadcast ⟨2, ![R, 1]⟩ (Scalar.ofBits (F := Ideal) .f32 0x2B8CBCCC#32)))
          hbc)
        (ix2 p q)
      = rowNormed (fun j => P (ix2 p j)) q := by
  rw [divf_apply, Cert.LibKeepdims.broadcastTo_a1_ab_apply, maximumf_apply, broadcast_apply]
  show Ideal.div (P (ix2 p q))
      (max (Ideal.sqrt (shapeCast ⟨2, ![R, 1]⟩ (multiReduction .add [1] ⟨1, ![R]⟩ (mulf P P) 0x00000000#32 hr hφ hacc) hsc
        (ix2 p (0 : Fin 1)))) (Ideal.ofBits .f32 0x2B8CBCCC#32)) = _
  rw [Cert.LibKeepdims.shapeCast_a_a1_apply, Cert.LibKeepdims.multiReduction_add_axis1]
  rfl

end General

/-! ## The three layer kernels' stored values -/

section Payloads
open Cert.KernelIdeal

variable (x0 x1 : Vec Ideal S4000x64 .f32) (x2 : Vec Ideal S64x64 .f32) (x3 : Vec Ideal S1x64 .f32)
  (x4 : Vec Ideal S64x64 .f32) (x5 : Vec Ideal S1x64 .f32) (p : Fin 4000) (q : Fin 64)

/-- Layer kernel 0's activation at `(p, q)`: the leaky rectifier of the row's pre-activation. -/
theorem k0_pay1_apply :
    Gen.k0_pay1 (F := Ideal) x0 x1 x2 x3 x4 x5 (ix2 p q)
      = actS (rowPre (fun k => x0 (ix2 p k)) (fun k => x1 (ix2 p k)) (fun k q => x2 (ix2 k q)) (fun q => x3 (ix2 0 q))
          (fun k q => x4 (ix2 k q)) (fun q => x5 (ix2 0 q)) q) := by
  unfold Gen.k0_pay1
  simp only [shapeCast_self]
  refine (leaky_apply _ _).trans (congrArg actS ?_)
  exact pre_apply (R := 4000) x0 x1 x2 x3 x4 x5 _ _ _ p q

/-- Layer kernel 0's normalised activation at `(p, q)`: the activation's row divided by its bounded norm. -/
theorem k0_pay2_apply :
    Gen.k0_pay2 (F := Ideal) x0 x1 x2 x3 x4 x5 (ix2 p q)
      = rowNormed (fun j => Gen.k0_pay1 (F := Ideal) x0 x1 x2 x3 x4 x5 (ix2 p j)) q := by
  unfold Gen.k0_pay2
  exact normed_apply (R := 4000) (Gen.k0_pay1 (F := Ideal) x0 x1 x2 x3 x4 x5) _ _ _ _ _ p q

/-- Layer kernel 1's activation at `(p, q)`: the leaky rectifier of the row's pre-activation. -/
theorem k1_pay1_apply :
    Gen.k1_pay1 (F := Ideal) x0 x1 x2 x3 x4 x5 (ix2 p q)
      = actS (rowPre (fun k => x0 (ix2 p k)) (fun k => x1 (ix2 p k)) (fun k q => x2 (ix2 k q)) (fun q => x3 (ix2 0 q))
          (fun k q => x4 (ix2 k q)) (fun q => x5 (ix2 0 q)) q) := by
  unfold Gen.k1_pay1
  simp only [shapeCast_self]
  refine (leaky_apply _ _).trans (congrArg actS ?_)
  exact pre_apply (R := 4000) x0 x1 x2 x3 x4 x5 _ _ _ p q

/-- Layer kernel 1's normalised activation at `(p, q)`: the activation's row divided by its bounded norm. -/
theorem k1_pay2_apply :
    Gen.k1_pay2 (F := Ideal) x0 x1 x2 x3 x4 x5 (ix2 p q)
      = rowNormed (fun j => Gen.k1_pay1 (F := Ideal) x0 x1 x2 x3 x4 x5 (ix2 p j)) q := by
  unfold Gen.k1_pay2
  exact normed_apply (R := 4000) (Gen.k1_pay1 (F := Ideal) x0 x1 x2 x3 x4 x5) _ _ _ _ _ p q

/-- Layer kernel 2's activation at `(p, q)`: the leaky rectifier of the row's pre-activation. -/
theorem k2_pay1_apply :
    Gen.k2_pay1 (F := Ideal) x0 x1 x2 x3 x4 x5 (ix2 p q)
      = actS (rowPre (fun k => x0 (ix2 p k)) (fun k => x1 (ix2 p k)) (fun k q => x2 (ix2 k q)) (fun q => x3 (ix2 0 q))
          (fun k q => x4 (ix2 k q)) (fun q => x5 (ix2 0 q)) q) := by
  unfold Gen.k2_pay1
  simp only [shapeCast_self]
  refine (leaky_apply _ _).trans (congrArg actS ?_)
  exact pre_apply (R := 4000) x0 x1 x2 x3 x4 x5 _ _ _ p q

/-- Layer kernel 2's normalised activation at `(p, q)`: the activation's row divided by its bounded norm. -/
theorem k2_pay2_apply :
    Gen.k2_pay2 (F := Ideal) x0 x1 x2 x3 x4 x5 (ix2 p q)
      = rowNormed (fun j => Gen.k2_pay1 (F := Ideal) x0 x1 x2 x3 x4 x5 (ix2 p j)) q := by
  unfold Gen.k2_pay2
  exact normed_apply (R := 4000) (Gen.k2_pay1 (F := Ideal) x0 x1 x2 x3 x4 x5) _ _ _ _ _ p q

end Payloads

end Cert.NGCF

end
-- ==== Proof.LayerArr.lean ====
/-
  One layer of the network on whole node tables.  From two [160000, 64] tables (the current embeddings and their sparse
  aggregation), two [64, 64] weight matrices and two [1, 64] bias rows, row r of the activation is the row-wise layer
  of the row specification applied to the r-th rows of the two tables, and row r of the normalised output is that
  activation row divided by its Euclidean norm (bounded below).  Each row depends only on the same row of the tables.
-/
import proofs.«162997_j3143916060680_1_alg».proof.Proof.LayerSpec

noncomputable section

open scoped BigOperators

namespace Cert.NGCF

open Idealize.ShloMosaic Idealize.ShloMosaic.ValueIdx

abbrev TN : Shape := ⟨2, ![160000, 64]⟩
abbrev TW : Shape := ⟨2, ![64, 64]⟩
abbrev TB : Shape := ⟨2, ![1, 64]⟩

/-- Entry (r, q) of the layer's activation. -/
def layerAct (a0 a1 : TN.Idx → EReal) (a2 : TW.Idx → EReal) (a3 : TB.Idx → EReal) (a4 : TW.Idx → EReal) (a5 : TB.Idx → EReal)
    (r : Fin 160000) (q : Fin 64) : EReal :=
  actS (rowPre (fun k => a0 (ix2 r k)) (fun k => a1 (ix2 r k)) (fun k q => a2 (ix2 k q)) (fun q => a3 (ix2 0 q))
    (fun k q => a4 (ix2 k q)) (fun q => a5 (ix2 0 q)) q)

/-- The activation as a table. -/
def actArr (a0 a1 : TN.Idx → EReal) (a2 : TW.Idx → EReal) (a3 : TB.Idx → EReal) (a4 : TW.Idx → EReal) (a5 : TB.Idx → EReal) :
    TN.Idx → EReal :=
  fun i => layerAct a0 a1 a2 a3 a4 a5 ⟨(i 0).val, (i 0).isLt⟩ ⟨(i 1).val, (i 1).isLt⟩

/-- The normalised output as a table. -/
def outArr (a0 a1 : TN.Idx → EReal) (a2 : TW.Idx → EReal) (a3 : TB.Idx → EReal) (a4 : TW.Idx → EReal) (a5 : TB.Idx → EReal) :
    TN.Idx → EReal :=
  fun i => rowNormed (fun j => layerAct a0 a1 a2 a3 a4 a5 ⟨(i 0).val, (i 0).isLt⟩ j) ⟨(i 1).val, (i 1).isLt⟩

theorem actArr_ix2 (a0 a1 : TN.Idx → EReal) (a2 : TW.Idx → EReal) (a3 : TB.Idx → EReal) (a4 : TW.Idx → EReal) (a5 : TB.Idx → EReal)
    (r : Fin 160000) (q : Fin 64) : actArr a0 a1 a2 a3 a4 a5 (ix2 r q) = layerAct a0 a1 a2 a3 a4 a5 r q := rfl

theorem outArr_ix2 (a0 a1 : TN.Idx → EReal) (a2 : TW.Idx → EReal) (a3 : TB.Idx → EReal) (a4 : TW.Idx → EReal) (a5 : TB.Idx → EReal)
    (r : Fin 160000) (q : Fin 64) :
    outArr a0 a1 a2 a3 a4 a5 (ix2 r q) = rowNormed (fun j => layerAct a0 a1 a2 a3 a4 a5 r j) q := rfl

end Cert.NGCF

end
-- ==== Proof.KernelIdealFinal0.lean ====
/-
  Region 0 of the kernel program, read back as whole tables.  Grid point t of the 40 handles rows 4000 t … 4000 t + 3999:
  its two row blocks are those rows of the two input tables, its weight and bias blocks are the whole small arrays, and
  what it writes back is those rows of the layer's activation table (first output) and of its normalised table (second
  output).  The 40 blocks tile each output table, so after the region each output table IS the layer's table.
-/
import proofs.«162997_j3143916060680_1_alg».proof.Proof.KernelIdealRegion0
import proofs.«162997_j3143916060680_1_alg».proof.Proof.LayerKernelValue
import proofs.«162997_j3143916060680_1_alg».proof.Proof.LayerArr
import Idealize.ShloMosaic.Lib.Pipeline.Value
import Idealize.ShloMosaic.Lib.ValueIdx

noncomputable section

namespace Cert.KernelIdeal.Run

open Cert.KernelIdeal Cert.KernelIdeal.Gen Idealize.ShloMosaic Idealize.ShloMosaic.TcCoe Idealize.SL.Sem Idealize.ShloMosaic.ValueIdx
open Idealize.ShloMosaic.Pipeline (Dat)
open Cert.NGCF

section Final0

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the row windows move with the point, the weight and bias windows stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem tlt0 (t : Fin cfg0.N) : t.val < 40 := by have h := t.isLt; have hN : cfg0.N = 40 := N_0; omega

/-- Row block t of the first table. -/
theorem iblk0_0_apply (c : Dev nD) (t : Fin cfg0.N) (p : Fin 4000) (k : Fin 64) :
    (iblk0 V c 0 t : S4000x64.Idx → EReal) (ix2 p k)
      = (V c main_v0 : S160000x64.Idx → EReal) (ix2 ⟨4000 * t.val + p.val, by have := tlt0 t; omega⟩ k) := by
  obtain ⟨e00, e01, -⟩ := idx_facts0 t
  show (V c main_v0 : S160000x64.Idx → EReal) (((cfg0.win 0).blk t).view.emb (ix2 p k)) = _
  refine congrArg _ (funext fun a => Fin.ext ?_)
  match a with
  | ⟨0, _⟩ => show win0_0.index t (0 : Fin 2) * 4000 + 1 * p.val = 4000 * t.val + p.val; rw [e00]; omega
  | ⟨1, _⟩ => show win0_0.index t (1 : Fin 2) * 64 + 1 * k.val = k.val; rw [e01]; omega

/-- Row block t of the second table. -/
theorem iblk0_1_apply (c : Dev nD) (t : Fin cfg0.N) (p : Fin 4000) (k : Fin 64) :
    (iblk0 V c 1 t : S4000x64.Idx → EReal) (ix2 p k)
      = (V c main_v13 : S160000x64.Idx → EReal) (ix2 ⟨4000 * t.val + p.val, by have := tlt0 t; omega⟩ k) := by
  obtain ⟨-, -, e10, e11, -⟩ := idx_facts0 t
  show (V c main_v13 : S160000x64.Idx → EReal) (((cfg0.win 1).blk t).view.emb (ix2 p k)) = _
  refine congrArg _ (funext fun a => Fin.ext ?_)
  match a with
  | ⟨0, _⟩ => show win0_1.index t (0 : Fin 2) * 4000 + 1 * p.val = 4000 * t.val + p.val; rw [e10]; omega
  | ⟨1, _⟩ => show win0_1.index t (1 : Fin 2) * 64 + 1 * k.val = k.val; rw [e11]; omega

/-- The weight and bias blocks are the whole small arrays. -/
theorem iblk0_2_apply (c : Dev nD) (t : Fin cfg0.N) (k q : Fin 64) :
    (iblk0 V c 2 t : S64x64.Idx → EReal) (ix2 k q) = (V c main_v15 : S64x64.Idx → EReal) (ix2 k q) := by
  obtain ⟨-, -, -, -, e20, e21, -⟩ := idx_facts0 t
  show (V c main_v15 : S64x64.Idx → EReal) (((cfg0.win 2).blk t).view.emb (ix2 k q)) = _
  refine congrArg _ (funext fun a => Fin.ext ?_)
  match a with
  | ⟨0, _⟩ => show win0_2.index t (0 : Fin 2) * 64 + 1 * k.val = k.val; rw [e20]; omega
  | ⟨1, _⟩ => show win0_2.index t (1 : Fin 2) * 64 + 1 * q.val = q.val; rw [e21]; omega

theorem iblk0_3_apply (c : Dev nD) (t : Fin cfg0.N) (z : Fin 1) (q : Fin 64) :
    (iblk0 V c 3 t : S1x64.Idx → EReal) (ix2 z q) = (V c main_v17 : S1x64.Idx → EReal) (ix2 z q) := by
  obtain ⟨-, -, -, -, -, -, e30, e31, -⟩ := idx_facts0 t
  show (V c main_v17 : S1x64.Idx → EReal) (((cfg0.win 3).blk t).view.emb (ix2 z q)) = _
  refine congrArg _ (funext fun a => Fin.ext ?_)
  match a with
  | ⟨0, _⟩ => show win0_3.index t (0 : Fin 2) * 1 + 1 * z.val = z.val; rw [e30]; omega
  | ⟨1, _⟩ => show win0_3.index t (1 : Fin 2) * 64 + 1 * q.val = q.val; rw [e31]; omega

theorem iblk0_4_apply (c : Dev nD) (t : Fin cfg0.N) (k q : Fin 64) :
    (iblk0 V c 4 t : S64x64.Idx → EReal) (ix2 k q) = (V c main_v19 : S64x64.Idx → EReal) (ix2 k q) := by
  obtain ⟨-, -, -, -, -, -, -, -, e40, e41, -⟩ := idx_facts0 t
  show (V c main_v19 : S64x64.Idx → EReal) (((cfg0.win 4).blk t).view.emb (ix2 k q)) = _
  refine congrArg _ (funext fun a => Fin.ext ?_)
  match a with
  | ⟨0, _⟩ => show win0_4.index t (0 : Fin 2) * 64 + 1 * k.val = k.val; rw [e40]; omega
  | ⟨1, _⟩ => show win0_4.index t (1 : Fin 2) * 64 + 1 * q.val = q.val; rw [e41]; omega

theorem iblk0_5_apply (c : Dev nD) (t : Fin cfg0.N) (z : Fin 1) (q : Fin 64) :
    (iblk0 V c 5 t : S1x64.Idx → EReal) (ix2 z q) = (V c main_v21 : S1x64.Idx → EReal) (ix2 z q) := by
  obtain ⟨-, -, -, -, -, -, -, -, -, -, e50, e51, -⟩ := idx_facts0 t
  show (V c main_v21 : S1x64.Idx → EReal) (((cfg0.win 5).blk t).view.emb (ix2 z q)) = _
  refine congrArg _ (funext fun a => Fin.ext ?_)
  match a with
  | ⟨0, _⟩ => show win0_5.index t (0 : Fin 2) * 1 + 1 * z.val = z.val; rw [e50]; omega
  | ⟨1, _⟩ => show win0_5.index t (1 : Fin 2) * 64 + 1 * q.val = q.val; rw [e51]; omega

/-- The activation payload of point t at (p, q) is the layer's activation at row 4000 t + p. -/
theorem pay1_blk0 (c : Dev nD) (t : Fin cfg0.N) (p : Fin 4000) (q : Fin 64) :
    k0_pay1 (F := Ideal) (iblk0 V c 0 t : S4000x64.Idx → EReal) (iblk0 V c 1 t : S4000x64.Idx → EReal) (iblk0 V c 2 t : S64x64.Idx → EReal)
        (iblk0 V c 3 t : S1x64.Idx → EReal) (iblk0 V c 4 t : S64x64.Idx → EReal) (iblk0 V c 5 t : S1x64.Idx → EReal) (ix2 p q)
      = layerAct (V c main_v0) (V c main_v13) (V c main_v15) (V c main_v17) (V c main_v19) (V c main_v21)
          ⟨4000 * t.val + p.val, by have := tlt0 t; omega⟩ q := by
  rw [k0_pay1_apply]
  unfold layerAct
  simp only [iblk0_0_apply, iblk0_1_apply, iblk0_2_apply, iblk0_3_apply, iblk0_4_apply, iblk0_5_apply]

/-- Where an entry of point t's output block sits in the table. -/
theorem emb0_6 (t : Fin cfg0.N) (p : Fin 4000) (q : Fin 64) :
    ((cfg0.win 6).blk t).view.emb (ix2 p q) = (ix2 ⟨4000 * t.val + p.val, by have := tlt0 t; omega⟩ q : S160000x64.Idx) := by
  obtain ⟨-, -, -, -, -, -, -, -, -, -, -, -, e60, e61, -⟩ := idx_facts0 t
  refine funext fun a => Fin.ext ?_
  match a with
  | ⟨0, _⟩ => show win0_6.index t (0 : Fin 2) * 4000 + 1 * p.val = 4000 * t.val + p.val; rw [e60]; omega
  | ⟨1, _⟩ => show win0_6.index t (1 : Fin 2) * 64 + 1 * q.val = q.val; rw [e61]; omega

theorem emb0_7 (t : Fin cfg0.N) (p : Fin 4000) (q : Fin 64) :
    ((cfg0.win 7).blk t).view.emb (ix2 p q) = (ix2 ⟨4000 * t.val + p.val, by have := tlt0 t; omega⟩ q : S160000x64.Idx) := by
  obtain ⟨-, -, -, -, -, -, -, -, -, -, -, -, -, -, e70, e71⟩ := idx_facts0 t
  refine funext fun a => Fin.ext ?_
  match a with
  | ⟨0, _⟩ => show win0_7.index t (0 : Fin 2) * 4000 + 1 * p.val = 4000 * t.val + p.val; rw [e70]; omega
  | ⟨1, _⟩ => show win0_7.index t (1 : Fin 2) * 64 + 1 * q.val = q.val; rw [e71]; omega

/-- What point t writes back to the first output table: rows 4000 t … of the activation table. -/
theorem flushed0_6_eq (c : Dev nD) (t : Fin cfg0.N) :
    (dat0 V c).flushed 6 t = ((cfg0.win 6).blk t).view.read (Elt Ideal)
      (actArr (V c main_v0) (V c main_v13) (V c main_v15) (V c main_v17) (V c main_v19) (V c main_v21)) := by
  show (cfg0.win 6).cut (grid0.coords t) ((dat0 V c).after 6 t) = _
  rw [after0_6]
  unfold out0_6
  rw [View.canon_unit_zero hz0]
  simp only [View.ld_unit_zero (S := S4000x64) hz0, View.ld_unit_zero (S := S64x64) hz0, View.ld_unit_zero (S := S1x64) hz0]
  funext j
  obtain ⟨p, q, rfl⟩ : ∃ (p : Fin 4000) (q : Fin 64), j = ix2 p q := ⟨j 0, j 1, eq_ix2 j⟩
  show k0_pay1 (F := Ideal) (iblk0 V c 0 t : S4000x64.Idx → EReal) (iblk0 V c 1 t : S4000x64.Idx → EReal) (iblk0 V c 2 t : S64x64.Idx → EReal)
        (iblk0 V c 3 t : S1x64.Idx → EReal) (iblk0 V c 4 t : S64x64.Idx → EReal) (iblk0 V c 5 t : S1x64.Idx → EReal) (ix2 p q)
      = actArr (V c main_v0) (V c main_v13) (V c main_v15) (V c main_v17) (V c main_v19) (V c main_v21) (((cfg0.win 6).blk t).view.emb (ix2 p q))
  rw [emb0_6, actArr_ix2]
  exact pay1_blk0 V c t p q

/-- What point t writes back to the second output table: rows 4000 t … of the normalised table. -/
theorem flushed0_7_eq (c : Dev nD) (t : Fin cfg0.N) :
    (dat0 V c).flushed 7 t = ((cfg0.win 7).blk t).view.read (Elt Ideal)
      (outArr (V c main_v0) (V c main_v13) (V c main_v15) (V c main_v17) (V c main_v19) (V c main_v21)) := by
  show (cfg0.win 7).cut (grid0.coords t) ((dat0 V c).after 7 t) = _
  rw [after0_7]
  unfold out0_7
  rw [View.canon_unit_zero hz0]
  simp only [View.ld_unit_zero (S := S4000x64) hz0, View.ld_unit_zero (S := S64x64) hz0, View.ld_unit_zero (S := S1x64) hz0]
  funext j
  obtain ⟨p, q, rfl⟩ : ∃ (p : Fin 4000) (q : Fin 64), j = ix2 p q := ⟨j 0, j 1, eq_ix2 j⟩
  show k0_pay2 (F := Ideal) (iblk0 V c 0 t : S4000x64.Idx → EReal) (iblk0 V c 1 t : S4000x64.Idx → EReal) (iblk0 V c 2 t : S64x64.Idx → EReal)
        (iblk0 V c 3 t : S1x64.Idx → EReal) (iblk0 V c 4 t : S64x64.Idx → EReal) (iblk0 V c 5 t : S1x64.Idx → EReal) (ix2 p q)
      = outArr (V c main_v0) (V c main_v13) (V c main_v15) (V c main_v17) (V c main_v19) (V c main_v21) (((cfg0.win 7).blk t).view.emb (ix2 p q))
  rw [emb0_7, outArr_ix2, k0_pay2_apply]
  exact congrArg (fun f => rowNormed f q) (funext fun j => pay1_blk0 V c t p j)

theorem mem_blk0_6 (t : Fin cfg0.N) (i : S160000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v22_0).slice (win0_6.rect t)).set ↔ _
  rw [View.set_slice_whole, Rect.mem_set_unit]
  exact Iff.rfl

theorem mem_blk0_7 (t : Fin cfg0.N) (i : S160000x64.Idx) :
    i ∈ ((cfg0.win 7).blk t).view.set ↔ ∀ a : Fin 2, win0_7.index t a * S4000x64.size a ≤ (i a).val ∧ (i a).val < win0_7.index t a * S4000x64.size a + S4000x64.size a := by
  show i ∈ ((View.whole main_v22_1).slice (win0_7.rect t)).set ↔ _
  rw [View.set_slice_whole, Rect.mem_set_unit]
  exact Iff.rfl

/-- Every row of the table is in the block of the point (row / 4000). -/
theorem tiles0_6 (i : S160000x64.Idx) : ∃ t : Fin cfg0.N, (cfg0.win 6).flush t = true ∧ i ∈ ((cfg0.win 6).blk t).view.set := by
  have hi0 : (i 0).val < 160000 := (i 0).isLt
  have hi1 : (i 1).val < 64 := (i 1).isLt
  have hN : cfg0.N = 40 := N_0
  refine ⟨⟨(i 0).val / 4000, by rw [hN]; omega⟩, flush0_6 _, ?_⟩
  rw [mem_blk0_6]
  obtain ⟨-, -, -, -, -, -, -, -, -, -, -, -, e0, e1, -, -⟩ := idx_facts0 ⟨(i 0).val / 4000, by rw [hN]; omega⟩
  intro a
  match a with
  | ⟨0, _⟩ => show win0_6.index _ (0 : Fin 2) * 4000 ≤ (i 0).val ∧ (i 0).val < win0_6.index _ (0 : Fin 2) * 4000 + 4000; rw [e0]; show (i 0).val / 4000 * 4000 ≤ _ ∧ _ < (i 0).val / 4000 * 4000 + 4000; omega
  | ⟨1, _⟩ => show win0_6.index _ (1 : Fin 2) * 64 ≤ (i 1).val ∧ (i 1).val < win0_6.index _ (1 : Fin 2) * 64 + 64; rw [e1]; omega

theorem tiles0_7 (i : S160000x64.Idx) : ∃ t : Fin cfg0.N, (cfg0.win 7).flush t = true ∧ i ∈ ((cfg0.win 7).blk t).view.set := by
  have hi0 : (i 0).val < 160000 := (i 0).isLt
  have hi1 : (i 1).val < 64 := (i 1).isLt
  have hN : cfg0.N = 40 := N_0
  refine ⟨⟨(i 0).val / 4000, by rw [hN]; omega⟩, flush0_7 _, ?_⟩
  rw [mem_blk0_7]
  obtain ⟨-, -, -, -, -, -, -, -, -, -, -, -, -, -, e0, e1⟩ := idx_facts0 ⟨(i 0).val / 4000, by rw [hN]; omega⟩
  intro a
  match a with
  | ⟨0, _⟩ => show win0_7.index _ (0 : Fin 2) * 4000 ≤ (i 0).val ∧ (i 0).val < win0_7.index _ (0 : Fin 2) * 4000 + 4000; rw [e0]; show (i 0).val / 4000 * 4000 ≤ _ ∧ _ < (i 0).val / 4000 * 4000 + 4000; omega
  | ⟨1, _⟩ => show win0_7.index _ (1 : Fin 2) * 64 ≤ (i 1).val ∧ (i 1).val < win0_7.index _ (1 : Fin 2) * 64 + 64; rw [e1]; omega

/-- After the region the first output table is the layer's activation table, -/
theorem final0_6 (c : Dev nD) : (dat0 V c).arrAt 6 cfg0.N
    = actArr (V c main_v0) (V c main_v13) (V c main_v15) (V c main_v17) (V c main_v19) (V c main_v21) :=
  (dat0 V c).arrAt_eq_of_cover 6 _ (fun t _ => flushed0_6_eq V c t) tiles0_6

/-- and the second the layer's normalised table. -/
theorem final0_7 (c : Dev nD) : (dat0 V c).arrAt 7 cfg0.N
    = outArr (V c main_v0) (V c main_v13) (V c main_v15) (V c main_v17) (V c main_v19) (V c main_v21) :=
  (dat0 V c).arrAt_eq_of_cover 7 _ (fun t _ => flushed0_7_eq V c t) tiles0_7

end Final0

end Cert.KernelIdeal.Run
end
-- ==== Proof.KernelIdealFinal1.lean ====
/-
  Region 1 of the kernel program, read back as whole tables.  Grid point t of the 40 handles rows 4000 t … 4000 t + 3999:
  its two row blocks are those rows of the two input tables, its weight and bias blocks are the whole small arrays, and
  what it writes back is those rows of the layer's activation table (first output) and of its normalised table (second
  output).  The 40 blocks tile each output table, so after the region each output table IS the layer's table.
-/
import proofs.«162997_j3143916060680_1_alg».proof.Proof.KernelIdealRegion1
import proofs.«162997_j3143916060680_1_alg».proof.Proof.LayerKernelValue
import proofs.«162997_j3143916060680_1_alg».proof.Proof.LayerArr
import Idealize.ShloMosaic.Lib.Pipeline.Value
import Idealize.ShloMosaic.Lib.ValueIdx

noncomputable section

namespace Cert.KernelIdeal.Run

open Cert.KernelIdeal Cert.KernelIdeal.Gen Idealize.ShloMosaic Idealize.ShloMosaic.TcCoe Idealize.SL.Sem Idealize.ShloMosaic.ValueIdx
open Idealize.ShloMosaic.Pipeline (Dat)
open Cert.NGCF

section Final1

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the row windows move with the point, the weight and bias windows stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

theorem tlt1 (t : Fin cfg1.N) : t.val < 40 := by have h := t.isLt; have hN : cfg1.N = 40 := N_1; omega

/-- Row block t of the first table. -/
theorem iblk1_0_apply (c : Dev nD) (t : Fin cfg1.N) (p : Fin 4000) (k : Fin 64) :
    (iblk1 V c 0 t : S4000x64.Idx → EReal) (ix2 p k)
      = (V c main_v22_0 : S160000x64.Idx → EReal) (ix2 ⟨4000 * t.val + p.val, by have := tlt1 t; omega⟩ k) := by
  obtain ⟨e00, e01, -⟩ := idx_facts1 t
  show (V c main_v22_0 : S160000x64.Idx → EReal) (((cfg1.win 0).blk t).view.emb (ix2 p k)) = _
  refine congrArg _ (funext fun a => Fin.ext ?_)
  match a with
  | ⟨0, _⟩ => show win1_0.index t (0 : Fin 2) * 4000 + 1 * p.val = 4000 * t.val + p.val; rw [e00]; omega
  | ⟨1, _⟩ => show win1_0.index t (1 : Fin 2) * 64 + 1 * k.val = k.val; rw [e01]; omega

/-- Row block t of the second table. -/
theorem iblk1_1_apply (c : Dev nD) (t : Fin cfg1.N) (p : Fin 4000) (k : Fin 64) :
    (iblk1 V c 1 t : S4000x64.Idx → EReal) (ix2 p k)
      = (V c main_v35 : S160000x64.Idx → EReal) (ix2 ⟨4000 * t.val + p.val, by have := tlt1 t; omega⟩ k) := by
  obtain ⟨-, -, e10, e11, -⟩ := idx_facts1 t
  show (V c main_v35 : S160000x64.Idx → EReal) (((cfg1.win 1).blk t).view.emb (ix2 p k)) = _
  refine congrArg _ (funext fun a => Fin.ext ?_)
  match a with
  | ⟨0, _⟩ => show win1_1.index t (0 : Fin 2) * 4000 + 1 * p.val = 4000 * t.val + p.val; rw [e10]; omega
  | ⟨1, _⟩ => show win1_1.index t (1 : Fin 2) * 64 + 1 * k.val = k.val; rw [e11]; omega

/-- The weight and bias blocks are the whole small arrays. -/
theorem iblk1_2_apply (c : Dev nD) (t : Fin cfg1.N) (k q : Fin 64) :
    (iblk1 V c 2 t : S64x64.Idx → EReal) (ix2 k q) = (V c main_v37 : S64x64.Idx → EReal) (ix2 k q) := by
  obtain ⟨-, -, -, -, e20, e21, -⟩ := idx_facts1 t
  show (V c main_v37 : S64x64.Idx → EReal) (((cfg1.win 2).blk t).view.emb (ix2 k q)) = _
  refine congrArg _ (funext fun a => Fin.ext ?_)
  match a with
  | ⟨0, _⟩ => show win1_2.index t (0 : Fin 2) * 64 + 1 * k.val = k.val; rw [e20]; omega
  | ⟨1, _⟩ => show win1_2.index t (1 : Fin 2) * 64 + 1 * q.val = q.val; rw [e21]; omega

theorem iblk1_3_apply (c : Dev nD) (t : Fin cfg1.N) (z : Fin 1) (q : Fin 64) :
    (iblk1 V c 3 t : S1x64.Idx → EReal) (ix2 z q) = (V c main_v39 : S1x64.Idx → EReal) (ix2 z q) := by
  obtain ⟨-, -, -, -, -, -, e30, e31, -⟩ := idx_facts1 t
  show (V c main_v39 : S1x64.Idx → EReal) (((cfg1.win 3).blk t).view.emb (ix2 z q)) = _
  refine congrArg _ (funext fun a => Fin.ext ?_)
  match a with
  | ⟨0, _⟩ => show win1_3.index t (0 : Fin 2) * 1 + 1 * z.val = z.val; rw [e30]; omega
  | ⟨1, _⟩ => show win1_3.index t (1 : Fin 2) * 64 + 1 * q.val = q.val; rw [e31]; omega

theorem iblk1_4_apply (c : Dev nD) (t : Fin cfg1.N) (k q : Fin 64) :
    (iblk1 V c 4 t : S64x64.Idx → EReal) (ix2 k q) = (V c main_v41 : S64x64.Idx → EReal) (ix2 k q) := by
  obtain ⟨-, -, -, -, -, -, -, -, e40, e41, -⟩ := idx_facts1 t
  show (V c main_v41 : S64x64.Idx → EReal) (((cfg1.win 4).blk t).view.emb (ix2 k q)) = _
  refine congrArg _ (funext fun a => Fin.ext ?_)
  match a with
  | ⟨0, _⟩ => show win1_4.index t (0 : Fin 2) * 64 + 1 * k.val = k.val; rw [e40]; omega
  | ⟨1, _⟩ => show win1_4.index t (1 : Fin 2) * 64 + 1 * q.val = q.val; rw [e41]; omega

theorem iblk1_5_apply (c : Dev nD) (t : Fin cfg1.N) (z : Fin 1) (q : Fin 64) :
    (iblk1 V c 5 t : S1x64.Idx → EReal) (ix2 z q) = (V c main_v43 : S1x64.Idx → EReal) (ix2 z q) := by
  obtain ⟨-, -, -, -, -, -, -, -, -, -, e50, e51, -⟩ := idx_facts1 t
  show (V c main_v43 : S1x64.Idx → EReal) (((cfg1.win 5).blk t).view.emb (ix2 z q)) = _
  refine congrArg _ (funext fun a => Fin.ext ?_)
  match a with
  | ⟨0, _⟩ => show win1_5.index t (0 : Fin 2) * 1 + 1 * z.val = z.val; rw [e50]; omega
  | ⟨1, _⟩ => show win1_5.index t (1 : Fin 2) * 64 + 1 * q.val = q.val; rw [e51]; omega

/-- The activation payload of point t at (p, q) is the layer's activation at row 4000 t + p. -/
theorem pay1_blk1 (c : Dev nD) (t : Fin cfg1.N) (p : Fin 4000) (q : Fin 64) :
    k1_pay1 (F := Ideal) (iblk1 V c 0 t : S4000x64.Idx → EReal) (iblk1 V c 1 t : S4000x64.Idx → EReal) (iblk1 V c 2 t : S64x64.Idx → EReal)
        (iblk1 V c 3 t : S1x64.Idx → EReal) (iblk1 V c 4 t : S64x64.Idx → EReal) (iblk1 V c 5 t : S1x64.Idx → EReal) (ix2 p q)
      = layerAct (V c main_v22_0) (V c main_v35) (V c main_v37) (V c main_v39) (V c main_v41) (V c main_v43)
          ⟨4000 * t.val + p.val, by have := tlt1 t; omega⟩ q := by
  rw [k1_pay1_apply]
  unfold layerAct
  simp only [iblk1_0_apply, iblk1_1_apply, iblk1_2_apply, iblk1_3_apply, iblk1_4_apply, iblk1_5_apply]

/-- Where an entry of point t's output block sits in the table. -/
theorem emb1_6 (t : Fin cfg1.N) (p : Fin 4000) (q : Fin 64) :
    ((cfg1.win 6).blk t).view.emb (ix2 p q) = (ix2 ⟨4000 * t.val + p.val, by have := tlt1 t; omega⟩ q : S160000x64.Idx) := by
  obtain ⟨-, -, -, -, -, -, -, -, -, -, -, -, e60, e61, -⟩ := idx_facts1 t
  refine funext fun a => Fin.ext ?_
  match a with
  | ⟨0, _⟩ => show win1_6.index t (0 : Fin 2) * 4000 + 1 * p.val = 4000 * t.val + p.val; rw [e60]; omega
  | ⟨1, _⟩ => show win1_6.index t (1 : Fin 2) * 64 + 1 * q.val = q.val; rw [e61]; omega

theorem emb1_7 (t : Fin cfg1.N) (p : Fin 4000) (q : Fin 64) :
    ((cfg1.win 7).blk t).view.emb (ix2 p q) = (ix2 ⟨4000 * t.val + p.val, by have := tlt1 t; omega⟩ q : S160000x64.Idx) := by
  obtain ⟨-, -, -, -, -, -, -, -, -, -, -, -, -, -, e70, e71⟩ := idx_facts1 t
  refine funext fun a => Fin.ext ?_
  match a with
  | ⟨0, _⟩ => show win1_7.index t (0 : Fin 2) * 4000 + 1 * p.val = 4000 * t.val + p.val; rw [e70]; omega
  | ⟨1, _⟩ => show win1_7.index t (1 : Fin 2) * 64 + 1 * q.val = q.val; rw [e71]; omega

/-- What point t writes back to the first output table: rows 4000 t … of the activation table. -/
theorem flushed1_6_eq (c : Dev nD) (t : Fin cfg1.N) :
    (dat1 V c).flushed 6 t = ((cfg1.win 6).blk t).view.read (Elt Ideal)
      (actArr (V c main_v22_0) (V c main_v35) (V c main_v37) (V c main_v39) (V c main_v41) (V c main_v43)) := by
  show (cfg1.win 6).cut (grid1.coords t) ((dat1 V c).after 6 t) = _
  rw [after1_6]
  unfold out1_6
  rw [View.canon_unit_zero hz1]
  simp only [View.ld_unit_zero (S := S4000x64) hz1, View.ld_unit_zero (S := S64x64) hz1, View.ld_unit_zero (S := S1x64) hz1]
  funext j
  obtain ⟨p, q, rfl⟩ : ∃ (p : Fin 4000) (q : Fin 64), j = ix2 p q := ⟨j 0, j 1, eq_ix2 j⟩
  show k1_pay1 (F := Ideal) (iblk1 V c 0 t : S4000x64.Idx → EReal) (iblk1 V c 1 t : S4000x64.Idx → EReal) (iblk1 V c 2 t : S64x64.Idx → EReal)
        (iblk1 V c 3 t : S1x64.Idx → EReal) (iblk1 V c 4 t : S64x64.Idx → EReal) (iblk1 V c 5 t : S1x64.Idx → EReal) (ix2 p q)
      = actArr (V c main_v22_0) (V c main_v35) (V c main_v37) (V c main_v39) (V c main_v41) (V c main_v43) (((cfg1.win 6).blk t).view.emb (ix2 p q))
  rw [emb1_6, actArr_ix2]
  exact pay1_blk1 V c t p q

/-- What point t writes back to the second output table: rows 4000 t … of the normalised table. -/
theorem flushed1_7_eq (c : Dev nD) (t : Fin cfg1.N) :
    (dat1 V c).flushed 7 t = ((cfg1.win 7).blk t).view.read (Elt Ideal)
      (outArr (V c main_v22_0) (V c main_v35) (V c main_v37) (V c main_v39) (V c main_v41) (V c main_v43)) := by
  show (cfg1.win 7).cut (grid1.coords t) ((dat1 V c).after 7 t) = _
  rw [after1_7]
  unfold out1_7
  rw [View.canon_unit_zero hz1]
  simp only [View.ld_unit_zero (S := S4000x64) hz1, View.ld_unit_zero (S := S64x64) hz1, View.ld_unit_zero (S := S1x64) hz1]
  funext j
  obtain ⟨p, q, rfl⟩ : ∃ (p : Fin 4000) (q : Fin 64), j = ix2 p q := ⟨j 0, j 1, eq_ix2 j⟩
  show k1_pay2 (F := Ideal) (iblk1 V c 0 t : S4000x64.Idx → EReal) (iblk1 V c 1 t : S4000x64.Idx → EReal) (iblk1 V c 2 t : S64x64.Idx → EReal)
        (iblk1 V c 3 t : S1x64.Idx → EReal) (iblk1 V c 4 t : S64x64.Idx → EReal) (iblk1 V c 5 t : S1x64.Idx → EReal) (ix2 p q)
      = outArr (V c main_v22_0) (V c main_v35) (V c main_v37) (V c main_v39) (V c main_v41) (V c main_v43) (((cfg1.win 7).blk t).view.emb (ix2 p q))
  rw [emb1_7, outArr_ix2, k1_pay2_apply]
  exact congrArg (fun f => rowNormed f q) (funext fun j => pay1_blk1 V c t p j)

theorem mem_blk1_6 (t : Fin cfg1.N) (i : S160000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v44_0).slice (win1_6.rect t)).set ↔ _
  rw [View.set_slice_whole, Rect.mem_set_unit]
  exact Iff.rfl

theorem mem_blk1_7 (t : Fin cfg1.N) (i : S160000x64.Idx) :
    i ∈ ((cfg1.win 7).blk t).view.set ↔ ∀ a : Fin 2, win1_7.index t a * S4000x64.size a ≤ (i a).val ∧ (i a).val < win1_7.index t a * S4000x64.size a + S4000x64.size a := by
  show i ∈ ((View.whole main_v44_1).slice (win1_7.rect t)).set ↔ _
  rw [View.set_slice_whole, Rect.mem_set_unit]
  exact Iff.rfl

/-- Every row of the table is in the block of the point (row / 4000). -/
theorem tiles1_6 (i : S160000x64.Idx) : ∃ t : Fin cfg1.N, (cfg1.win 6).flush t = true ∧ i ∈ ((cfg1.win 6).blk t).view.set := by
  have hi0 : (i 0).val < 160000 := (i 0).isLt
  have hi1 : (i 1).val < 64 := (i 1).isLt
  have hN : cfg1.N = 40 := N_1
  refine ⟨⟨(i 0).val / 4000, by rw [hN]; omega⟩, flush1_6 _, ?_⟩
  rw [mem_blk1_6]
  obtain ⟨-, -, -, -, -, -, -, -, -, -, -, -, e0, e1, -, -⟩ := idx_facts1 ⟨(i 0).val / 4000, by rw [hN]; omega⟩
  intro a
  match a with
  | ⟨0, _⟩ => show win1_6.index _ (0 : Fin 2) * 4000 ≤ (i 0).val ∧ (i 0).val < win1_6.index _ (0 : Fin 2) * 4000 + 4000; rw [e0]; show (i 0).val / 4000 * 4000 ≤ _ ∧ _ < (i 0).val / 4000 * 4000 + 4000; omega
  | ⟨1, _⟩ => show win1_6.index _ (1 : Fin 2) * 64 ≤ (i 1).val ∧ (i 1).val < win1_6.index _ (1 : Fin 2) * 64 + 64; rw [e1]; omega

theorem tiles1_7 (i : S160000x64.Idx) : ∃ t : Fin cfg1.N, (cfg1.win 7).flush t = true ∧ i ∈ ((cfg1.win 7).blk t).view.set := by
  have hi0 : (i 0).val < 160000 := (i 0).isLt
  have hi1 : (i 1).val < 64 := (i 1).isLt
  have hN : cfg1.N = 40 := N_1
  refine ⟨⟨(i 0).val / 4000, by rw [hN]; omega⟩, flush1_7 _, ?_⟩
  rw [mem_blk1_7]
  obtain ⟨-, -, -, -, -, -, -, -, -, -, -, -, -, -, e0, e1⟩ := idx_facts1 ⟨(i 0).val / 4000, by rw [hN]; omega⟩
  intro a
  match a with
  | ⟨0, _⟩ => show win1_7.index _ (0 : Fin 2) * 4000 ≤ (i 0).val ∧ (i 0).val < win1_7.index _ (0 : Fin 2) * 4000 + 4000; rw [e0]; show (i 0).val / 4000 * 4000 ≤ _ ∧ _ < (i 0).val / 4000 * 4000 + 4000; omega
  | ⟨1, _⟩ => show win1_7.index _ (1 : Fin 2) * 64 ≤ (i 1).val ∧ (i 1).val < win1_7.index _ (1 : Fin 2) * 64 + 64; rw [e1]; omega

/-- After the region the first output table is the layer's activation table, -/
theorem final1_6 (c : Dev nD) : (dat1 V c).arrAt 6 cfg1.N
    = actArr (V c main_v22_0) (V c main_v35) (V c main_v37) (V c main_v39) (V c main_v41) (V c main_v43) :=
  (dat1 V c).arrAt_eq_of_cover 6 _ (fun t _ => flushed1_6_eq V c t) tiles1_6

/-- and the second the layer's normalised table. -/
theorem final1_7 (c : Dev nD) : (dat1 V c).arrAt 7 cfg1.N
    = outArr (V c main_v22_0) (V c main_v35) (V c main_v37) (V c main_v39) (V c main_v41) (V c main_v43) :=
  (dat1 V c).arrAt_eq_of_cover 7 _ (fun t _ => flushed1_7_eq V c t) tiles1_7

end Final1

end Cert.KernelIdeal.Run
end
-- ==== Proof.KernelIdealFinal2.lean ====
/-
  Region 2 of the kernel program, read back as whole tables.  Grid point t of the 40 handles rows 4000 t … 4000 t + 3999:
  its two row blocks are those rows of the two input tables, its weight and bias blocks are the whole small arrays, and
  what it writes back is those rows of the layer's activation table (first output) and of its normalised table (second
  output).  The 40 blocks tile each output table, so after the region each output table IS the layer's table.
-/
import proofs.«162997_j3143916060680_1_alg».proof.Proof.KernelIdealRegion2
import proofs.«162997_j3143916060680_1_alg».proof.Proof.LayerKernelValue
import proofs.«162997_j3143916060680_1_alg».proof.Proof.LayerArr
import Idealize.ShloMosaic.Lib.Pipeline.Value
import Idealize.ShloMosaic.Lib.ValueIdx

noncomputable section

namespace Cert.KernelIdeal.Run

open Cert.KernelIdeal Cert.KernelIdeal.Gen Idealize.ShloMosaic Idealize.ShloMosaic.TcCoe Idealize.SL.Sem Idealize.ShloMosaic.ValueIdx
open Idealize.ShloMosaic.Pipeline (Dat)
open Cert.NGCF

section Final2

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the row windows move with the point, the weight and bias windows stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

theorem tlt2 (t : Fin cfg2.N) : t.val < 40 := by have h := t.isLt; have hN : cfg2.N = 40 := N_2; omega

/-- Row block t of the first table. -/
theorem iblk2_0_apply (c : Dev nD) (t : Fin cfg2.N) (p : Fin 4000) (k : Fin 64) :
    (iblk2 V c 0 t : S4000x64.Idx → EReal) (ix2 p k)
      = (V c main_v44_0 : S160000x64.Idx → EReal) (ix2 ⟨4000 * t.val + p.val, by have := tlt2 t; omega⟩ k) := by
  obtain ⟨e00, e01, -⟩ := idx_facts2 t
  show (V c main_v44_0 : S160000x64.Idx → EReal) (((cfg2.win 0).blk t).view.emb (ix2 p k)) = _
  refine congrArg _ (funext fun a => Fin.ext ?_)
  match a with
  | ⟨0, _⟩ => show win2_0.index t (0 : Fin 2) * 4000 + 1 * p.val = 4000 * t.val + p.val; rw [e00]; omega
  | ⟨1, _⟩ => show win2_0.index t (1 : Fin 2) * 64 + 1 * k.val = k.val; rw [e01]; omega

/-- Row block t of the second table. -/
theorem iblk2_1_apply (c : Dev nD) (t : Fin cfg2.N) (p : Fin 4000) (k : Fin 64) :
    (iblk2 V c 1 t : S4000x64.Idx → EReal) (ix2 p k)
      = (V c main_v57 : S160000x64.Idx → EReal) (ix2 ⟨4000 * t.val + p.val, by have := tlt2 t; omega⟩ k) := by
  obtain ⟨-, -, e10, e11, -⟩ := idx_facts2 t
  show (V c main_v57 : S160000x64.Idx → EReal) (((cfg2.win 1).blk t).view.emb (ix2 p k)) = _
  refine congrArg _ (funext fun a => Fin.ext ?_)
  match a with
  | ⟨0, _⟩ => show win2_1.index t (0 : Fin 2) * 4000 + 1 * p.val = 4000 * t.val + p.val; rw [e10]; omega
  | ⟨1, _⟩ => show win2_1.index t (1 : Fin 2) * 64 + 1 * k.val = k.val; rw [e11]; omega

/-- The weight and bias blocks are the whole small arrays. -/
theorem iblk2_2_apply (c : Dev nD) (t : Fin cfg2.N) (k q : Fin 64) :
    (iblk2 V c 2 t : S64x64.Idx → EReal) (ix2 k q) = (V c main_v59 : S64x64.Idx → EReal) (ix2 k q) := by
  obtain ⟨-, -, -, -, e20, e21, -⟩ := idx_facts2 t
  show (V c main_v59 : S64x64.Idx → EReal) (((cfg2.win 2).blk t).view.emb (ix2 k q)) = _
  refine congrArg _ (funext fun a => Fin.ext ?_)
  match a with
  | ⟨0, _⟩ => show win2_2.index t (0 : Fin 2) * 64 + 1 * k.val = k.val; rw [e20]; omega
  | ⟨1, _⟩ => show win2_2.index t (1 : Fin 2) * 64 + 1 * q.val = q.val; rw [e21]; omega

theorem iblk2_3_apply (c : Dev nD) (t : Fin cfg2.N) (z : Fin 1) (q : Fin 64) :
    (iblk2 V c 3 t : S1x64.Idx → EReal) (ix2 z q) = (V c main_v61 : S1x64.Idx → EReal) (ix2 z q) := by
  obtain ⟨-, -, -, -, -, -, e30, e31, -⟩ := idx_facts2 t
  show (V c main_v61 : S1x64.Idx → EReal) (((cfg2.win 3).blk t).view.emb (ix2 z q)) = _
  refine congrArg _ (funext fun a => Fin.ext ?_)
  match a with
  | ⟨0, _⟩ => show win2_3.index t (0 : Fin 2) * 1 + 1 * z.val = z.val; rw [e30]; omega
  | ⟨1, _⟩ => show win2_3.index t (1 : Fin 2) * 64 + 1 * q.val = q.val; rw [e31]; omega

theorem iblk2_4_apply (c : Dev nD) (t : Fin cfg2.N) (k q : Fin 64) :
    (iblk2 V c 4 t : S64x64.Idx → EReal) (ix2 k q) = (V c main_v63 : S64x64.Idx → EReal) (ix2 k q) := by
  obtain ⟨-, -, -, -, -, -, -, -, e40, e41, -⟩ := idx_facts2 t
  show (V c main_v63 : S64x64.Idx → EReal) (((cfg2.win 4).blk t).view.emb (ix2 k q)) = _
  refine congrArg _ (funext fun a => Fin.ext ?_)
  match a with
  | ⟨0, _⟩ => show win2_4.index t (0 : Fin 2) * 64 + 1 * k.val = k.val; rw [e40]; omega
  | ⟨1, _⟩ => show win2_4.index t (1 : Fin 2) * 64 + 1 * q.val = q.val; rw [e41]; omega

theorem iblk2_5_apply (c : Dev nD) (t : Fin cfg2.N) (z : Fin 1) (q : Fin 64) :
    (iblk2 V c 5 t : S1x64.Idx → EReal) (ix2 z q) = (V c main_v65 : S1x64.Idx → EReal) (ix2 z q) := by
  obtain ⟨-, -, -, -, -, -, -, -, -, -, e50, e51, -⟩ := idx_facts2 t
  show (V c main_v65 : S1x64.Idx → EReal) (((cfg2.win 5).blk t).view.emb (ix2 z q)) = _
  refine congrArg _ (funext fun a => Fin.ext ?_)
  match a with
  | ⟨0, _⟩ => show win2_5.index t (0 : Fin 2) * 1 + 1 * z.val = z.val; rw [e50]; omega
  | ⟨1, _⟩ => show win2_5.index t (1 : Fin 2) * 64 + 1 * q.val = q.val; rw [e51]; omega

/-- The activation payload of point t at (p, q) is the layer's activation at row 4000 t + p. -/
theorem pay1_blk2 (c : Dev nD) (t : Fin cfg2.N) (p : Fin 4000) (q : Fin 64) :
    k2_pay1 (F := Ideal) (iblk2 V c 0 t : S4000x64.Idx → EReal) (iblk2 V c 1 t : S4000x64.Idx → EReal) (iblk2 V c 2 t : S64x64.Idx → EReal)
        (iblk2 V c 3 t : S1x64.Idx → EReal) (iblk2 V c 4 t : S64x64.Idx → EReal) (iblk2 V c 5 t : S1x64.Idx → EReal) (ix2 p q)
      = layerAct (V c main_v44_0) (V c main_v57) (V c main_v59) (V c main_v61) (V c main_v63) (V c main_v65)
          ⟨4000 * t.val + p.val, by have := tlt2 t; omega⟩ q := by
  rw [k2_pay1_apply]
  unfold layerAct
  simp only [iblk2_0_apply, iblk2_1_apply, iblk2_2_apply, iblk2_3_apply, iblk2_4_apply, iblk2_5_apply]

/-- Where an entry of point t's output block sits in the table. -/
theorem emb2_6 (t : Fin cfg2.N) (p : Fin 4000) (q : Fin 64) :
    ((cfg2.win 6).blk t).view.emb (ix2 p q) = (ix2 ⟨4000 * t.val + p.val, by have := tlt2 t; omega⟩ q : S160000x64.Idx) := by
  obtain ⟨-, -, -, -, -, -, -, -, -, -, -, -, e60, e61, -⟩ := idx_facts2 t
  refine funext fun a => Fin.ext ?_
  match a with
  | ⟨0, _⟩ => show win2_6.index t (0 : Fin 2) * 4000 + 1 * p.val = 4000 * t.val + p.val; rw [e60]; omega
  | ⟨1, _⟩ => show win2_6.index t (1 : Fin 2) * 64 + 1 * q.val = q.val; rw [e61]; omega

theorem emb2_7 (t : Fin cfg2.N) (p : Fin 4000) (q : Fin 64) :
    ((cfg2.win 7).blk t).view.emb (ix2 p q) = (ix2 ⟨4000 * t.val + p.val, by have := tlt2 t; omega⟩ q : S160000x64.Idx) := by
  obtain ⟨-, -, -, -, -, -, -, -, -, -, -, -, -, -, e70, e71⟩ := idx_facts2 t
  refine funext fun a => Fin.ext ?_
  match a with
  | ⟨0, _⟩ => show win2_7.index t (0 : Fin 2) * 4000 + 1 * p.val = 4000 * t.val + p.val; rw [e70]; omega
  | ⟨1, _⟩ => show win2_7.index t (1 : Fin 2) * 64 + 1 * q.val = q.val; rw [e71]; omega

/-- What point t writes back to the first output table: rows 4000 t … of the activation table. -/
theorem flushed2_6_eq (c : Dev nD) (t : Fin cfg2.N) :
    (dat2 V c).flushed 6 t = ((cfg2.win 6).blk t).view.read (Elt Ideal)
      (actArr (V c main_v44_0) (V c main_v57) (V c main_v59) (V c main_v61) (V c main_v63) (V c main_v65)) := by
  show (cfg2.win 6).cut (grid2.coords t) ((dat2 V c).after 6 t) = _
  rw [after2_6]
  unfold out2_6
  rw [View.canon_unit_zero hz2]
  simp only [View.ld_unit_zero (S := S4000x64) hz2, View.ld_unit_zero (S := S64x64) hz2, View.ld_unit_zero (S := S1x64) hz2]
  funext j
  obtain ⟨p, q, rfl⟩ : ∃ (p : Fin 4000) (q : Fin 64), j = ix2 p q := ⟨j 0, j 1, eq_ix2 j⟩
  show k2_pay1 (F := Ideal) (iblk2 V c 0 t : S4000x64.Idx → EReal) (iblk2 V c 1 t : S4000x64.Idx → EReal) (iblk2 V c 2 t : S64x64.Idx → EReal)
        (iblk2 V c 3 t : S1x64.Idx → EReal) (iblk2 V c 4 t : S64x64.Idx → EReal) (iblk2 V c 5 t : S1x64.Idx → EReal) (ix2 p q)
      = actArr (V c main_v44_0) (V c main_v57) (V c main_v59) (V c main_v61) (V c main_v63) (V c main_v65) (((cfg2.win 6).blk t).view.emb (ix2 p q))
  rw [emb2_6, actArr_ix2]
  exact pay1_blk2 V c t p q

/-- What point t writes back to the second output table: rows 4000 t … of the normalised table. -/
theorem flushed2_7_eq (c : Dev nD) (t : Fin cfg2.N) :
    (dat2 V c).flushed 7 t = ((cfg2.win 7).blk t).view.read (Elt Ideal)
      (outArr (V c main_v44_0) (V c main_v57) (V c main_v59) (V c main_v61) (V c main_v63) (V c main_v65)) := by
  show (cfg2.win 7).cut (grid2.coords t) ((dat2 V c).after 7 t) = _
  rw [after2_7]
  unfold out2_7
  rw [View.canon_unit_zero hz2]
  simp only [View.ld_unit_zero (S := S4000x64) hz2, View.ld_unit_zero (S := S64x64) hz2, View.ld_unit_zero (S := S1x64) hz2]
  funext j
  obtain ⟨p, q, rfl⟩ : ∃ (p : Fin 4000) (q : Fin 64), j = ix2 p q := ⟨j 0, j 1, eq_ix2 j⟩
  show k2_pay2 (F := Ideal) (iblk2 V c 0 t : S4000x64.Idx → EReal) (iblk2 V c 1 t : S4000x64.Idx → EReal) (iblk2 V c 2 t : S64x64.Idx → EReal)
        (iblk2 V c 3 t : S1x64.Idx → EReal) (iblk2 V c 4 t : S64x64.Idx → EReal) (iblk2 V c 5 t : S1x64.Idx → EReal) (ix2 p q)
      = outArr (V c main_v44_0) (V c main_v57) (V c main_v59) (V c main_v61) (V c main_v63) (V c main_v65) (((cfg2.win 7).blk t).view.emb (ix2 p q))
  rw [emb2_7, outArr_ix2, k2_pay2_apply]
  exact congrArg (fun f => rowNormed f q) (funext fun j => pay1_blk2 V c t p j)

theorem mem_blk2_6 (t : Fin cfg2.N) (i : S160000x64.Idx) :
    i ∈ ((cfg2.win 6).blk t).view.set ↔ ∀ a : Fin 2, win2_6.index t a * S4000x64.size a ≤ (i a).val ∧ (i a).val < win2_6.index t a * S4000x64.size a + S4000x64.size a := by
  show i ∈ ((View.whole main_v66_0).slice (win2_6.rect t)).set ↔ _
  rw [View.set_slice_whole, Rect.mem_set_unit]
  exact Iff.rfl

theorem mem_blk2_7 (t : Fin cfg2.N) (i : S160000x64.Idx) :
    i ∈ ((cfg2.win 7).blk t).view.set ↔ ∀ a : Fin 2, win2_7.index t a * S4000x64.size a ≤ (i a).val ∧ (i a).val < win2_7.index t a * S4000x64.size a + S4000x64.size a := by
  show i ∈ ((View.whole main_v66_1).slice (win2_7.rect t)).set ↔ _
  rw [View.set_slice_whole, Rect.mem_set_unit]
  exact Iff.rfl

/-- Every row of the table is in the block of the point (row / 4000). -/
theorem tiles2_6 (i : S160000x64.Idx) : ∃ t : Fin cfg2.N, (cfg2.win 6).flush t = true ∧ i ∈ ((cfg2.win 6).blk t).view.set := by
  have hi0 : (i 0).val < 160000 := (i 0).isLt
  have hi1 : (i 1).val < 64 := (i 1).isLt
  have hN : cfg2.N = 40 := N_2
  refine ⟨⟨(i 0).val / 4000, by rw [hN]; omega⟩, flush2_6 _, ?_⟩
  rw [mem_blk2_6]
  obtain ⟨-, -, -, -, -, -, -, -, -, -, -, -, e0, e1, -, -⟩ := idx_facts2 ⟨(i 0).val / 4000, by rw [hN]; omega⟩
  intro a
  match a with
  | ⟨0, _⟩ => show win2_6.index _ (0 : Fin 2) * 4000 ≤ (i 0).val ∧ (i 0).val < win2_6.index _ (0 : Fin 2) * 4000 + 4000; rw [e0]; show (i 0).val / 4000 * 4000 ≤ _ ∧ _ < (i 0).val / 4000 * 4000 + 4000; omega
  | ⟨1, _⟩ => show win2_6.index _ (1 : Fin 2) * 64 ≤ (i 1).val ∧ (i 1).val < win2_6.index _ (1 : Fin 2) * 64 + 64; rw [e1]; omega

theorem tiles2_7 (i : S160000x64.Idx) : ∃ t : Fin cfg2.N, (cfg2.win 7).flush t = true ∧ i ∈ ((cfg2.win 7).blk t).view.set := by
  have hi0 : (i 0).val < 160000 := (i 0).isLt
  have hi1 : (i 1).val < 64 := (i 1).isLt
  have hN : cfg2.N = 40 := N_2
  refine ⟨⟨(i 0).val / 4000, by rw [hN]; omega⟩, flush2_7 _, ?_⟩
  rw [mem_blk2_7]
  obtain ⟨-, -, -, -, -, -, -, -, -, -, -, -, -, -, e0, e1⟩ := idx_facts2 ⟨(i 0).val / 4000, by rw [hN]; omega⟩
  intro a
  match a with
  | ⟨0, _⟩ => show win2_7.index _ (0 : Fin 2) * 4000 ≤ (i 0).val ∧ (i 0).val < win2_7.index _ (0 : Fin 2) * 4000 + 4000; rw [e0]; show (i 0).val / 4000 * 4000 ≤ _ ∧ _ < (i 0).val / 4000 * 4000 + 4000; omega
  | ⟨1, _⟩ => show win2_7.index _ (1 : Fin 2) * 64 ≤ (i 1).val ∧ (i 1).val < win2_7.index _ (1 : Fin 2) * 64 + 64; rw [e1]; omega

/-- After the region the first output table is the layer's activation table, -/
theorem final2_6 (c : Dev nD) : (dat2 V c).arrAt 6 cfg2.N
    = actArr (V c main_v44_0) (V c main_v57) (V c main_v59) (V c main_v61) (V c main_v63) (V c main_v65) :=
  (dat2 V c).arrAt_eq_of_cover 6 _ (fun t _ => flushed2_6_eq V c t) tiles2_6

/-- and the second the layer's normalised table. -/
theorem final2_7 (c : Dev nD) : (dat2 V c).arrAt 7 cfg2.N
    = outArr (V c main_v44_0) (V c main_v57) (V c main_v59) (V c main_v61) (V c main_v63) (V c main_v65) :=
  (dat2 V c).arrAt_eq_of_cover 7 _ (fun t _ => flushed2_7_eq V c t) tiles2_7

end Final2

end Cert.KernelIdeal.Run
end
-- ==== Proof.KernelIdealHostFns.lean ====
/-
  The host side of the kernel program as pure functions of arrays: the node table (users above items), the sparse
  aggregation of one layer (gather the rows named by the column indices, scale by the edge weights, add into the rows
  named by the row indices), the per-layer slices of the stacked weights, and the scoring tail (the four embedding
  blocks side by side, the two row lookups, the product with the prediction weights, the logistic).  Each host stretch
  of the program, run from any contents, leaves exactly these functions of what it found.
-/
import proofs.«162997_j3143916060680_1_alg».proof.Proof.Gen.KernelIdeal.Launch
import Idealize.ShloMosaic.Lib.StableHlo.Run

noncomputable section

namespace Cert.KernelIdeal.HostFns

open Cert.KernelIdeal Cert.KernelIdeal.Gen Idealize.ShloMosaic Idealize.ShloMosaic.TcCoe Idealize.ShloMosaic.StableHlo Idealize.SL.Sem

variable {F : FTy → Type} [FloatOps F]

abbrev Mat (s : Shape) : Type := (⟨s, .f32⟩ : BufTy).Contents (Elt F)
abbrev IVc (s : Shape) : Type := (⟨s, .i32⟩ : BufTy).Contents (Elt F)

/-- The node table: the user rows above the item rows. -/
def ego0 (a5 : Mat (F := F) S100000x64) (a6 : Mat (F := F) S60000x64) : Mat (F := F) S160000x64 :=
  concatenate S160000x64 0 [⟨S100000x64, a5⟩, ⟨S60000x64, a6⟩] concatenates_S100000x64_S60000x64_S160000x64_d0

/-- One sparse aggregation: row r of the result is the sum over the edges e with rows[e] = r of vals[e] times the
    row cols[e] of the table (a negative column index counted from the end). -/
def side (ego : Mat (F := F) S160000x64) (rows cols : IVc (F := F) S2000000) (vals : Mat (F := F) S2000000) : Mat (F := F) S160000x64 :=
  Host.scatterAdd scatter_S160000x64_S2000000x1_S2000000x64_1_0_0_1
    (broadcastInDim S160000x64 ![] bcast_S_S160000x64 (constant S_ .f32 0x00000000#32))
    (broadcastInDim S2000000x1 ![0] bcast_S2000000_S2000000x1_0 rows)
    (mulf (broadcastInDim S2000000x64 ![0, 1] bcast_S2000000x1_S2000000x64_0_1 (broadcastInDim S2000000x1 ![0] bcast_S2000000_S2000000x1_0 vals))
      (Host.gather gather_S160000x64_S2000000x1_S2000000x64_1_0_n_n_0_1_164 ego
        (broadcastInDim S2000000x1 ![0] bcast_S2000000_S2000000x1_0
          (select (cmpi .slt cols (broadcastInDim S2000000 ![] bcast_S_S2000000 (constantI S_ 32 0#32)))
            (addi cols (broadcastInDim S2000000 ![] bcast_S_S2000000 (constantI S_ 32 160000#32))) cols))))

/-- Layer 0's square weight block of a stacked [3,64,64] array. -/
def sl64_0 (a : Mat (F := F) S3x64x64) : Mat (F := F) S64x64 :=
  fun i => shapeCast S64x64 (extractStridedSlice S1x64x64 ![0, 0, 0] a slices_S3x64x64_S1x64x64_0_0_0) shapeCasts_S1x64x64_S64x64 i
/-- Layer 0's bias row of a stacked [3,1,64] array. -/
def sl1_0 (a : Mat (F := F) S3x1x64) : Mat (F := F) S1x64 :=
  fun i => shapeCast S1x64 (extractStridedSlice S1x1x64 ![0, 0, 0] a slices_S3x1x64_S1x1x64_0_0_0) shapeCasts_S1x1x64_S1x64 i

/-- Layer 1's square weight block of a stacked [3,64,64] array. -/
def sl64_1 (a : Mat (F := F) S3x64x64) : Mat (F := F) S64x64 :=
  fun i => shapeCast S64x64 (extractStridedSlice S1x64x64 ![1, 0, 0] a slices_S3x64x64_S1x64x64_1_0_0) shapeCasts_S1x64x64_S64x64 i
/-- Layer 1's bias row of a stacked [3,1,64] array. -/
def sl1_1 (a : Mat (F := F) S3x1x64) : Mat (F := F) S1x64 :=
  fun i => shapeCast S1x64 (extractStridedSlice S1x1x64 ![1, 0, 0] a slices_S3x1x64_S1x1x64_1_0_0) shapeCasts_S1x1x64_S1x64 i

/-- Layer 2's square weight block of a stacked [3,64,64] array. -/
def sl64_2 (a : Mat (F := F) S3x64x64) : Mat (F := F) S64x64 :=
  fun i => shapeCast S64x64 (extractStridedSlice S1x64x64 ![2, 0, 0] a slices_S3x64x64_S1x64x64_2_0_0) shapeCasts_S1x64x64_S64x64 i
/-- Layer 2's bias row of a stacked [3,1,64] array. -/
def sl1_2 (a : Mat (F := F) S3x1x64) : Mat (F := F) S1x64 :=
  fun i => shapeCast S1x64 (extractStridedSlice S1x1x64 ![2, 0, 0] a slices_S3x1x64_S1x1x64_2_0_0) shapeCasts_S1x1x64_S1x64 i

/-- The four embedding blocks side by side: [160000, 256]. -/
def allE (e0 n1 n2 n3 : Mat (F := F) S160000x64) : Mat (F := F) S160000x256 :=
  concatenate S160000x256 1 [⟨S160000x64, e0⟩, ⟨S160000x64, n1⟩, ⟨S160000x64, n2⟩, ⟨S160000x64, n3⟩] concatenates_S160000x64_S160000x64_S160000x64_S160000x64_S160000x256_d1

/-- The product of the looked-up user rows (among the first 100000 rows) and item rows (among the last 60000). -/
def lookup (tbl : Mat (F := F) S160000x256) (users items : IVc (F := F) S16384) : Mat (F := F) S16384x256 :=
  mulf
    (Host.gather gather_S100000x256_S16384x1_S16384x256_1_0_n_n_0_1_1256 (extractStridedSlice S100000x256 ![0, 0] tbl slices_S160000x256_S100000x256_0_0)
      (broadcastInDim S16384x1 ![0] bcast_S16384_S16384x1_0
        (select (cmpi .slt users (broadcastInDim S16384 ![] bcast_S_S16384 (constantI S_ 32 0#32)))
          (addi users (broadcastInDim S16384 ![] bcast_S_S16384 (constantI S_ 32 100000#32))) users)))
    (Host.gather gather_S60000x256_S16384x1_S16384x256_1_0_n_n_0_1_1256 (extractStridedSlice S60000x256 ![100000, 0] tbl slices_S160000x256_S60000x256_100000_0)
      (broadcastInDim S16384x1 ![0] bcast_S16384_S16384x1_0
        (select (cmpi .slt items (broadcastInDim S16384 ![] bcast_S_S16384 (constantI S_ 32 0#32)))
          (addi items (broadcastInDim S16384 ![] bcast_S_S16384 (constantI S_ 32 60000#32))) items)))

/-- The score: the logistic 1 / (1 + exp (-(z·w + b))) of each row. -/
def score (z : Mat (F := F) S16384x256) (pw : Mat (F := F) S256x1) (pb : Mat (F := F) S1) : Mat (F := F) S16384 :=
  Host.divf (broadcastInDim S16384 ![] bcast_S_S16384 (constant S_ .f32 0x3F800000#32))
    (addf (broadcastInDim S16384 ![] bcast_S_S16384 (constant S_ .f32 0x3F800000#32))
      (Host.exp (Host.negf (fun i => shapeCast S16384
        (addf (Host.dotGeneral dot_S16384x256_S256x1_S16384x1_1_0_0_1_n_n none z pw)
          (broadcastInDim S16384x1 ![0, 1] bcast_S1x1_S16384x1_0_1 (broadcastInDim S1x1 ![1] bcast_S1_S1x1_1 pb)))
        shapeCasts_S16384x1_S16384 i))))

/-- The scoring tail of the program. -/
def tail (e0 n1 n2 n3 : Mat (F := F) S160000x64) (users items : IVc (F := F) S16384) (pw : Mat (F := F) S256x1) (pb : Mat (F := F) S1) : Mat (F := F) S16384 :=
  score (lookup (allE e0 n1 n2 n3) users items) pw pb

/-! ## What each host stretch leaves, from any contents -/

theorem ops0_v0 (V : Valuation τ sig (Elt F)) :
    StableHlo.after hostOps0 V (Proc.devRef .tc main_v0) = ego0 (V (Proc.devRef .tc main_arg5)) (V (Proc.devRef .tc main_arg6)) := by
  after_results
  rfl

set_option maxHeartbeats 1000000 in
theorem ops0_v13 (V : Valuation τ sig (Elt F)) :
    StableHlo.after hostOps0 V (Proc.devRef .tc main_v13)
      = side (ego0 (V (Proc.devRef .tc main_arg5)) (V (Proc.devRef .tc main_arg6))) (V (Proc.devRef .tc main_arg2)) (V (Proc.devRef .tc main_arg3)) (V (Proc.devRef .tc main_arg4)) := by
  after_results_simp
  rfl

theorem ops0_v15 (V : Valuation τ sig (Elt F)) :
    StableHlo.after hostOps0 V (Proc.devRef .tc main_v15) = sl64_0 (V (Proc.devRef .tc main_arg7)) := by
  after_results_simp
  rfl

theorem ops0_v17 (V : Valuation τ sig (Elt F)) :
    StableHlo.after hostOps0 V (Proc.devRef .tc main_v17) = sl1_0 (V (Proc.devRef .tc main_arg8)) := by
  after_results_simp
  rfl

theorem ops0_v19 (V : Valuation τ sig (Elt F)) :
    StableHlo.after hostOps0 V (Proc.devRef .tc main_v19) = sl64_0 (V (Proc.devRef .tc main_arg9)) := by
  after_results_simp
  rfl

theorem ops0_v21 (V : Valuation τ sig (Elt F)) :
    StableHlo.after hostOps0 V (Proc.devRef .tc main_v21) = sl1_0 (V (Proc.devRef .tc main_arg10)) := by
  after_results_simp
  rfl

set_option maxHeartbeats 1000000 in
theorem ops1_v35 (V : Valuation τ sig (Elt F)) :
    StableHlo.after hostOps1 V (Proc.devRef .tc main_v35)
      = side (V (Proc.devRef .tc main_v22_0)) (V (Proc.devRef .tc main_arg2)) (V (Proc.devRef .tc main_arg3)) (V (Proc.devRef .tc main_arg4)) := by
  after_results_simp
  rfl

theorem ops1_v37 (V : Valuation τ sig (Elt F)) :
    StableHlo.after hostOps1 V (Proc.devRef .tc main_v37) = sl64_1 (V (Proc.devRef .tc main_arg7)) := by
  after_results_simp
  rfl

theorem ops1_v39 (V : Valuation τ sig (Elt F)) :
    StableHlo.after hostOps1 V (Proc.devRef .tc main_v39) = sl1_1 (V (Proc.devRef .tc main_arg8)) := by
  after_results_simp
  rfl

theorem ops1_v41 (V : Valuation τ sig (Elt F)) :
    StableHlo.after hostOps1 V (Proc.devRef .tc main_v41) = sl64_1 (V (Proc.devRef .tc main_arg9)) := by
  after_results_simp
  rfl

theorem ops1_v43 (V : Valuation τ sig (Elt F)) :
    StableHlo.after hostOps1 V (Proc.devRef .tc main_v43) = sl1_1 (V (Proc.devRef .tc main_arg10)) := by
  after_results_simp
  rfl

set_option maxHeartbeats 1000000 in
theorem ops2_v57 (V : Valuation τ sig (Elt F)) :
    StableHlo.after hostOps2 V (Proc.devRef .tc main_v57)
      = side (V (Proc.devRef .tc main_v44_0)) (V (Proc.devRef .tc main_arg2)) (V (Proc.devRef .tc main_arg3)) (V (Proc.devRef .tc main_arg4)) := by
  after_results_simp
  rfl

theorem ops2_v59 (V : Valuation τ sig (Elt F)) :
    StableHlo.after hostOps2 V (Proc.devRef .tc main_v59) = sl64_2 (V (Proc.devRef .tc main_arg7)) := by
  after_results_simp
  rfl

theorem ops2_v61 (V : Valuation τ sig (Elt F)) :
    StableHlo.after hostOps2 V (Proc.devRef .tc main_v61) = sl1_2 (V (Proc.devRef .tc main_arg8)) := by
  after_results_simp
  rfl

theorem ops2_v63 (V : Valuation τ sig (Elt F)) :
    StableHlo.after hostOps2 V (Proc.devRef .tc main_v63) = sl64_2 (V (Proc.devRef .tc main_arg9)) := by
  after_results_simp
  rfl

theorem ops2_v65 (V : Valuation τ sig (Elt F)) :
    StableHlo.after hostOps2 V (Proc.devRef .tc main_v65) = sl1_2 (V (Proc.devRef .tc main_arg10)) := by
  after_results_simp
  rfl

set_option maxHeartbeats 2000000 in
theorem ops3_v95 (V : Valuation τ sig (Elt F)) :
    StableHlo.after hostOps3 V (Proc.devRef .tc main_v95)
      = tail (V (Proc.devRef .tc main_v0)) (V (Proc.devRef .tc main_v22_1)) (V (Proc.devRef .tc main_v44_1)) (V (Proc.devRef .tc main_v66_1))
          (V (Proc.devRef .tc main_arg0)) (V (Proc.devRef .tc main_arg1)) (V (Proc.devRef .tc main_arg11)) (V (Proc.devRef .tc main_arg12)) := by
  after_results_simp
  rfl

end Cert.KernelIdeal.HostFns
end
-- ==== Proof.KernelIdealValue.lean ====
/-
  The kernel program's result as a pure function of its thirteen argument arrays.  Walking the program's stretches in
  order from the launch contents: the node table, then per layer the sparse aggregation of the current embeddings, the
  layer's slices of the stacked weights, and the region's two output tables (the activation table, which feeds the
  next layer, and the normalised table, which is kept for the scoring tail); the tail then scores the looked-up rows of
  the four tables side by side.
-/
import proofs.«162997_j3143916060680_1_alg».proof.Proof.KernelIdealRun
import proofs.«162997_j3143916060680_1_alg».proof.Proof.KernelIdealFinal0
import proofs.«162997_j3143916060680_1_alg».proof.Proof.KernelIdealFinal1
import proofs.«162997_j3143916060680_1_alg».proof.Proof.KernelIdealFinal2
import proofs.«162997_j3143916060680_1_alg».proof.Proof.KernelIdealHostFns

noncomputable section

namespace Cert.KernelIdeal.Run

open Cert.KernelIdeal Cert.KernelIdeal.Gen Idealize.ShloMosaic Idealize.ShloMosaic.TcCoe Idealize.SL.Sem Idealize.ShloMosaic.ValueIdx
open Idealize.ShloMosaic.Pipeline (Dat)
open Cert.NGCF Cert.KernelIdeal.HostFns

/-! ## The result as a function of the arguments -/

section Pure

variable (a0 a1 : IVc (F := Ideal) S16384) (a2 a3 : IVc (F := Ideal) S2000000) (a4 : Mat (F := Ideal) S2000000)
  (a5 : Mat (F := Ideal) S100000x64) (a6 : Mat (F := Ideal) S60000x64) (a7 : Mat (F := Ideal) S3x64x64) (a8 : Mat (F := Ideal) S3x1x64)
  (a9 : Mat (F := Ideal) S3x64x64) (a10 : Mat (F := Ideal) S3x1x64) (a11 : Mat (F := Ideal) S256x1) (a12 : Mat (F := Ideal) S1)

/-- The embeddings after layer 1, 2 (activation tables) and the three normalised tables. -/
def kE0 : Mat (F := Ideal) S160000x64 := ego0 a5 a6
def kE1 : Mat (F := Ideal) S160000x64 := actArr (kE0 a5 a6) (side (kE0 a5 a6) a2 a3 a4) (sl64_0 a7) (sl1_0 a8) (sl64_0 a9) (sl1_0 a10)
def kN1 : Mat (F := Ideal) S160000x64 := outArr (kE0 a5 a6) (side (kE0 a5 a6) a2 a3 a4) (sl64_0 a7) (sl1_0 a8) (sl64_0 a9) (sl1_0 a10)
def kE2 : Mat (F := Ideal) S160000x64 :=
  actArr (kE1 a2 a3 a4 a5 a6 a7 a8 a9 a10) (side (kE1 a2 a3 a4 a5 a6 a7 a8 a9 a10) a2 a3 a4) (sl64_1 a7) (sl1_1 a8) (sl64_1 a9) (sl1_1 a10)
def kN2 : Mat (F := Ideal) S160000x64 :=
  outArr (kE1 a2 a3 a4 a5 a6 a7 a8 a9 a10) (side (kE1 a2 a3 a4 a5 a6 a7 a8 a9 a10) a2 a3 a4) (sl64_1 a7) (sl1_1 a8) (sl64_1 a9) (sl1_1 a10)
def kN3 : Mat (F := Ideal) S160000x64 :=
  outArr (kE2 a2 a3 a4 a5 a6 a7 a8 a9 a10) (side (kE2 a2 a3 a4 a5 a6 a7 a8 a9 a10) a2 a3 a4) (sl64_2 a7) (sl1_2 a8) (sl64_2 a9) (sl1_2 a10)
/-- The program's result. -/
def kResult : Mat (F := Ideal) S16384 :=
  tail (kE0 a5 a6) (kN1 a2 a3 a4 a5 a6 a7 a8 a9 a10) (kN2 a2 a3 a4 a5 a6 a7 a8 a9 a10) (kN3 a2 a3 a4 a5 a6 a7 a8 a9 a10) a0 a1 a11 a12

end Pure

/-! ## Walking the stretches -/

variable (m : (ℓ : Loc nD τ sig) → Buf (Elt Ideal) ℓ) (ρ : Dev nD → PrngReg) (c : Dev nD)

/-- An argument's launch contents on core `c`. -/
abbrev argOf (r : Ref sig .tc) : Buf (Elt Ideal) ((c : Thread nD τ).loc r) := m ((c : Thread nD τ).loc r)

/-- A reference no host stretch and no region writes holds its launch contents at every boundary. -/
theorem W1_keep (r : Ref sig .tc) (h0 : r ∉ hostOps0_W) : W1 m ρ c (Proc.devRef .tc r) = argOf m c r :=
  (StableHlo.after_of_writes_sub hostOps0 _ hostOps0_writes h0).trans rfl
theorem W2_keep (r : Ref sig .tc) (h0 : r ∉ hostOps0_W) (n0 : ∀ w, Pipeline.arrRef spec0 w ≠ r) : W2 m ρ c (Proc.devRef .tc r) = argOf m c r :=
  (W2_of_ne m ρ c r n0).trans (W1_keep m ρ c r h0)
theorem W3_keep (r : Ref sig .tc) (h0 : r ∉ hostOps0_W) (n0 : ∀ w, Pipeline.arrRef spec0 w ≠ r) (h1 : r ∉ hostOps1_W) :
    W3 m ρ c (Proc.devRef .tc r) = argOf m c r :=
  (StableHlo.after_of_writes_sub hostOps1 _ hostOps1_writes h1).trans (W2_keep m ρ c r h0 n0)
theorem W4_keep (r : Ref sig .tc) (h0 : r ∉ hostOps0_W) (n0 : ∀ w, Pipeline.arrRef spec0 w ≠ r) (h1 : r ∉ hostOps1_W)
    (n1 : ∀ w, Pipeline.arrRef spec1 w ≠ r) : W4 m ρ c (Proc.devRef .tc r) = argOf m c r :=
  (W4_of_ne m ρ c r n1).trans (W3_keep m ρ c r h0 n0 h1)
theorem W5_keep (r : Ref sig .tc) (h0 : r ∉ hostOps0_W) (n0 : ∀ w, Pipeline.arrRef spec0 w ≠ r) (h1 : r ∉ hostOps1_W)
    (n1 : ∀ w, Pipeline.arrRef spec1 w ≠ r) (h2 : r ∉ hostOps2_W) : W5 m ρ c (Proc.devRef .tc r) = argOf m c r :=
  (StableHlo.after_of_writes_sub hostOps2 _ hostOps2_writes h2).trans (W4_keep m ρ c r h0 n0 h1 n1)
theorem W6_keep (r : Ref sig .tc) (h0 : r ∉ hostOps0_W) (n0 : ∀ w, Pipeline.arrRef spec0 w ≠ r) (h1 : r ∉ hostOps1_W)
    (n1 : ∀ w, Pipeline.arrRef spec1 w ≠ r) (h2 : r ∉ hostOps2_W) (n2 : ∀ w, Pipeline.arrRef spec2 w ≠ r) :
    W6 m ρ c (Proc.devRef .tc r) = argOf m c r :=
  (W6_of_ne m ρ c r n2).trans (W5_keep m ρ c r h0 n0 h1 n1 h2)

/-! ### Layer 1 -/

theorem E1_v0 : E1 m ρ c main_v0 = kE0 (argOf m c main_arg5) (argOf m c main_arg6) := ops0_v0 (W0 m ρ c)
theorem E1_v13 : E1 m ρ c main_v13 = side (kE0 (argOf m c main_arg5) (argOf m c main_arg6)) (argOf m c main_arg2) (argOf m c main_arg3) (argOf m c main_arg4) :=
  ops0_v13 (W0 m ρ c)
theorem E1_v15 : E1 m ρ c main_v15 = sl64_0 (argOf m c main_arg7) := ops0_v15 (W0 m ρ c)
theorem E1_v17 : E1 m ρ c main_v17 = sl1_0 (argOf m c main_arg8) := ops0_v17 (W0 m ρ c)
theorem E1_v19 : E1 m ρ c main_v19 = sl64_0 (argOf m c main_arg9) := ops0_v19 (W0 m ρ c)
theorem E1_v21 : E1 m ρ c main_v21 = sl1_0 (argOf m c main_arg10) := ops0_v21 (W0 m ρ c)

theorem W2_v22_0 : W2 m ρ c (Proc.devRef .tc main_v22_0)
    = kE1 (argOf m c main_arg2) (argOf m c main_arg3) (argOf m c main_arg4) (argOf m c main_arg5) (argOf m c main_arg6) (argOf m c main_arg7) (argOf m c main_arg8) (argOf m c main_arg9) (argOf m c main_arg10) := by
  refine (W2_arr m ρ c 6).trans ((final0_6 (E1 m ρ) c).trans ?_)
  rw [E1_v0, E1_v13, E1_v15, E1_v17, E1_v19, E1_v21]
  rfl
theorem W2_v22_1 : W2 m ρ c (Proc.devRef .tc main_v22_1)
    = kN1 (argOf m c main_arg2) (argOf m c main_arg3) (argOf m c main_arg4) (argOf m c main_arg5) (argOf m c main_arg6) (argOf m c main_arg7) (argOf m c main_arg8) (argOf m c main_arg9) (argOf m c main_arg10) := by
  refine (W2_arr m ρ c 7).trans ((final0_7 (E1 m ρ) c).trans ?_)
  rw [E1_v0, E1_v13, E1_v15, E1_v17, E1_v19, E1_v21]
  rfl

/-! ### Layer 2 -/

theorem E3_v22_0 : E3 m ρ c main_v22_0 = kE1 (argOf m c main_arg2) (argOf m c main_arg3) (argOf m c main_arg4) (argOf m c main_arg5) (argOf m c main_arg6) (argOf m c main_arg7) (argOf m c main_arg8) (argOf m c main_arg9) (argOf m c main_arg10) :=
  (StableHlo.after_of_writes_sub hostOps1 _ hostOps1_writes (by decide)).trans (W2_v22_0 m ρ c)
theorem E3_v35 : E3 m ρ c main_v35 = side (kE1 (argOf m c main_arg2) (argOf m c main_arg3) (argOf m c main_arg4) (argOf m c main_arg5) (argOf m c main_arg6) (argOf m c main_arg7) (argOf m c main_arg8) (argOf m c main_arg9) (argOf m c main_arg10)) (argOf m c main_arg2) (argOf m c main_arg3) (argOf m c main_arg4) := by
  refine (ops1_v35 (W2 m ρ c)).trans ?_
  rw [W2_v22_0, W2_keep m ρ c main_arg2 (by decide) (by decide), W2_keep m ρ c main_arg3 (by decide) (by decide), W2_keep m ρ c main_arg4 (by decide) (by decide)]
theorem E3_v37 : E3 m ρ c main_v37 = sl64_1 (argOf m c main_arg7) := by
  refine (ops1_v37 (W2 m ρ c)).trans ?_
  rw [W2_keep m ρ c main_arg7 (by decide) (by decide)]
theorem E3_v39 : E3 m ρ c main_v39 = sl1_1 (argOf m c main_arg8) := by
  refine (ops1_v39 (W2 m ρ c)).trans ?_
  rw [W2_keep m ρ c main_arg8 (by decide) (by decide)]
theorem E3_v41 : E3 m ρ c main_v41 = sl64_1 (argOf m c main_arg9) := by
  refine (ops1_v41 (W2 m ρ c)).trans ?_
  rw [W2_keep m ρ c main_arg9 (by decide) (by decide)]
theorem E3_v43 : E3 m ρ c main_v43 = sl1_1 (argOf m c main_arg10) := by
  refine (ops1_v43 (W2 m ρ c)).trans ?_
  rw [W2_keep m ρ c main_arg10 (by decide) (by decide)]

theorem W4_v44_0 : W4 m ρ c (Proc.devRef .tc main_v44_0) = kE2 (argOf m c main_arg2) (argOf m c main_arg3) (argOf m c main_arg4) (argOf m c main_arg5) (argOf m c main_arg6) (argOf m c main_arg7) (argOf m c main_arg8) (argOf m c main_arg9) (argOf m c main_arg10) := by
  refine (W4_arr m ρ c 6).trans ((final1_6 (E3 m ρ) c).trans ?_)
  rw [E3_v22_0, E3_v35, E3_v37, E3_v39, E3_v41, E3_v43]
  rfl
theorem W4_v44_1 : W4 m ρ c (Proc.devRef .tc main_v44_1) = kN2 (argOf m c main_arg2) (argOf m c main_arg3) (argOf m c main_arg4) (argOf m c main_arg5) (argOf m c main_arg6) (argOf m c main_arg7) (argOf m c main_arg8) (argOf m c main_arg9) (argOf m c main_arg10) := by
  refine (W4_arr m ρ c 7).trans ((final1_7 (E3 m ρ) c).trans ?_)
  rw [E3_v22_0, E3_v35, E3_v37, E3_v39, E3_v41, E3_v43]
  rfl

/-! ### Layer 3 -/

theorem E5_v44_0 : E5 m ρ c main_v44_0 = kE2 (argOf m c main_arg2) (argOf m c main_arg3) (argOf m c main_arg4) (argOf m c main_arg5) (argOf m c main_arg6) (argOf m c main_arg7) (argOf m c main_arg8) (argOf m c main_arg9) (argOf m c main_arg10) :=
  (StableHlo.after_of_writes_sub hostOps2 _ hostOps2_writes (by decide)).trans (W4_v44_0 m ρ c)
theorem E5_v57 : E5 m ρ c main_v57 = side (kE2 (argOf m c main_arg2) (argOf m c main_arg3) (argOf m c main_arg4) (argOf m c main_arg5) (argOf m c main_arg6) (argOf m c main_arg7) (argOf m c main_arg8) (argOf m c main_arg9) (argOf m c main_arg10)) (argOf m c main_arg2) (argOf m c main_arg3) (argOf m c main_arg4) := by
  refine (ops2_v57 (W4 m ρ c)).trans ?_
  rw [W4_v44_0, W4_keep m ρ c main_arg2 (by decide) (by decide) (by decide) (by decide), W4_keep m ρ c main_arg3 (by decide) (by decide) (by decide) (by decide), W4_keep m ρ c main_arg4 (by decide) (by decide) (by decide) (by decide)]
theorem E5_v59 : E5 m ρ c main_v59 = sl64_2 (argOf m c main_arg7) := by
  refine (ops2_v59 (W4 m ρ c)).trans ?_
  rw [W4_keep m ρ c main_arg7 (by decide) (by decide) (by decide) (by decide)]
theorem E5_v61 : E5 m ρ c main_v61 = sl1_2 (argOf m c main_arg8) := by
  refine (ops2_v61 (W4 m ρ c)).trans ?_
  rw [W4_keep m ρ c main_arg8 (by decide) (by decide) (by decide) (by decide)]
theorem E5_v63 : E5 m ρ c main_v63 = sl64_2 (argOf m c main_arg9) := by
  refine (ops2_v63 (W4 m ρ c)).trans ?_
  rw [W4_keep m ρ c main_arg9 (by decide) (by decide) (by decide) (by decide)]
theorem E5_v65 : E5 m ρ c main_v65 = sl1_2 (argOf m c main_arg10) := by
  refine (ops2_v65 (W4 m ρ c)).trans ?_
  rw [W4_keep m ρ c main_arg10 (by decide) (by decide) (by decide) (by decide)]

theorem W6_v66_1 : W6 m ρ c (Proc.devRef .tc main_v66_1) = kN3 (argOf m c main_arg2) (argOf m c main_arg3) (argOf m c main_arg4) (argOf m c main_arg5) (argOf m c main_arg6) (argOf m c main_arg7) (argOf m c main_arg8) (argOf m c main_arg9) (argOf m c main_arg10) := by
  refine (W6_arr m ρ c 7).trans ((final2_7 (E5 m ρ) c).trans ?_)
  rw [E5_v44_0, E5_v57, E5_v59, E5_v61, E5_v63, E5_v65]
  rfl

/-! ### The tail -/

theorem W6_v0 : W6 m ρ c (Proc.devRef .tc main_v0) = kE0 (argOf m c main_arg5) (argOf m c main_arg6) :=
  calc W6 m ρ c (Proc.devRef .tc main_v0)
    _ = W5 m ρ c (Proc.devRef .tc main_v0) := W6_of_ne m ρ c main_v0 (by decide)
    _ = W4 m ρ c (Proc.devRef .tc main_v0) := StableHlo.after_of_writes_sub hostOps2 _ hostOps2_writes (by decide)
    _ = W3 m ρ c (Proc.devRef .tc main_v0) := W4_of_ne m ρ c main_v0 (by decide)
    _ = W2 m ρ c (Proc.devRef .tc main_v0) := StableHlo.after_of_writes_sub hostOps1 _ hostOps1_writes (by decide)
    _ = E1 m ρ c main_v0 := (W2_arr m ρ c 0).trans (((dat0 (E1 m ρ) c).arrAt_in 0 rfl _).trans (A_eq0 (E1 m ρ) c 0))
    _ = kE0 (argOf m c main_arg5) (argOf m c main_arg6) := E1_v0 m ρ c
theorem W6_v22_1 : W6 m ρ c (Proc.devRef .tc main_v22_1) = kN1 (argOf m c main_arg2) (argOf m c main_arg3) (argOf m c main_arg4) (argOf m c main_arg5) (argOf m c main_arg6) (argOf m c main_arg7) (argOf m c main_arg8) (argOf m c main_arg9) (argOf m c main_arg10) :=
  calc W6 m ρ c (Proc.devRef .tc main_v22_1)
    _ = W5 m ρ c (Proc.devRef .tc main_v22_1) := W6_of_ne m ρ c main_v22_1 (by decide)
    _ = W4 m ρ c (Proc.devRef .tc main_v22_1) := StableHlo.after_of_writes_sub hostOps2 _ hostOps2_writes (by decide)
    _ = W3 m ρ c (Proc.devRef .tc main_v22_1) := W4_of_ne m ρ c main_v22_1 (by decide)
    _ = W2 m ρ c (Proc.devRef .tc main_v22_1) := StableHlo.after_of_writes_sub hostOps1 _ hostOps1_writes (by decide)
    _ = kN1 (argOf m c main_arg2) (argOf m c main_arg3) (argOf m c main_arg4) (argOf m c main_arg5) (argOf m c main_arg6) (argOf m c main_arg7) (argOf m c main_arg8) (argOf m c main_arg9) (argOf m c main_arg10) := W2_v22_1 m ρ c
theorem W6_v44_1 : W6 m ρ c (Proc.devRef .tc main_v44_1) = kN2 (argOf m c main_arg2) (argOf m c main_arg3) (argOf m c main_arg4) (argOf m c main_arg5) (argOf m c main_arg6) (argOf m c main_arg7) (argOf m c main_arg8) (argOf m c main_arg9) (argOf m c main_arg10) :=
  calc W6 m ρ c (Proc.devRef .tc main_v44_1)
    _ = W5 m ρ c (Proc.devRef .tc main_v44_1) := W6_of_ne m ρ c main_v44_1 (by decide)
    _ = W4 m ρ c (Proc.devRef .tc main_v44_1) := StableHlo.after_of_writes_sub hostOps2 _ hostOps2_writes (by decide)
    _ = kN2 (argOf m c main_arg2) (argOf m c main_arg3) (argOf m c main_arg4) (argOf m c main_arg5) (argOf m c main_arg6) (argOf m c main_arg7) (argOf m c main_arg8) (argOf m c main_arg9) (argOf m c main_arg10) := W4_v44_1 m ρ c

/-- The kernel program's result buffer at the end holds the result function of the launch arguments. -/
theorem W7_v95 : W7 m ρ c (Proc.devRef .tc main_v95)
    = kResult (argOf m c main_arg0) (argOf m c main_arg1) (argOf m c main_arg2) (argOf m c main_arg3) (argOf m c main_arg4) (argOf m c main_arg5) (argOf m c main_arg6) (argOf m c main_arg7)
        (argOf m c main_arg8) (argOf m c main_arg9) (argOf m c main_arg10) (argOf m c main_arg11) (argOf m c main_arg12) := by
  refine (ops3_v95 (W6 m ρ c)).trans ?_
  rw [W6_v0, W6_v22_1, W6_v44_1, W6_v66_1, W6_keep m ρ c main_arg0 (by decide) (by decide) (by decide) (by decide) (by decide) (by decide), W6_keep m ρ c main_arg1 (by decide) (by decide) (by decide) (by decide) (by decide) (by decide), W6_keep m ρ c main_arg11 (by decide) (by decide) (by decide) (by decide) (by decide) (by decide), W6_keep m ρ c main_arg12 (by decide) (by decide) (by decide) (by decide) (by decide) (by decide)]
  rfl

end Cert.KernelIdeal.Run
end
-- ==== Proof.KernelIdealResult.lean ====
/-
  The kernel program's run, read: every weakly fair execution ends with the result buffer at the result function of the
  launch arguments and with the thirteen argument arrays as launched.
-/
import proofs.«162997_j3143916060680_1_alg».proof.Proof.KernelIdealValue

noncomputable section

namespace Cert.KernelIdeal.Run

open Cert.KernelIdeal Cert.KernelIdeal.Gen Idealize.ShloMosaic Idealize.ShloMosaic.TcCoe Idealize.SL.Sem

theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v95) = kResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v95 (by decide))).trans (W7_v95 m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c)⟩) (run_all m ρ)

end Cert.KernelIdeal.Run

end
-- ==== Proof.RefOps.lean ====
/-
  The reference program's @main as one line of host operations.

  The printed program is three windows of statements, six of them calls of outlined functions (the leaky rectifier,
  which itself calls the three-way select, and the row norm, each three times). A call executes the callee's body on the
  operands' buffers, so @main is the straight line of its own operations with each callee's operations in the call's
  place, over the call's own buffers: 186 operations. They are listed here in sixteen consecutive groups named for what
  they compute (the embedding table; per layer the neighbourhood sum, the two affine maps, the rectifier, the row
  normalization; the readout), and @main is proved equal to the line they form. The run of a straight line is the
  library's: every fair execution ends with each buffer at the fold of the operations' results over the launch contents.
  No operation writes an argument, so the arguments end as they began.
-/
import proofs.«162997_j3143916060680_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The embedding table: users' rows above items' rows. Operations 1 … 1 of 186. -/
abbrev opsE : List (HloOp τ sig (Elt F)) :=
  [ binary main_arg5 main_arg6 main_v0 ((fun a b => concatenate S160000x64 0 [⟨S100000x64, a⟩, ⟨S60000x64, b⟩] concatenates_S100000x64_S60000x64_S160000x64_d0) : (⟨S100000x64, .f32⟩ : BufTy).Contents (Elt F) → (⟨S60000x64, .f32⟩ : BufTy).Contents (Elt F) → (⟨S160000x64, .f32⟩ : BufTy).Contents (Elt F)) ]

/-- Layer 1, the neighbourhood sum: column indices wrapped, rows of the table gathered, scaled by the edge values, scatter-added by row index into a zero table. Operations 2 … 17 of 186. -/
abbrev opsS1 : List (HloOp τ sig (Elt F)) :=
  [ unary main_arg4 main_v1 (broadcastInDim S2000000x1 ![0] bcast_S2000000_S2000000x1_0 : (⟨S2000000, .f32⟩ : BufTy).Contents (Elt F) → (⟨S2000000x1, .f32⟩ : BufTy).Contents (Elt F)),
    nullary main_c (constantI S_ 32 0#32),
    unary main_c main_v2 (broadcastInDim S2000000 ![] bcast_S_S2000000 : (⟨S_, .i32⟩ : BufTy).Contents (Elt F) → (⟨S2000000, .i32⟩ : BufTy).Contents (Elt F)),
    binary main_arg3 main_v2 main_v3 (cmpi .slt : (⟨S2000000, .i32⟩ : BufTy).Contents (Elt F) → (⟨S2000000, .i32⟩ : BufTy).Contents (Elt F) → (⟨S2000000, .i1⟩ : BufTy).Contents (Elt F)),
    nullary main_c_0 (constantI S_ 32 160000#32),
    unary main_c_0 main_v4 (broadcastInDim S2000000 ![] bcast_S_S2000000 : (⟨S_, .i32⟩ : BufTy).Contents (Elt F) → (⟨S2000000, .i32⟩ : BufTy).Contents (Elt F)),
    binary main_arg3 main_v4 main_v5 (addi : (⟨S2000000, .i32⟩ : BufTy).Contents (Elt F) → (⟨S2000000, .i32⟩ : BufTy).Contents (Elt F) → (⟨S2000000, .i32⟩ : BufTy).Contents (Elt F)),
    ternary main_v3 main_v5 main_arg3 main_v6 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v6 main_v7 (broadcastInDim S2000000x1 ![0] bcast_S2000000_S2000000x1_0 : (⟨S2000000, .i32⟩ : BufTy).Contents (Elt F) → (⟨S2000000x1, .i32⟩ : BufTy).Contents (Elt F)),
    binary main_v0 main_v7 main_v8 ((fun x i => Host.gather gather_S160000x64_S2000000x1_S2000000x64_1_0_n_n_0_1_164 x i) : (⟨S160000x64, .f32⟩ : BufTy).Contents (Elt F) → (⟨S2000000x1, .i32⟩ : BufTy).Contents (Elt F) → (⟨S2000000x64, .f32⟩ : BufTy).Contents (Elt F)),
    unary main_v1 main_v9 (broadcastInDim S2000000x64 ![0, 1] bcast_S2000000x1_S2000000x64_0_1 : (⟨S2000000x1, .f32⟩ : BufTy).Contents (Elt F) → (⟨S2000000x64, .f32⟩ : BufTy).Contents (Elt F)),
    binary main_v9 main_v8 main_v10 (mulf : (⟨S2000000x64, .f32⟩ : BufTy).Contents (Elt F) → (⟨S2000000x64, .f32⟩ : BufTy).Contents (Elt F) → (⟨S2000000x64, .f32⟩ : BufTy).Contents (Elt F)),
    nullary main_cst (constant S_ .f32 0x00000000#32),
    unary main_cst main_v11 (broadcastInDim S160000x64 ![] bcast_S_S160000x64 : (⟨S_, .f32⟩ : BufTy).Contents (Elt F) → (⟨S160000x64, .f32⟩ : BufTy).Contents (Elt F)),
    unary main_arg2 main_v12 (broadcastInDim S2000000x1 ![0] bcast_S2000000_S2000000x1_0 : (⟨S2000000, .i32⟩ : BufTy).Contents (Elt F) → (⟨S2000000x1, .i32⟩ : BufTy).Contents (Elt F)),
    ternary main_v11 main_v12 main_v10 main_v13 ((fun x i u => Host.scatterAdd scatter_S160000x64_S2000000x1_S2000000x64_1_0_0_1 x i u) : (⟨S160000x64, .f32⟩ : BufTy).Contents (Elt F) → (⟨S2000000x1, .i32⟩ : BufTy).Contents (Elt F) → (⟨S2000000x64, .f32⟩ : BufTy).Contents (Elt F) → (⟨S160000x64, .f32⟩ : BufTy).Contents (Elt F)) ]

/-- Layer 1, the two affine maps: the sum times its weight plus bias, and the table times the sum (elementwise) times its weight plus bias, added. Operations 18 … 33 of 186. -/
abbrev opsP1 : List (HloOp τ sig (Elt F)) :=
  [ unary main_arg7 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v14 main_v15 rfl shapeCasts_S1x64x64_S64x64,
    binary main_v13 main_v15 main_v16 ((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)),
    unary main_arg8 main_v17 ((extractStridedSlice S1x1x64 ![0, 0, 0] · slices_S3x1x64_S1x1x64_0_0_0) : (⟨S3x1x64, .f32⟩ : BufTy).Contents (Elt F) → (⟨S1x1x64, .f32⟩ : BufTy).Contents (Elt F)),
    reshape main_v17 main_v18 rfl shapeCasts_S1x1x64_S1x64,
    unary main_v18 main_v19 (broadcastInDim S160000x64 ![0, 1] bcast_S1x64_S160000x64_0_1 : (⟨S1x64, .f32⟩ : BufTy).Contents (Elt F) → (⟨S160000x64, .f32⟩ : BufTy).Contents (Elt F)),
    binary main_v16 main_v19 main_v20 (addf : (⟨S160000x64, .f32⟩ : BufTy).Contents (Elt F) → (⟨S160000x64, .f32⟩ : BufTy).Contents (Elt F) → (⟨S160000x64, .f32⟩ : BufTy).Contents (Elt F)),
    binary main_v0 main_v13 main_v21 (mulf : (⟨S160000x64, .f32⟩ : BufTy).Contents (Elt F) → (⟨S160000x64, .f32⟩ : BufTy).Contents (Elt F) → (⟨S160000x64, .f32⟩ : BufTy).Contents (Elt F)),
    unary main_arg9 main_v22 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v22 main_v23 rfl shapeCasts_S1x64x64_S64x64,
    binary main_v21 main_v23 main_v24 ((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)),
    unary main_arg10 main_v25 ((extractStridedSlice S1x1x64 ![0, 0, 0] · slices_S3x1x64_S1x1x64_0_0_0) : (⟨S3x1x64, .f32⟩ : BufTy).Contents (Elt F) → (⟨S1x1x64, .f32⟩ : BufTy).Contents (Elt F)),
    reshape main_v25 main_v26 rfl shapeCasts_S1x1x64_S1x64,
    unary main_v26 main_v27 (broadcastInDim S160000x64 ![0, 1] bcast_S1x64_S160000x64_0_1 : (⟨S1x64, .f32⟩ : BufTy).Contents (Elt F) → (⟨S160000x64, .f32⟩ : BufTy).Contents (Elt F)),
    binary main_v24 main_v27 main_v28 (addf : (⟨S160000x64, .f32⟩ : BufTy).Contents (Elt F) → (⟨S160000x64, .f32⟩ : BufTy).Contents (Elt F) → (⟨S160000x64, .f32⟩ : BufTy).Contents (Elt F)),
    binary main_v20 main_v28 main_v29 (addf : (⟨S160000x64, .f32⟩ : BufTy).Contents (Elt F) → (⟨S160000x64, .f32⟩ : BufTy).Contents (Elt F) → (⟨S160000x64, .f32⟩ : BufTy).Contents (Elt F)) ]

/-- Layer 1, the leaky rectifier with slope 0.2 (the outlined function inlined). Operations 34 … 41 of 186. -/
abbrev opsA1 : List (HloOp τ sig (Elt F)) :=
  [ nullary main_cst_1 (constant S_ .f32 0x3E4CCCCD#32),
    nullary main_call0_cst (constant S_ .f32 0x00000000#32),
    unary main_call0_cst main_call0_v0 (broadcastInDim S160000x64 ![] bcast_S_S160000x64 : (⟨S_, .f32⟩ : BufTy).Contents (Elt F) → (⟨S160000x64, .f32⟩ : BufTy).Contents (Elt F)),
    binary main_v29 main_call0_v0 main_call0_v1 (cmpf .oge : (⟨S160000x64, .f32⟩ : BufTy).Contents (Elt F) → (⟨S160000x64, .f32⟩ : BufTy).Contents (Elt F) → (⟨S160000x64, .i1⟩ : BufTy).Contents (Elt F)),
    unary main_cst_1 main_call0_v2 (id : (⟨S_, .f32⟩ : BufTy).Contents (Elt F) → (⟨S_, .f32⟩ : BufTy).Contents (Elt F)),
    unary main_call0_v2 main_call0_v3 (broadcastInDim S160000x64 ![] bcast_S_S160000x64 : (⟨S_, .f32⟩ : BufTy).Contents (Elt F) → (⟨S160000x64, .f32⟩ : BufTy).Contents (Elt F)),
    binary main_call0_v3 main_v29 main_call0_v4 (mulf : (⟨S160000x64, .f32⟩ : BufTy).Contents (Elt F) → (⟨S160000x64, .f32⟩ : BufTy).Contents (Elt F) → (⟨S160000x64, .f32⟩ : BufTy).Contents (Elt F)),
    ternary main_call0_v1 main_v29 main_call0_v4 main_v30 (select : (⟨S160000x64, .i1⟩ : BufTy).Contents (Elt F) → (⟨S160000x64, .f32⟩ : BufTy).Contents (Elt F) → (⟨S160000x64, .f32⟩ : BufTy).Contents (Elt F) → (⟨S160000x64, .f32⟩ : BufTy).Contents (Elt F)) ]

/-- Layer 1, each row divided by its Euclidean norm, the norm bounded below by 1e-12 (the outlined norm inlined). Operations 42 … 51 of 186. -/
abbrev opsN1 : List (HloOp τ sig (Elt F)) :=
  [ binary main_v30 main_v30 main_call1_v0 (mulf : (⟨S160000x64, .f32⟩ : BufTy).Contents (Elt F) → (⟨S160000x64, .f32⟩ : BufTy).Contents (Elt F) → (⟨S160000x64, .f32⟩ : BufTy).Contents (Elt F)),
    nullary main_call1_cst (constant S_ .f32 0x00000000#32),
    binary main_call1_v0 main_call1_cst main_call1_v1 ((fun x v => Host.reduceAdd x v reducesTo_S160000x64_S160000_d1 h_S_) : (⟨S160000x64, .f32⟩ : BufTy).Contents (Elt F) → (⟨S_, .f32⟩ : BufTy).Contents (Elt F) → (⟨S160000, .f32⟩ : BufTy).Contents (Elt F)),
    unary main_call1_v1 main_call1_v2 (broadcastInDim S160000x1 ![0] bcast_S160000_S160000x1_0 : (⟨S160000, .f32⟩ : BufTy).Contents (Elt F) → (⟨S160000x1, .f32⟩ : BufTy).Contents (Elt F)),
    unary main_call1_v2 main_v31 (Host.sqrt : (⟨S160000x1, .f32⟩ : BufTy).Contents (Elt F) → (⟨S160000x1, .f32⟩ : BufTy).Contents (Elt F)),
    nullary main_cst_2 (constant S_ .f32 0x2B8CBCCC#32),
    unary main_cst_2 main_v32 (broadcastInDim S160000x1 ![] bcast_S_S160000x1 : (⟨S_, .f32⟩ : BufTy).Contents (Elt F) → (⟨S160000x1, .f32⟩ : BufTy).Contents (Elt F)),
    binary main_v31 main_v32 main_v33 (maximumf : (⟨S160000x1, .f32⟩ : BufTy).Contents (Elt F) → (⟨S160000x1, .f32⟩ : BufTy).Contents (Elt F) → (⟨S160000x1, .f32⟩ : BufTy).Contents (Elt F)),
    unary main_v33 main_v34 (broadcastInDim S160000x64 ![0, 1] bcast_S160000x1_S160000x64_0_1 : (⟨S160000x1, .f32⟩ : BufTy).Contents (Elt F) → (⟨S160000x64, .f32⟩ : BufTy).Contents (Elt F)),
    binary main_v30 main_v34 main_v35 (Host.divf : (⟨S160000x64, .f32⟩ : BufTy).Contents (Elt F) → (⟨S160000x64, .f32⟩ : BufTy).Contents (Elt F) → (⟨S160000x64, .f32⟩ : BufTy).Contents (Elt F)) ]

/-- Layer 2, the neighbourhood sum. Operations 52 … 67 of 186. -/
abbrev opsS2 : List (HloOp τ sig (Elt F)) :=
  [ unary main_arg4 main_v36 (broadcastInDim S2000000x1 ![0] bcast_S2000000_S2000000x1_0 : (⟨S2000000, .f32⟩ : BufTy).Contents (Elt F) → (⟨S2000000x1, .f32⟩ : BufTy).Contents (Elt F)),
    nullary main_c_3 (constantI S_ 32 0#32),
    unary main_c_3 main_v37 (broadcastInDim S2000000 ![] bcast_S_S2000000 : (⟨S_, .i32⟩ : BufTy).Contents (Elt F) → (⟨S2000000, .i32⟩ : BufTy).Contents (Elt F)),
    binary main_arg3 main_v37 main_v38 (cmpi .slt : (⟨S2000000, .i32⟩ : BufTy).Contents (Elt F) → (⟨S2000000, .i32⟩ : BufTy).Contents (Elt F) → (⟨S2000000, .i1⟩ : BufTy).Contents (Elt F)),
    nullary main_c_4 (constantI S_ 32 160000#32),
    unary main_c_4 main_v39 (broadcastInDim S2000000 ![] bcast_S_S2000000 : (⟨S_, .i32⟩ : BufTy).Contents (Elt F) → (⟨S2000000, .i32⟩ : BufTy).Contents (Elt F)),
    binary main_arg3 main_v39 main_v40 (addi : (⟨S2000000, .i32⟩ : BufTy).Contents (Elt F) → (⟨S2000000, .i32⟩ : BufTy).Contents (Elt F) → (⟨S2000000, .i32⟩ : BufTy).Contents (Elt F)),
    ternary main_v38 main_v40 main_arg3 main_v41 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v41 main_v42 (broadcastInDim S2000000x1 ![0] bcast_S2000000_S2000000x1_0 : (⟨S2000000, .i32⟩ : BufTy).Contents (Elt F) → (⟨S2000000x1, .i32⟩ : BufTy).Contents (Elt F)),
    binary main_v30 main_v42 main_v43 ((fun x i => Host.gather gather_S160000x64_S2000000x1_S2000000x64_1_0_n_n_0_1_164 x i) : (⟨S160000x64, .f32⟩ : BufTy).Contents (Elt F) → (⟨S2000000x1, .i32⟩ : BufTy).Contents (Elt F) → (⟨S2000000x64, .f32⟩ : BufTy).Contents (Elt F)),
    unary main_v36 main_v44 (broadcastInDim S2000000x64 ![0, 1] bcast_S2000000x1_S2000000x64_0_1 : (⟨S2000000x1, .f32⟩ : BufTy).Contents (Elt F) → (⟨S2000000x64, .f32⟩ : BufTy).Contents (Elt F)),
    binary main_v44 main_v43 main_v45 (mulf : (⟨S2000000x64, .f32⟩ : BufTy).Contents (Elt F) → (⟨S2000000x64, .f32⟩ : BufTy).Contents (Elt F) → (⟨S2000000x64, .f32⟩ : BufTy).Contents (Elt F)),
    nullary main_cst_5 (constant S_ .f32 0x00000000#32),
    unary main_cst_5 main_v46 (broadcastInDim S160000x64 ![] bcast_S_S160000x64 : (⟨S_, .f32⟩ : BufTy).Contents (Elt F) → (⟨S160000x64, .f32⟩ : BufTy).Contents (Elt F)),
    unary main_arg2 main_v47 (broadcastInDim S2000000x1 ![0] bcast_S2000000_S2000000x1_0 : (⟨S2000000, .i32⟩ : BufTy).Contents (Elt F) → (⟨S2000000x1, .i32⟩ : BufTy).Contents (Elt F)),
    ternary main_v46 main_v47 main_v45 main_v48 ((fun x i u => Host.scatterAdd scatter_S160000x64_S2000000x1_S2000000x64_1_0_0_1 x i u) : (⟨S160000x64, .f32⟩ : BufTy).Contents (Elt F) → (⟨S2000000x1, .i32⟩ : BufTy).Contents (Elt F) → (⟨S2000000x64, .f32⟩ : BufTy).Contents (Elt F) → (⟨S160000x64, .f32⟩ : BufTy).Contents (Elt F)) ]

/-- Layer 2, the two affine maps, first three operations. Operations 68 … 70 of 186. -/
abbrev opsP2a : List (HloOp τ sig (Elt F)) :=
  [ unary main_arg7 main_v49 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v49 main_v50 rfl shapeCasts_S1x64x64_S64x64,
    binary main_v48 main_v50 main_v51 ((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)) ]

/-- Layer 2, the two affine maps, the rest. Operations 71 … 83 of 186. -/
abbrev opsP2b : List (HloOp τ sig (Elt F)) :=
  [ unary main_arg8 main_v52 ((extractStridedSlice S1x1x64 ![1, 0, 0] · slices_S3x1x64_S1x1x64_1_0_0) : (⟨S3x1x64, .f32⟩ : BufTy).Contents (Elt F) → (⟨S1x1x64, .f32⟩ : BufTy).Contents (Elt F)),
    reshape main_v52 main_v53 rfl shapeCasts_S1x1x64_S1x64,
    unary main_v53 main_v54 (broadcastInDim S160000x64 ![0, 1] bcast_S1x64_S160000x64_0_1 : (⟨S1x64, .f32⟩ : BufTy).Contents (Elt F) → (⟨S160000x64, .f32⟩ : BufTy).Contents (Elt F)),
    binary main_v51 main_v54 main_v55 (addf : (⟨S160000x64, .f32⟩ : BufTy).Contents (Elt F) → (⟨S160000x64, .f32⟩ : BufTy).Contents (Elt F) → (⟨S160000x64, .f32⟩ : BufTy).Contents (Elt F)),
    binary main_v30 main_v48 main_v56 (mulf : (⟨S160000x64, .f32⟩ : BufTy).Contents (Elt F) → (⟨S160000x64, .f32⟩ : BufTy).Contents (Elt F) → (⟨S160000x64, .f32⟩ : BufTy).Contents (Elt F)),
    unary main_arg9 main_v57 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v57 main_v58 rfl shapeCasts_S1x64x64_S64x64,
    binary main_v56 main_v58 main_v59 ((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)),
    unary main_arg10 main_v60 ((extractStridedSlice S1x1x64 ![1, 0, 0] · slices_S3x1x64_S1x1x64_1_0_0) : (⟨S3x1x64, .f32⟩ : BufTy).Contents (Elt F) → (⟨S1x1x64, .f32⟩ : BufTy).Contents (Elt F)),
    reshape main_v60 main_v61 rfl shapeCasts_S1x1x64_S1x64,
    unary main_v61 main_v62 (broadcastInDim S160000x64 ![0, 1] bcast_S1x64_S160000x64_0_1 : (⟨S1x64, .f32⟩ : BufTy).Contents (Elt F) → (⟨S160000x64, .f32⟩ : BufTy).Contents (Elt F)),
    binary main_v59 main_v62 main_v63 (addf : (⟨S160000x64, .f32⟩ : BufTy).Contents (Elt F) → (⟨S160000x64, .f32⟩ : BufTy).Contents (Elt F) → (⟨S160000x64, .f32⟩ : BufTy).Contents (Elt F)),
    binary main_v55 main_v63 main_v64 (addf : (⟨S160000x64, .f32⟩ : BufTy).Contents (Elt F) → (⟨S160000x64, .f32⟩ : BufTy).Contents (Elt F) → (⟨S160000x64, .f32⟩ : BufTy).Contents (Elt F)) ]

/-- Layer 2, the leaky rectifier. Operations 84 … 91 of 186. -/
abbrev opsA2 : List (HloOp τ sig (Elt F)) :=
  [ nullary main_cst_6 (constant S_ .f32 0x3E4CCCCD#32),
    nullary main_call2_cst (constant S_ .f32 0x00000000#32),
    unary main_call2_cst main_call2_v0 (broadcastInDim S160000x64 ![] bcast_S_S160000x64 : (⟨S_, .f32⟩ : BufTy).Contents (Elt F) → (⟨S160000x64, .f32⟩ : BufTy).Contents (Elt F)),
    binary main_v64 main_call2_v0 main_call2_v1 (cmpf .oge : (⟨S160000x64, .f32⟩ : BufTy).Contents (Elt F) → (⟨S160000x64, .f32⟩ : BufTy).Contents (Elt F) → (⟨S160000x64, .i1⟩ : BufTy).Contents (Elt F)),
    unary main_cst_6 main_call2_v2 (id : (⟨S_, .f32⟩ : BufTy).Contents (Elt F) → (⟨S_, .f32⟩ : BufTy).Contents (Elt F)),
    unary main_call2_v2 main_call2_v3 (broadcastInDim S160000x64 ![] bcast_S_S160000x64 : (⟨S_, .f32⟩ : BufTy).Contents (Elt F) → (⟨S160000x64, .f32⟩ : BufTy).Contents (Elt F)),
    binary main_call2_v3 main_v64 main_call2_v4 (mulf : (⟨S160000x64, .f32⟩ : BufTy).Contents (Elt F) → (⟨S160000x64, .f32⟩ : BufTy).Contents (Elt F) → (⟨S160000x64, .f32⟩ : BufTy).Contents (Elt F)),
    ternary main_call2_v1 main_v64 main_call2_v4 main_v65 (select : (⟨S160000x64, .i1⟩ : BufTy).Contents (Elt F) → (⟨S160000x64, .f32⟩ : BufTy).Contents (Elt F) → (⟨S160000x64, .f32⟩ : BufTy).Contents (Elt F) → (⟨S160000x64, .f32⟩ : BufTy).Contents (Elt F)) ]

/-- Layer 2, the row normalization. Operations 92 … 101 of 186. -/
abbrev opsN2 : List (HloOp τ sig (Elt F)) :=
  [ binary main_v65 main_v65 main_call3_v0 (mulf : (⟨S160000x64, .f32⟩ : BufTy).Contents (Elt F) → (⟨S160000x64, .f32⟩ : BufTy).Contents (Elt F) → (⟨S160000x64, .f32⟩ : BufTy).Contents (Elt F)),
    nullary main_call3_cst (constant S_ .f32 0x00000000#32),
    binary main_call3_v0 main_call3_cst main_call3_v1 ((fun x v => Host.reduceAdd x v reducesTo_S160000x64_S160000_d1 h_S_) : (⟨S160000x64, .f32⟩ : BufTy).Contents (Elt F) → (⟨S_, .f32⟩ : BufTy).Contents (Elt F) → (⟨S160000, .f32⟩ : BufTy).Contents (Elt F)),
    unary main_call3_v1 main_call3_v2 (broadcastInDim S160000x1 ![0] bcast_S160000_S160000x1_0 : (⟨S160000, .f32⟩ : BufTy).Contents (Elt F) → (⟨S160000x1, .f32⟩ : BufTy).Contents (Elt F)),
    unary main_call3_v2 main_v66 (Host.sqrt : (⟨S160000x1, .f32⟩ : BufTy).Contents (Elt F) → (⟨S160000x1, .f32⟩ : BufTy).Contents (Elt F)),
    nullary main_cst_7 (constant S_ .f32 0x2B8CBCCC#32),
    unary main_cst_7 main_v67 (broadcastInDim S160000x1 ![] bcast_S_S160000x1 : (⟨S_, .f32⟩ : BufTy).Contents (Elt F) → (⟨S160000x1, .f32⟩ : BufTy).Contents (Elt F)),
    binary main_v66 main_v67 main_v68 (maximumf : (⟨S160000x1, .f32⟩ : BufTy).Contents (Elt F) → (⟨S160000x1, .f32⟩ : BufTy).Contents (Elt F) → (⟨S160000x1, .f32⟩ : BufTy).Contents (Elt F)),
    unary main_v68 main_v69 (broadcastInDim S160000x64 ![0, 1] bcast_S160000x1_S160000x64_0_1 : (⟨S160000x1, .f32⟩ : BufTy).Contents (Elt F) → (⟨S160000x64, .f32⟩ : BufTy).Contents (Elt F)),
    binary main_v65 main_v69 main_v70 (Host.divf : (⟨S160000x64, .f32⟩ : BufTy).Contents (Elt F) → (⟨S160000x64, .f32⟩ : BufTy).Contents (Elt F) → (⟨S160000x64, .f32⟩ : BufTy).Contents (Elt F)) ]

/-- Layer 3, the neighbourhood sum. Operations 102 … 117 of 186. -/
abbrev opsS3 : List (HloOp τ sig (Elt F)) :=
  [ unary main_arg4 main_v71 (broadcastInDim S2000000x1 ![0] bcast_S2000000_S2000000x1_0 : (⟨S2000000, .f32⟩ : BufTy).Contents (Elt F) → (⟨S2000000x1, .f32⟩ : BufTy).Contents (Elt F)),
    nullary main_c_8 (constantI S_ 32 0#32),
    unary main_c_8 main_v72 (broadcastInDim S2000000 ![] bcast_S_S2000000 : (⟨S_, .i32⟩ : BufTy).Contents (Elt F) → (⟨S2000000, .i32⟩ : BufTy).Contents (Elt F)),
    binary main_arg3 main_v72 main_v73 (cmpi .slt : (⟨S2000000, .i32⟩ : BufTy).Contents (Elt F) → (⟨S2000000, .i32⟩ : BufTy).Contents (Elt F) → (⟨S2000000, .i1⟩ : BufTy).Contents (Elt F)),
    nullary main_c_9 (constantI S_ 32 160000#32),
    unary main_c_9 main_v74 (broadcastInDim S2000000 ![] bcast_S_S2000000 : (⟨S_, .i32⟩ : BufTy).Contents (Elt F) → (⟨S2000000, .i32⟩ : BufTy).Contents (Elt F)),
    binary main_arg3 main_v74 main_v75 (addi : (⟨S2000000, .i32⟩ : BufTy).Contents (Elt F) → (⟨S2000000, .i32⟩ : BufTy).Contents (Elt F) → (⟨S2000000, .i32⟩ : BufTy).Contents (Elt F)),
    ternary main_v73 main_v75 main_arg3 main_v76 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v76 main_v77 (broadcastInDim S2000000x1 ![0] bcast_S2000000_S2000000x1_0 : (⟨S2000000, .i32⟩ : BufTy).Contents (Elt F) → (⟨S2000000x1, .i32⟩ : BufTy).Contents (Elt F)),
    binary main_v65 main_v77 main_v78 ((fun x i => Host.gather gather_S160000x64_S2000000x1_S2000000x64_1_0_n_n_0_1_164 x i) : (⟨S160000x64, .f32⟩ : BufTy).Contents (Elt F) → (⟨S2000000x1, .i32⟩ : BufTy).Contents (Elt F) → (⟨S2000000x64, .f32⟩ : BufTy).Contents (Elt F)),
    unary main_v71 main_v79 (broadcastInDim S2000000x64 ![0, 1] bcast_S2000000x1_S2000000x64_0_1 : (⟨S2000000x1, .f32⟩ : BufTy).Contents (Elt F) → (⟨S2000000x64, .f32⟩ : BufTy).Contents (Elt F)),
    binary main_v79 main_v78 main_v80 (mulf : (⟨S2000000x64, .f32⟩ : BufTy).Contents (Elt F) → (⟨S2000000x64, .f32⟩ : BufTy).Contents (Elt F) → (⟨S2000000x64, .f32⟩ : BufTy).Contents (Elt F)),
    nullary main_cst_10 (constant S_ .f32 0x00000000#32),
    unary main_cst_10 main_v81 (broadcastInDim S160000x64 ![] bcast_S_S160000x64 : (⟨S_, .f32⟩ : BufTy).Contents (Elt F) → (⟨S160000x64, .f32⟩ : BufTy).Contents (Elt F)),
    unary main_arg2 main_v82 (broadcastInDim S2000000x1 ![0] bcast_S2000000_S2000000x1_0 : (⟨S2000000, .i32⟩ : BufTy).Contents (Elt F) → (⟨S2000000x1, .i32⟩ : BufTy).Contents (Elt F)),
    ternary main_v81 main_v82 main_v80 main_v83 ((fun x i u => Host.scatterAdd scatter_S160000x64_S2000000x1_S2000000x64_1_0_0_1 x i u) : (⟨S160000x64, .f32⟩ : BufTy).Contents (Elt F) → (⟨S2000000x1, .i32⟩ : BufTy).Contents (Elt F) → (⟨S2000000x64, .f32⟩ : BufTy).Contents (Elt F) → (⟨S160000x64, .f32⟩ : BufTy).Contents (Elt F)) ]

/-- Layer 3, the two affine maps. Operations 118 … 133 of 186. -/
abbrev opsP3 : List (HloOp τ sig (Elt F)) :=
  [ unary main_arg7 main_v84 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v84 main_v85 rfl shapeCasts_S1x64x64_S64x64,
    binary main_v83 main_v85 main_v86 ((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)),
    unary main_arg8 main_v87 ((extractStridedSlice S1x1x64 ![2, 0, 0] · slices_S3x1x64_S1x1x64_2_0_0) : (⟨S3x1x64, .f32⟩ : BufTy).Contents (Elt F) → (⟨S1x1x64, .f32⟩ : BufTy).Contents (Elt F)),
    reshape main_v87 main_v88 rfl shapeCasts_S1x1x64_S1x64,
    unary main_v88 main_v89 (broadcastInDim S160000x64 ![0, 1] bcast_S1x64_S160000x64_0_1 : (⟨S1x64, .f32⟩ : BufTy).Contents (Elt F) → (⟨S160000x64, .f32⟩ : BufTy).Contents (Elt F)),
    binary main_v86 main_v89 main_v90 (addf : (⟨S160000x64, .f32⟩ : BufTy).Contents (Elt F) → (⟨S160000x64, .f32⟩ : BufTy).Contents (Elt F) → (⟨S160000x64, .f32⟩ : BufTy).Contents (Elt F)),
    binary main_v65 main_v83 main_v91 (mulf : (⟨S160000x64, .f32⟩ : BufTy).Contents (Elt F) → (⟨S160000x64, .f32⟩ : BufTy).Contents (Elt F) → (⟨S160000x64, .f32⟩ : BufTy).Contents (Elt F)),
    unary main_arg9 main_v92 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v92 main_v93 rfl shapeCasts_S1x64x64_S64x64,
    binary main_v91 main_v93 main_v94 ((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)),
    unary main_arg10 main_v95 ((extractStridedSlice S1x1x64 ![2, 0, 0] · slices_S3x1x64_S1x1x64_2_0_0) : (⟨S3x1x64, .f32⟩ : BufTy).Contents (Elt F) → (⟨S1x1x64, .f32⟩ : BufTy).Contents (Elt F)),
    reshape main_v95 main_v96 rfl shapeCasts_S1x1x64_S1x64,
    unary main_v96 main_v97 (broadcastInDim S160000x64 ![0, 1] bcast_S1x64_S160000x64_0_1 : (⟨S1x64, .f32⟩ : BufTy).Contents (Elt F) → (⟨S160000x64, .f32⟩ : BufTy).Contents (Elt F)),
    binary main_v94 main_v97 main_v98 (addf : (⟨S160000x64, .f32⟩ : BufTy).Contents (Elt F) → (⟨S160000x64, .f32⟩ : BufTy).Contents (Elt F) → (⟨S160000x64, .f32⟩ : BufTy).Contents (Elt F)),
    binary main_v90 main_v98 main_v99 (addf : (⟨S160000x64, .f32⟩ : BufTy).Contents (Elt F) → (⟨S160000x64, .f32⟩ : BufTy).Contents (Elt F) → (⟨S160000x64, .f32⟩ : BufTy).Contents (Elt F)) ]

/-- Layer 3, the leaky rectifier. Operations 134 … 141 of 186. -/
abbrev opsA3 : List (HloOp τ sig (Elt F)) :=
  [ nullary main_cst_11 (constant S_ .f32 0x3E4CCCCD#32),
    nullary main_call4_cst (constant S_ .f32 0x00000000#32),
    unary main_call4_cst main_call4_v0 (broadcastInDim S160000x64 ![] bcast_S_S160000x64 : (⟨S_, .f32⟩ : BufTy).Contents (Elt F) → (⟨S160000x64, .f32⟩ : BufTy).Contents (Elt F)),
    binary main_v99 main_call4_v0 main_call4_v1 (cmpf .oge : (⟨S160000x64, .f32⟩ : BufTy).Contents (Elt F) → (⟨S160000x64, .f32⟩ : BufTy).Contents (Elt F) → (⟨S160000x64, .i1⟩ : BufTy).Contents (Elt F)),
    unary main_cst_11 main_call4_v2 (id : (⟨S_, .f32⟩ : BufTy).Contents (Elt F) → (⟨S_, .f32⟩ : BufTy).Contents (Elt F)),
    unary main_call4_v2 main_call4_v3 (broadcastInDim S160000x64 ![] bcast_S_S160000x64 : (⟨S_, .f32⟩ : BufTy).Contents (Elt F) → (⟨S160000x64, .f32⟩ : BufTy).Contents (Elt F)),
    binary main_call4_v3 main_v99 main_call4_v4 (mulf : (⟨S160000x64, .f32⟩ : BufTy).Contents (Elt F) → (⟨S160000x64, .f32⟩ : BufTy).Contents (Elt F) → (⟨S160000x64, .f32⟩ : BufTy).Contents (Elt F)),
    ternary main_call4_v1 main_v99 main_call4_v4 main_v100 (select : (⟨S160000x64, .i1⟩ : BufTy).Contents (Elt F) → (⟨S160000x64, .f32⟩ : BufTy).Contents (Elt F) → (⟨S160000x64, .f32⟩ : BufTy).Contents (Elt F) → (⟨S160000x64, .f32⟩ : BufTy).Contents (Elt F)) ]

/-- Layer 3, the row normalization up to the broadcast norm. Operations 142 … 150 of 186. -/
abbrev opsN3a : List (HloOp τ sig (Elt F)) :=
  [ binary main_v100 main_v100 main_call5_v0 (mulf : (⟨S160000x64, .f32⟩ : BufTy).Contents (Elt F) → (⟨S160000x64, .f32⟩ : BufTy).Contents (Elt F) → (⟨S160000x64, .f32⟩ : BufTy).Contents (Elt F)),
    nullary main_call5_cst (constant S_ .f32 0x00000000#32),
    binary main_call5_v0 main_call5_cst main_call5_v1 ((fun x v => Host.reduceAdd x v reducesTo_S160000x64_S160000_d1 h_S_) : (⟨S160000x64, .f32⟩ : BufTy).Contents (Elt F) → (⟨S_, .f32⟩ : BufTy).Contents (Elt F) → (⟨S160000, .f32⟩ : BufTy).Contents (Elt F)),
    unary main_call5_v1 main_call5_v2 (broadcastInDim S160000x1 ![0] bcast_S160000_S160000x1_0 : (⟨S160000, .f32⟩ : BufTy).Contents (Elt F) → (⟨S160000x1, .f32⟩ : BufTy).Contents (Elt F)),
    unary main_call5_v2 main_v101 (Host.sqrt : (⟨S160000x1, .f32⟩ : BufTy).Contents (Elt F) → (⟨S160000x1, .f32⟩ : BufTy).Contents (Elt F)),
    nullary main_cst_12 (constant S_ .f32 0x2B8CBCCC#32),
    unary main_cst_12 main_v102 (broadcastInDim S160000x1 ![] bcast_S_S160000x1 : (⟨S_, .f32⟩ : BufTy).Contents (Elt F) → (⟨S160000x1, .f32⟩ : BufTy).Contents (Elt F)),
    binary main_v101 main_v102 main_v103 (maximumf : (⟨S160000x1, .f32⟩ : BufTy).Contents (Elt F) → (⟨S160000x1, .f32⟩ : BufTy).Contents (Elt F) → (⟨S160000x1, .f32⟩ : BufTy).Contents (Elt F)),
    unary main_v103 main_v104 (broadcastInDim S160000x64 ![0, 1] bcast_S160000x1_S160000x64_0_1 : (⟨S160000x1, .f32⟩ : BufTy).Contents (Elt F) → (⟨S160000x64, .f32⟩ : BufTy).Contents (Elt F)) ]

/-- Layer 3, the row normalization's division. Operations 151 … 151 of 186. -/
abbrev opsN3b : List (HloOp τ sig (Elt F)) :=
  [ binary main_v100 main_v104 main_v105 (Host.divf : (⟨S160000x64, .f32⟩ : BufTy).Contents (Elt F) → (⟨S160000x64, .f32⟩ : BufTy).Contents (Elt F) → (⟨S160000x64, .f32⟩ : BufTy).Contents (Elt F)) ]

/-- The readout: the four tables side by side, users' and items' rows gathered (indices wrapped), multiplied, projected to one column, the bias added, the logistic function. Operations 152 … 186 of 186. -/
abbrev opsT : List (HloOp τ sig (Elt F)) :=
  [ nary ![main_v0, main_v35, main_v70, main_v105] main_v106 (fun u => concatenate S160000x256 1 [⟨S160000x64, u 0⟩, ⟨S160000x64, u 1⟩, ⟨S160000x64, u 2⟩, ⟨S160000x64, u 3⟩] concatenates_S160000x64_S160000x64_S160000x64_S160000x64_S160000x256_d1),
    unary main_v106 main_v107 ((extractStridedSlice S100000x256 ![0, 0] · slices_S160000x256_S100000x256_0_0) : (⟨S160000x256, .f32⟩ : BufTy).Contents (Elt F) → (⟨S100000x256, .f32⟩ : BufTy).Contents (Elt F)),
    nullary main_c_13 (constantI S_ 32 0#32),
    unary main_c_13 main_v108 (broadcastInDim S16384 ![] bcast_S_S16384 : (⟨S_, .i32⟩ : BufTy).Contents (Elt F) → (⟨S16384, .i32⟩ : BufTy).Contents (Elt F)),
    binary main_arg0 main_v108 main_v109 (cmpi .slt : (⟨S16384, .i32⟩ : BufTy).Contents (Elt F) → (⟨S16384, .i32⟩ : BufTy).Contents (Elt F) → (⟨S16384, .i1⟩ : BufTy).Contents (Elt F)),
    nullary main_c_14 (constantI S_ 32 100000#32),
    unary main_c_14 main_v110 (broadcastInDim S16384 ![] bcast_S_S16384 : (⟨S_, .i32⟩ : BufTy).Contents (Elt F) → (⟨S16384, .i32⟩ : BufTy).Contents (Elt F)),
    binary main_arg0 main_v110 main_v111 (addi : (⟨S16384, .i32⟩ : BufTy).Contents (Elt F) → (⟨S16384, .i32⟩ : BufTy).Contents (Elt F) → (⟨S16384, .i32⟩ : BufTy).Contents (Elt F)),
    ternary main_v109 main_v111 main_arg0 main_v112 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v112 main_v113 (broadcastInDim S16384x1 ![0] bcast_S16384_S16384x1_0 : (⟨S16384, .i32⟩ : BufTy).Contents (Elt F) → (⟨S16384x1, .i32⟩ : BufTy).Contents (Elt F)),
    binary main_v107 main_v113 main_v114 ((fun x i => Host.gather gather_S100000x256_S16384x1_S16384x256_1_0_n_n_0_1_1256 x i) : (⟨S100000x256, .f32⟩ : BufTy).Contents (Elt F) → (⟨S16384x1, .i32⟩ : BufTy).Contents (Elt F) → (⟨S16384x256, .f32⟩ : BufTy).Contents (Elt F)),
    unary main_v106 main_v115 ((extractStridedSlice S60000x256 ![100000, 0] · slices_S160000x256_S60000x256_100000_0) : (⟨S160000x256, .f32⟩ : BufTy).Contents (Elt F) → (⟨S60000x256, .f32⟩ : BufTy).Contents (Elt F)),
    nullary main_c_15 (constantI S_ 32 0#32),
    unary main_c_15 main_v116 (broadcastInDim S16384 ![] bcast_S_S16384 : (⟨S_, .i32⟩ : BufTy).Contents (Elt F) → (⟨S16384, .i32⟩ : BufTy).Contents (Elt F)),
    binary main_arg1 main_v116 main_v117 (cmpi .slt : (⟨S16384, .i32⟩ : BufTy).Contents (Elt F) → (⟨S16384, .i32⟩ : BufTy).Contents (Elt F) → (⟨S16384, .i1⟩ : BufTy).Contents (Elt F)),
    nullary main_c_16 (constantI S_ 32 60000#32),
    unary main_c_16 main_v118 (broadcastInDim S16384 ![] bcast_S_S16384 : (⟨S_, .i32⟩ : BufTy).Contents (Elt F) → (⟨S16384, .i32⟩ : BufTy).Contents (Elt F)),
    binary main_arg1 main_v118 main_v119 (addi : (⟨S16384, .i32⟩ : BufTy).Contents (Elt F) → (⟨S16384, .i32⟩ : BufTy).Contents (Elt F) → (⟨S16384, .i32⟩ : BufTy).Contents (Elt F)),
    ternary main_v117 main_v119 main_arg1 main_v120 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v120 main_v121 (broadcastInDim S16384x1 ![0] bcast_S16384_S16384x1_0 : (⟨S16384, .i32⟩ : BufTy).Contents (Elt F) → (⟨S16384x1, .i32⟩ : BufTy).Contents (Elt F)),
    binary main_v115 main_v121 main_v122 ((fun x i => Host.gather gather_S60000x256_S16384x1_S16384x256_1_0_n_n_0_1_1256 x i) : (⟨S60000x256, .f32⟩ : BufTy).Contents (Elt F) → (⟨S16384x1, .i32⟩ : BufTy).Contents (Elt F) → (⟨S16384x256, .f32⟩ : BufTy).Contents (Elt F)),
    binary main_v114 main_v122 main_v123 (mulf : (⟨S16384x256, .f32⟩ : BufTy).Contents (Elt F) → (⟨S16384x256, .f32⟩ : BufTy).Contents (Elt F) → (⟨S16384x256, .f32⟩ : BufTy).Contents (Elt F)),
    binary main_v123 main_arg11 main_v124 ((fun l r => Host.dotGeneral dot_S16384x256_S256x1_S16384x1_1_0_0_1_n_n none l r) : (⟨S16384x256, .f32⟩ : BufTy).Contents (Elt F) → (⟨S256x1, .f32⟩ : BufTy).Contents (Elt F) → (⟨S16384x1, .f32⟩ : BufTy).Contents (Elt F)),
    unary main_arg12 main_v125 (broadcastInDim S1x1 ![1] bcast_S1_S1x1_1 : (⟨S1, .f32⟩ : BufTy).Contents (Elt F) → (⟨S1x1, .f32⟩ : BufTy).Contents (Elt F)),
    unary main_v125 main_v126 (broadcastInDim S16384x1 ![0, 1] bcast_S1x1_S16384x1_0_1 : (⟨S1x1, .f32⟩ : BufTy).Contents (Elt F) → (⟨S16384x1, .f32⟩ : BufTy).Contents (Elt F)),
    binary main_v124 main_v126 main_v127 (addf : (⟨S16384x1, .f32⟩ : BufTy).Contents (Elt F) → (⟨S16384x1, .f32⟩ : BufTy).Contents (Elt F) → (⟨S16384x1, .f32⟩ : BufTy).Contents (Elt F)),
    reshape main_v127 main_v128 rfl shapeCasts_S16384x1_S16384,
    unary main_v128 main_v129 (Host.negf : (⟨S16384, .f32⟩ : BufTy).Contents (Elt F) → (⟨S16384, .f32⟩ : BufTy).Contents (Elt F)),
    unary main_v129 main_v130 (Host.exp : (⟨S16384, .f32⟩ : BufTy).Contents (Elt F) → (⟨S16384, .f32⟩ : BufTy).Contents (Elt F)),
    nullary main_cst_17 (constant S_ .f32 0x3F800000#32),
    unary main_cst_17 main_v131 (broadcastInDim S16384 ![] bcast_S_S16384 : (⟨S_, .f32⟩ : BufTy).Contents (Elt F) → (⟨S16384, .f32⟩ : BufTy).Contents (Elt F)),
    binary main_v131 main_v130 main_v132 (addf : (⟨S16384, .f32⟩ : BufTy).Contents (Elt F) → (⟨S16384, .f32⟩ : BufTy).Contents (Elt F) → (⟨S16384, .f32⟩ : BufTy).Contents (Elt F)),
    nullary main_cst_18 (constant S_ .f32 0x3F800000#32),
    unary main_cst_18 main_v133 (broadcastInDim S16384 ![] bcast_S_S16384 : (⟨S_, .f32⟩ : BufTy).Contents (Elt F) → (⟨S16384, .f32⟩ : BufTy).Contents (Elt F)),
    binary main_v133 main_v132 main_v134 (Host.divf : (⟨S16384, .f32⟩ : BufTy).Contents (Elt F) → (⟨S16384, .f32⟩ : BufTy).Contents (Elt F) → (⟨S16384, .f32⟩ : BufTy).Contents (Elt F)) ]

/-- @main's 186 operations in order, every call of an outlined function replaced by the function's operations over the call's buffers, grouped by what they compute. -/
abbrev ops : List (HloOp τ sig (Elt F)) :=
  opsE ++ (opsS1 ++ (opsP1 ++ (opsA1 ++ (opsN1 ++ (opsS2 ++ (opsP2a ++ (opsP2b ++ (opsA2 ++ (opsN2 ++ (opsS3 ++ (opsP3 ++ (opsA3 ++ (opsN3a ++ (opsN3b ++ (opsT)))))))))))))))

/-- The same operations grouped as the printed program cuts @main: its first 60 statements, the next 60, the last 37. -/
abbrev ops0 : List (HloOp τ sig (Elt F)) := opsE ++ (opsS1 ++ (opsP1 ++ (opsA1 ++ (opsN1 ++ (opsS2 ++ (opsP2a))))))
@[inherit_doc ops0]
abbrev ops1 : List (HloOp τ sig (Elt F)) := opsP2b ++ (opsA2 ++ (opsN2 ++ (opsS3 ++ (opsP3 ++ (opsA3 ++ (opsN3a))))))
@[inherit_doc ops0]
abbrev ops2 : List (HloOp τ sig (Elt F)) := opsN3b ++ (opsT)

/-! ## @main is that line -/

set_option maxRecDepth 8192 in
set_option maxHeartbeats 4000000 in
/-- The first window: the callees' definitions unfolded at their calls, both sides are one chain of steps once
    sequencing is reassociated. -/
theorem main_part0_eq (c : Dev nD) : main_part0 (F := F) c = seq ops0 := by
  simp only [main_part0, fn_leaky_relu.body, fn_where.body, fn_norm.body, ops0, opsE, opsS1, opsP1, opsA1, opsN1, opsS2, opsP2a, seq_append, seq, bind_assoc, pure_bind] <;> rfl

set_option maxRecDepth 8192 in
set_option maxHeartbeats 4000000 in
@[inherit_doc main_part0_eq]
theorem main_part1_eq (c : Dev nD) : main_part1 (F := F) c = seq ops1 := by
  simp only [main_part1, fn_leaky_relu.body, fn_where.body, fn_norm.body, ops1, opsP2b, opsA2, opsN2, opsS3, opsP3, opsA3, opsN3a, seq_append, seq, bind_assoc, pure_bind] <;> rfl

set_option maxRecDepth 8192 in
set_option maxHeartbeats 4000000 in
@[inherit_doc main_part0_eq]
theorem main_part2_eq (c : Dev nD) : main_part2 (F := F) c = seq ops2 := by
  simp only [main_part2, ops2, opsN3b, opsT, seq_append, seq, bind_assoc, pure_bind] <;> rfl

/-- The two groupings are the same list. -/
theorem ops_eq_windows : (ops : List (HloOp τ sig (Elt F))) = ops0 ++ (ops1 ++ ops2) := by
  simp only [ops, ops0, ops1, ops2, List.append_assoc]

/-- @main runs its three windows in order: the line of all 186 operations. -/
theorem main_eq (c : Dev nD) : main (F := F) c = seq ops := by
  calc main (F := F) c = (main_part0 c >>= fun _ => main_part1 c >>= fun _ => main_part2 c) := rfl
    _ = (seq ops0 >>= fun _ => seq ops1 >>= fun _ => seq ops2) := by rw [main_part0_eq, main_part1_eq, main_part2_eq]
    _ = seq (ops0 ++ (ops1 ++ ops2)) := by rw [seq_append ops0 (ops1 ++ ops2), seq_append ops1 ops2]
    _ = seq ops := by rw [ops_eq_windows]

theorem scopedRefs_eq : (Finset.univ.filter fun b : Ref sig .tc => b.isScoped) = ∅ := by decide
theorem scopedSems_eq : (Finset.univ.filter fun sm : SemLoc sig => sm.isScoped .tc) = ∅ := by decide

/-! ## Every operation's buffers are TensorCore buffers, and none is an allocation -/

set_option maxRecDepth 8192 in
theorem opsE_sub : (opsE : List (HloOp τ sig (Elt F))).Forall fun op => op.bufs ⊆ tcRefs τ sig :=
  binary_bufs_sub ..
set_option maxRecDepth 8192 in
theorem opsS1_sub : (opsS1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
set_option maxRecDepth 8192 in
theorem opsP1_sub : (opsP1 : List (HloOp τ sig (Elt F))).Forall fun op => op.bufs ⊆ tcRefs τ sig :=
  ⟨unary_bufs_sub .., reshape_bufs_sub .., binary_bufs_sub .., unary_bufs_sub .., reshape_bufs_sub .., unary_bufs_sub .., binary_bufs_sub .., binary_bufs_sub .., unary_bufs_sub .., reshape_bufs_sub .., binary_bufs_sub .., unary_bufs_sub .., reshape_bufs_sub .., unary_bufs_sub .., binary_bufs_sub .., binary_bufs_sub ..⟩
set_option maxRecDepth 8192 in
theorem opsA1_sub : (opsA1 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩
set_option maxRecDepth 8192 in
theorem opsN1_sub : (opsN1 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
set_option maxRecDepth 8192 in
theorem opsS2_sub : (opsS2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
set_option maxRecDepth 8192 in
theorem opsP2a_sub : (opsP2a : List (HloOp τ sig (Elt F))).Forall fun op => op.bufs ⊆ tcRefs τ sig :=
  ⟨unary_bufs_sub .., reshape_bufs_sub .., binary_bufs_sub ..⟩
set_option maxRecDepth 8192 in
theorem opsP2b_sub : (opsP2b : List (HloOp τ sig (Elt F))).Forall fun op => op.bufs ⊆ tcRefs τ sig :=
  ⟨unary_bufs_sub .., reshape_bufs_sub .., unary_bufs_sub .., binary_bufs_sub .., binary_bufs_sub .., unary_bufs_sub .., reshape_bufs_sub .., binary_bufs_sub .., unary_bufs_sub .., reshape_bufs_sub .., unary_bufs_sub .., binary_bufs_sub .., binary_bufs_sub ..⟩
set_option maxRecDepth 8192 in
theorem opsA2_sub : (opsA2 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩
set_option maxRecDepth 8192 in
theorem opsN2_sub : (opsN2 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
set_option maxRecDepth 8192 in
theorem opsS3_sub : (opsS3 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
set_option maxRecDepth 8192 in
theorem opsP3_sub : (opsP3 : List (HloOp τ sig (Elt F))).Forall fun op => op.bufs ⊆ tcRefs τ sig :=
  ⟨unary_bufs_sub .., reshape_bufs_sub .., binary_bufs_sub .., unary_bufs_sub .., reshape_bufs_sub .., unary_bufs_sub .., binary_bufs_sub .., binary_bufs_sub .., unary_bufs_sub .., reshape_bufs_sub .., binary_bufs_sub .., unary_bufs_sub .., reshape_bufs_sub .., unary_bufs_sub .., binary_bufs_sub .., binary_bufs_sub ..⟩
set_option maxRecDepth 8192 in
theorem opsA3_sub : (opsA3 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩
set_option maxRecDepth 8192 in
theorem opsN3a_sub : (opsN3a : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub ..⟩
set_option maxRecDepth 8192 in
theorem opsN3b_sub : (opsN3b : List (HloOp τ sig (Elt F))).Forall fun op => op.bufs ⊆ tcRefs τ sig :=
  binary_bufs_sub ..
set_option maxRecDepth 8192 in
theorem opsT_sub : (opsT : List (HloOp τ sig (Elt F))).Forall fun op => op.bufs ⊆ tcRefs τ sig :=
  ⟨nary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., reshape_bufs_sub .., unary_bufs_sub .., unary_bufs_sub .., nullary_bufs_sub .., unary_bufs_sub .., binary_bufs_sub .., nullary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h
    exacts [List.forall_iff_forall_mem.mp opsE_sub op h, List.forall_iff_forall_mem.mp opsS1_sub op h, List.forall_iff_forall_mem.mp opsP1_sub op h, List.forall_iff_forall_mem.mp opsA1_sub op h, List.forall_iff_forall_mem.mp opsN1_sub op h, List.forall_iff_forall_mem.mp opsS2_sub op h, List.forall_iff_forall_mem.mp opsP2a_sub op h, List.forall_iff_forall_mem.mp opsP2b_sub op h, List.forall_iff_forall_mem.mp opsA2_sub op h, List.forall_iff_forall_mem.mp opsN2_sub op h, List.forall_iff_forall_mem.mp opsS3_sub op h, List.forall_iff_forall_mem.mp opsP3_sub op h, List.forall_iff_forall_mem.mp opsA3_sub op h, List.forall_iff_forall_mem.mp opsN3a_sub op h, List.forall_iff_forall_mem.mp opsN3b_sub op h, List.forall_iff_forall_mem.mp opsT_sub op h]

set_option maxRecDepth 8192 in
theorem opsE_fresh : (opsE : List (HloOp τ sig (Elt F))).Forall fun op => op.fresh = ∅ :=
  rfl
set_option maxRecDepth 8192 in
theorem opsS1_fresh : (opsS1 : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
theorem opsP1_fresh : (opsP1 : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
theorem opsA1_fresh : (opsA1 : List (HloOp τ sig (Elt F))).Forall fun op => op.fresh = ∅ :=
  ⟨rfl, rfl, rfl, rfl, rfl, rfl, rfl, rfl⟩
set_option maxRecDepth 8192 in
theorem opsN1_fresh : (opsN1 : List (HloOp τ sig (Elt F))).Forall fun op => op.fresh = ∅ :=
  ⟨rfl, rfl, rfl, rfl, rfl, rfl, rfl, rfl, rfl, rfl⟩
set_option maxRecDepth 8192 in
theorem opsS2_fresh : (opsS2 : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
theorem opsP2a_fresh : (opsP2a : List (HloOp τ sig (Elt F))).Forall fun op => op.fresh = ∅ :=
  ⟨rfl, rfl, rfl⟩
set_option maxRecDepth 8192 in
theorem opsP2b_fresh : (opsP2b : List (HloOp τ sig (Elt F))).Forall fun op => op.fresh = ∅ :=
  ⟨rfl, rfl, rfl, rfl, rfl, rfl, rfl, rfl, rfl, rfl, rfl, rfl, rfl⟩
set_option maxRecDepth 8192 in
theorem opsA2_fresh : (opsA2 : List (HloOp τ sig (Elt F))).Forall fun op => op.fresh = ∅ :=
  ⟨rfl, rfl, rfl, rfl, rfl, rfl, rfl, rfl⟩
set_option maxRecDepth 8192 in
theorem opsN2_fresh : (opsN2 : List (HloOp τ sig (Elt F))).Forall fun op => op.fresh = ∅ :=
  ⟨rfl, rfl, rfl, rfl, rfl, rfl, rfl, rfl, rfl, rfl⟩
set_option maxRecDepth 8192 in
theorem opsS3_fresh : (opsS3 : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
theorem opsP3_fresh : (opsP3 : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
theorem opsA3_fresh : (opsA3 : List (HloOp τ sig (Elt F))).Forall fun op => op.fresh = ∅ :=
  ⟨rfl, rfl, rfl, rfl, rfl, rfl, rfl, rfl⟩
set_option maxRecDepth 8192 in
theorem opsN3a_fresh : (opsN3a : List (HloOp τ sig (Elt F))).Forall fun op => op.fresh = ∅ :=
  ⟨rfl, rfl, rfl, rfl, rfl, rfl, rfl, rfl, rfl⟩
set_option maxRecDepth 8192 in
theorem opsN3b_fresh : (opsN3b : List (HloOp τ sig (Elt F))).Forall fun op => op.fresh = ∅ :=
  rfl
set_option maxRecDepth 8192 in
theorem opsT_fresh : (opsT : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_fresh : (ops : List (HloOp τ sig (Elt F))).Forall fun op => op.fresh = ∅ :=
  List.forall_iff_forall_mem.mpr fun op h => by
    simp only [ops, List.mem_append] at h
    rcases h with h | h | h | h | h | h | h | h | h | h | h | h | h | h | h | h
    exacts [List.forall_iff_forall_mem.mp opsE_fresh op h, List.forall_iff_forall_mem.mp opsS1_fresh op h, List.forall_iff_forall_mem.mp opsP1_fresh op h, List.forall_iff_forall_mem.mp opsA1_fresh op h, List.forall_iff_forall_mem.mp opsN1_fresh op h, List.forall_iff_forall_mem.mp opsS2_fresh op h, List.forall_iff_forall_mem.mp opsP2a_fresh op h, List.forall_iff_forall_mem.mp opsP2b_fresh op h, List.forall_iff_forall_mem.mp opsA2_fresh op h, List.forall_iff_forall_mem.mp opsN2_fresh op h, List.forall_iff_forall_mem.mp opsS3_fresh op h, List.forall_iff_forall_mem.mp opsP3_fresh op h, List.forall_iff_forall_mem.mp opsA3_fresh op h, List.forall_iff_forall_mem.mp opsN3a_fresh op h, List.forall_iff_forall_mem.mp opsN3b_fresh op h, List.forall_iff_forall_mem.mp opsT_fresh op h]

/-! ## The run -/

/-- At the compiled mesh, for any float values, from any memory with zero counters: every weakly fair execution of @main
    terminates, and every final state has each TensorCore buffer at the fold of the 186 operations' results over the
    launch contents. -/
theorem run_after (m : (ℓ : Loc nD τ sig) → Buf (Elt F) ℓ) (g : Dev nD → PrngReg) :
    θ_run defs (onTc (τ := τ) (main (F := F))) ⟨m, fun _ => 0, g⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m g
    (fun _ => List.forall_iff_forall_mem.mp ops_fresh)

/-- The buffers the 186 operations write, in order: one each, none an argument. -/
abbrev opsW : List (Ref sig .tc) := [main_v0, main_v1, main_c, main_v2, main_v3, main_c_0, main_v4, main_v5, main_v6, main_v7, main_v8, main_v9, main_v10, main_cst, main_v11, main_v12, main_v13, main_v14, main_v15, main_v16, main_v17, main_v18, main_v19, main_v20, main_v21, main_v22, main_v23, main_v24, main_v25, main_v26, main_v27, main_v28, main_v29, main_cst_1, main_call0_cst, main_call0_v0, main_call0_v1, main_call0_v2, main_call0_v3, main_call0_v4, main_v30, main_call1_v0, main_call1_cst, main_call1_v1, main_call1_v2, main_v31, main_cst_2, main_v32, main_v33, main_v34, main_v35, main_v36, main_c_3, main_v37, main_v38, main_c_4, main_v39, main_v40, main_v41, main_v42, main_v43, main_v44, main_v45, main_cst_5, main_v46, main_v47, main_v48, main_v49, main_v50, main_v51, main_v52, main_v53, main_v54, main_v55, main_v56, main_v57, main_v58, main_v59, main_v60, main_v61, main_v62, main_v63, main_v64, main_cst_6, main_call2_cst, main_call2_v0, main_call2_v1, main_call2_v2, main_call2_v3, main_call2_v4, main_v65, main_call3_v0, main_call3_cst, main_call3_v1, main_call3_v2, main_v66, main_cst_7, main_v67, main_v68, main_v69, main_v70, main_v71, main_c_8, main_v72, main_v73, main_c_9, main_v74, main_v75, main_v76, main_v77, main_v78, main_v79, main_v80, main_cst_10, main_v81, main_v82, main_v83, main_v84, main_v85, main_v86, main_v87, main_v88, main_v89, main_v90, main_v91, main_v92, main_v93, main_v94, main_v95, main_v96, main_v97, main_v98, main_v99, main_cst_11, main_call4_cst, main_call4_v0, main_call4_v1, main_call4_v2, main_call4_v3, main_call4_v4, main_v100, main_call5_v0, main_call5_cst, main_call5_v1, main_call5_v2, main_v101, main_cst_12, main_v102, main_v103, main_v104, main_v105, main_v106, main_v107, main_c_13, main_v108, main_v109, main_c_14, main_v110, main_v111, main_v112, main_v113, main_v114, main_v115, main_c_15, main_v116, main_v117, main_c_16, main_v118, main_v119, main_v120, main_v121, main_v122, main_v123, main_v124, main_v125, main_v126, main_v127, main_v128, main_v129, main_v130, main_cst_17, main_v131, main_v132, main_cst_18, main_v133, main_v134]

end Cert.ReferenceIdeal.RefRun

end
-- ==== Proof.LibAfterAppend.lean ====
/-
  A straight line of host operations, evaluated in pieces.

  The buffer contents after a line of host operations are a fold of the operations' results over the incoming contents.
  The fold over a concatenation is the fold over the second list of the fold over the first, so a long line can be cut
  into consecutive pieces and each piece evaluated from ARBITRARY incoming contents `W` — a short evaluation with small
  terms — and the pieces composed by rewriting. Library-only; any element values, any reference signature.
-/
import Idealize.ShloMosaic.Lib.StableHlo.Run

noncomputable section

namespace Cert.LibAfterAppend

open Idealize.ShloMosaic Idealize.ShloMosaic.StableHlo

variable {τ : Topo} {sig : RefSig} {Val : EltTy → Type}

/-- The contents after two lines run one after the other are the second line's, from the first line's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Five consecutive pieces. -/
theorem after_append5 (a b c d e : List (HloOp τ sig Val)) (V : Valuation τ sig Val) :
    after (a ++ (b ++ (c ++ (d ++ e)))) V = after e (after d (after c (after b (after a V)))) := by
  rw [after_append, after_append, after_append, after_append]

end Cert.LibAfterAppend

end
-- ==== Proof.RefRun.lean ====
/-
  The reference program's run, read at its result and its arguments.

  Each of the sixteen groups of operations writes only its own buffers — one per operation, listed here group by group —
  so a buffer outside a group's list holds after the group what it held before. No list holds an argument of @main:
  after all 186 operations every argument is what the launch gave. With the library's run of a straight line this is
  the run of the reference: it terminates, the result buffer holds the fold of the operations at it, and the thirteen
  arguments are unchanged.
-/
import proofs.«162997_j3143916060680_1_alg».proof.Proof.RefOps
import proofs.«162997_j3143916060680_1_alg».proof.Proof.LibAfterAppend

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
open Cert.LibAfterAppend

/-! ## What each group writes, and that it leaves the rest alone -/

/-- The buffers group `opsE` writes. -/
abbrev opsE_W : List (Ref sig .tc) := [main_v0]
set_option maxRecDepth 8192 in
theorem opsE_writes : (opsE : List (HloOp τ sig (Elt F))).Forall fun op => op.writes ⊆ (opsE_W.map (Proc.devRef (τ := τ) .tc)).toFinset := by
  simp only [List.Forall]; exact (by simp only [nullary_writes, unary_writes, binary_writes, ternary_writes, quaternary_writes, reshape_writes, nary_writes, Finset.singleton_subset_iff, List.mem_toFinset]; exact List.mem_map_of_mem (by decide))
/-- A buffer group `opsE` does not write keeps its contents through it. -/
theorem E_keep (W : Valuation τ sig (Elt F)) (r : Ref sig .tc) (h : r ∉ opsE_W) :
    after opsE W (no_index (Proc.devRef .tc r)) = W (Proc.devRef .tc r) :=
  after_of_writes_sub opsE _ opsE_writes h

/-- The buffers group `opsS1` writes. -/
abbrev opsS1_W : List (Ref sig .tc) := [main_v1, main_c, main_v2, main_v3, main_c_0, main_v4, main_v5, main_v6, main_v7, main_v8, main_v9, main_v10, main_cst, main_v11, main_v12, main_v13]
set_option maxRecDepth 8192 in
theorem opsS1_writes : (opsS1 : List (HloOp τ sig (Elt F))).Forall fun op => op.writes ⊆ (opsS1_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer group `opsS1` does not write keeps its contents through it. -/
theorem S1_keep (W : Valuation τ sig (Elt F)) (r : Ref sig .tc) (h : r ∉ opsS1_W) :
    after opsS1 W (no_index (Proc.devRef .tc r)) = W (Proc.devRef .tc r) :=
  after_of_writes_sub opsS1 _ opsS1_writes h

/-- The buffers group `opsP1` writes. -/
abbrev opsP1_W : List (Ref sig .tc) := [main_v14, main_v15, main_v16, main_v17, main_v18, main_v19, main_v20, main_v21, main_v22, main_v23, main_v24, main_v25, main_v26, main_v27, main_v28, main_v29]
set_option maxRecDepth 8192 in
theorem opsP1_writes : (opsP1 : List (HloOp τ sig (Elt F))).Forall fun op => op.writes ⊆ (opsP1_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer group `opsP1` does not write keeps its contents through it. -/
theorem P1_keep (W : Valuation τ sig (Elt F)) (r : Ref sig .tc) (h : r ∉ opsP1_W) :
    after opsP1 W (no_index (Proc.devRef .tc r)) = W (Proc.devRef .tc r) :=
  after_of_writes_sub opsP1 _ opsP1_writes h

/-- The buffers group `opsA1` writes. -/
abbrev opsA1_W : List (Ref sig .tc) := [main_cst_1, main_call0_cst, main_call0_v0, main_call0_v1, main_call0_v2, main_call0_v3, main_call0_v4, main_v30]
set_option maxRecDepth 8192 in
theorem opsA1_writes : (opsA1 : List (HloOp τ sig (Elt F))).Forall fun op => op.writes ⊆ (opsA1_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer group `opsA1` does not write keeps its contents through it. -/
theorem A1_keep (W : Valuation τ sig (Elt F)) (r : Ref sig .tc) (h : r ∉ opsA1_W) :
    after opsA1 W (no_index (Proc.devRef .tc r)) = W (Proc.devRef .tc r) :=
  after_of_writes_sub opsA1 _ opsA1_writes h

/-- The buffers group `opsN1` writes. -/
abbrev opsN1_W : List (Ref sig .tc) := [main_call1_v0, main_call1_cst, main_call1_v1, main_call1_v2, main_v31, main_cst_2, main_v32, main_v33, main_v34, main_v35]
set_option maxRecDepth 8192 in
theorem opsN1_writes : (opsN1 : List (HloOp τ sig (Elt F))).Forall fun op => op.writes ⊆ (opsN1_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer group `opsN1` does not write keeps its contents through it. -/
theorem N1_keep (W : Valuation τ sig (Elt F)) (r : Ref sig .tc) (h : r ∉ opsN1_W) :
    after opsN1 W (no_index (Proc.devRef .tc r)) = W (Proc.devRef .tc r) :=
  after_of_writes_sub opsN1 _ opsN1_writes h

/-- The buffers group `opsS2` writes. -/
abbrev opsS2_W : List (Ref sig .tc) := [main_v36, main_c_3, main_v37, main_v38, main_c_4, main_v39, main_v40, main_v41, main_v42, main_v43, main_v44, main_v45, main_cst_5, main_v46, main_v47, main_v48]
set_option maxRecDepth 8192 in
theorem opsS2_writes : (opsS2 : List (HloOp τ sig (Elt F))).Forall fun op => op.writes ⊆ (opsS2_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer group `opsS2` does not write keeps its contents through it. -/
theorem S2_keep (W : Valuation τ sig (Elt F)) (r : Ref sig .tc) (h : r ∉ opsS2_W) :
    after opsS2 W (no_index (Proc.devRef .tc r)) = W (Proc.devRef .tc r) :=
  after_of_writes_sub opsS2 _ opsS2_writes h

/-- The buffers group `opsP2a` writes. -/
abbrev opsP2a_W : List (Ref sig .tc) := [main_v49, main_v50, main_v51]
set_option maxRecDepth 8192 in
theorem opsP2a_writes : (opsP2a : List (HloOp τ sig (Elt F))).Forall fun op => op.writes ⊆ (opsP2a_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer group `opsP2a` does not write keeps its contents through it. -/
theorem P2a_keep (W : Valuation τ sig (Elt F)) (r : Ref sig .tc) (h : r ∉ opsP2a_W) :
    after opsP2a W (no_index (Proc.devRef .tc r)) = W (Proc.devRef .tc r) :=
  after_of_writes_sub opsP2a _ opsP2a_writes h

/-- The buffers group `opsP2b` writes. -/
abbrev opsP2b_W : List (Ref sig .tc) := [main_v52, main_v53, main_v54, main_v55, main_v56, main_v57, main_v58, main_v59, main_v60, main_v61, main_v62, main_v63, main_v64]
set_option maxRecDepth 8192 in
theorem opsP2b_writes : (opsP2b : List (HloOp τ sig (Elt F))).Forall fun op => op.writes ⊆ (opsP2b_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer group `opsP2b` does not write keeps its contents through it. -/
theorem P2b_keep (W : Valuation τ sig (Elt F)) (r : Ref sig .tc) (h : r ∉ opsP2b_W) :
    after opsP2b W (no_index (Proc.devRef .tc r)) = W (Proc.devRef .tc r) :=
  after_of_writes_sub opsP2b _ opsP2b_writes h

/-- The buffers group `opsA2` writes. -/
abbrev opsA2_W : List (Ref sig .tc) := [main_cst_6, main_call2_cst, main_call2_v0, main_call2_v1, main_call2_v2, main_call2_v3, main_call2_v4, main_v65]
set_option maxRecDepth 8192 in
theorem opsA2_writes : (opsA2 : List (HloOp τ sig (Elt F))).Forall fun op => op.writes ⊆ (opsA2_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer group `opsA2` does not write keeps its contents through it. -/
theorem A2_keep (W : Valuation τ sig (Elt F)) (r : Ref sig .tc) (h : r ∉ opsA2_W) :
    after opsA2 W (no_index (Proc.devRef .tc r)) = W (Proc.devRef .tc r) :=
  after_of_writes_sub opsA2 _ opsA2_writes h

/-- The buffers group `opsN2` writes. -/
abbrev opsN2_W : List (Ref sig .tc) := [main_call3_v0, main_call3_cst, main_call3_v1, main_call3_v2, main_v66, main_cst_7, main_v67, main_v68, main_v69, main_v70]
set_option maxRecDepth 8192 in
theorem opsN2_writes : (opsN2 : List (HloOp τ sig (Elt F))).Forall fun op => op.writes ⊆ (opsN2_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer group `opsN2` does not write keeps its contents through it. -/
theorem N2_keep (W : Valuation τ sig (Elt F)) (r : Ref sig .tc) (h : r ∉ opsN2_W) :
    after opsN2 W (no_index (Proc.devRef .tc r)) = W (Proc.devRef .tc r) :=
  after_of_writes_sub opsN2 _ opsN2_writes h

/-- The buffers group `opsS3` writes. -/
abbrev opsS3_W : List (Ref sig .tc) := [main_v71, main_c_8, main_v72, main_v73, main_c_9, main_v74, main_v75, main_v76, main_v77, main_v78, main_v79, main_v80, main_cst_10, main_v81, main_v82, main_v83]
set_option maxRecDepth 8192 in
theorem opsS3_writes : (opsS3 : List (HloOp τ sig (Elt F))).Forall fun op => op.writes ⊆ (opsS3_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer group `opsS3` does not write keeps its contents through it. -/
theorem S3_keep (W : Valuation τ sig (Elt F)) (r : Ref sig .tc) (h : r ∉ opsS3_W) :
    after opsS3 W (no_index (Proc.devRef .tc r)) = W (Proc.devRef .tc r) :=
  after_of_writes_sub opsS3 _ opsS3_writes h

/-- The buffers group `opsP3` writes. -/
abbrev opsP3_W : List (Ref sig .tc) := [main_v84, main_v85, main_v86, main_v87, main_v88, main_v89, main_v90, main_v91, main_v92, main_v93, main_v94, main_v95, main_v96, main_v97, main_v98, main_v99]
set_option maxRecDepth 8192 in
theorem opsP3_writes : (opsP3 : List (HloOp τ sig (Elt F))).Forall fun op => op.writes ⊆ (opsP3_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer group `opsP3` does not write keeps its contents through it. -/
theorem P3_keep (W : Valuation τ sig (Elt F)) (r : Ref sig .tc) (h : r ∉ opsP3_W) :
    after opsP3 W (no_index (Proc.devRef .tc r)) = W (Proc.devRef .tc r) :=
  after_of_writes_sub opsP3 _ opsP3_writes h

/-- The buffers group `opsA3` writes. -/
abbrev opsA3_W : List (Ref sig .tc) := [main_cst_11, main_call4_cst, main_call4_v0, main_call4_v1, main_call4_v2, main_call4_v3, main_call4_v4, main_v100]
set_option maxRecDepth 8192 in
theorem opsA3_writes : (opsA3 : List (HloOp τ sig (Elt F))).Forall fun op => op.writes ⊆ (opsA3_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer group `opsA3` does not write keeps its contents through it. -/
theorem A3_keep (W : Valuation τ sig (Elt F)) (r : Ref sig .tc) (h : r ∉ opsA3_W) :
    after opsA3 W (no_index (Proc.devRef .tc r)) = W (Proc.devRef .tc r) :=
  after_of_writes_sub opsA3 _ opsA3_writes h

/-- The buffers group `opsN3a` writes. -/
abbrev opsN3a_W : List (Ref sig .tc) := [main_call5_v0, main_call5_cst, main_call5_v1, main_call5_v2, main_v101, main_cst_12, main_v102, main_v103, main_v104]
set_option maxRecDepth 8192 in
theorem opsN3a_writes : (opsN3a : List (HloOp τ sig (Elt F))).Forall fun op => op.writes ⊆ (opsN3a_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer group `opsN3a` does not write keeps its contents through it. -/
theorem N3a_keep (W : Valuation τ sig (Elt F)) (r : Ref sig .tc) (h : r ∉ opsN3a_W) :
    after opsN3a W (no_index (Proc.devRef .tc r)) = W (Proc.devRef .tc r) :=
  after_of_writes_sub opsN3a _ opsN3a_writes h

/-- The buffers group `opsN3b` writes. -/
abbrev opsN3b_W : List (Ref sig .tc) := [main_v105]
set_option maxRecDepth 8192 in
theorem opsN3b_writes : (opsN3b : List (HloOp τ sig (Elt F))).Forall fun op => op.writes ⊆ (opsN3b_W.map (Proc.devRef (τ := τ) .tc)).toFinset := by
  simp only [List.Forall]; exact (by simp only [nullary_writes, unary_writes, binary_writes, ternary_writes, quaternary_writes, reshape_writes, nary_writes, Finset.singleton_subset_iff, List.mem_toFinset]; exact List.mem_map_of_mem (by decide))
/-- A buffer group `opsN3b` does not write keeps its contents through it. -/
theorem N3b_keep (W : Valuation τ sig (Elt F)) (r : Ref sig .tc) (h : r ∉ opsN3b_W) :
    after opsN3b W (no_index (Proc.devRef .tc r)) = W (Proc.devRef .tc r) :=
  after_of_writes_sub opsN3b _ opsN3b_writes h

/-- The buffers group `opsT` writes. -/
abbrev opsT_W : List (Ref sig .tc) := [main_v106, main_v107, main_c_13, main_v108, main_v109, main_c_14, main_v110, main_v111, main_v112, main_v113, main_v114, main_v115, main_c_15, main_v116, main_v117, main_c_16, main_v118, main_v119, main_v120, main_v121, main_v122, main_v123, main_v124, main_v125, main_v126, main_v127, main_v128, main_v129, main_v130, main_cst_17, main_v131, main_v132, main_cst_18, main_v133, main_v134]
set_option maxRecDepth 8192 in
theorem opsT_writes : (opsT : List (HloOp τ sig (Elt F))).Forall fun op => op.writes ⊆ (opsT_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer group `opsT` does not write keeps its contents through it. -/
theorem T_keep (W : Valuation τ sig (Elt F)) (r : Ref sig .tc) (h : r ∉ opsT_W) :
    after opsT W (no_index (Proc.devRef .tc r)) = W (Proc.devRef .tc r) :=
  after_of_writes_sub opsT _ opsT_writes h

/-! ## The whole line, group after group -/

/-- The contents after all 186 operations: each group's, from the group before's. -/
theorem after_ops (V : Valuation τ sig (Elt F)) :
    after ops V = after opsT (after opsN3b (after opsN3a (after opsA3 (after opsP3 (after opsS3 (after opsN2 (after opsA2 (after opsP2b (after opsP2a (after opsS2 (after opsN1 (after opsA1 (after opsP1 (after opsS1 (after opsE (V)))))))))))))))) := by
  simp only [ops, after_append]

/-- A buffer no group writes — an argument of @main — is unchanged by the whole line. -/
theorem after_ops_keep (V : Valuation τ sig (Elt F)) (r : Ref sig .tc) (h : r ∉ opsW) :
    after ops V (Proc.devRef .tc r) = V (Proc.devRef .tc r) := by
  rw [after_ops]
  exact (T_keep _ r (fun hm => h ((by decide : ∀ x ∈ opsT_W, x ∈ opsW) r hm))).trans <|
    (N3b_keep _ r (fun hm => h ((by decide : ∀ x ∈ opsN3b_W, x ∈ opsW) r hm))).trans <|
    (N3a_keep _ r (fun hm => h ((by decide : ∀ x ∈ opsN3a_W, x ∈ opsW) r hm))).trans <|
    (A3_keep _ r (fun hm => h ((by decide : ∀ x ∈ opsA3_W, x ∈ opsW) r hm))).trans <|
    (P3_keep _ r (fun hm => h ((by decide : ∀ x ∈ opsP3_W, x ∈ opsW) r hm))).trans <|
    (S3_keep _ r (fun hm => h ((by decide : ∀ x ∈ opsS3_W, x ∈ opsW) r hm))).trans <|
    (N2_keep _ r (fun hm => h ((by decide : ∀ x ∈ opsN2_W, x ∈ opsW) r hm))).trans <|
    (A2_keep _ r (fun hm => h ((by decide : ∀ x ∈ opsA2_W, x ∈ opsW) r hm))).trans <|
    (P2b_keep _ r (fun hm => h ((by decide : ∀ x ∈ opsP2b_W, x ∈ opsW) r hm))).trans <|
    (P2a_keep _ r (fun hm => h ((by decide : ∀ x ∈ opsP2a_W, x ∈ opsW) r hm))).trans <|
    (S2_keep _ r (fun hm => h ((by decide : ∀ x ∈ opsS2_W, x ∈ opsW) r hm))).trans <|
    (N1_keep _ r (fun hm => h ((by decide : ∀ x ∈ opsN1_W, x ∈ opsW) r hm))).trans <|
    (A1_keep _ r (fun hm => h ((by decide : ∀ x ∈ opsA1_W, x ∈ opsW) r hm))).trans <|
    (P1_keep _ r (fun hm => h ((by decide : ∀ x ∈ opsP1_W, x ∈ opsW) r hm))).trans <|
    (S1_keep _ r (fun hm => h ((by decide : ∀ x ∈ opsS1_W, x ∈ opsW) r hm))).trans <|
    (E_keep _ r (fun hm => h ((by decide : ∀ x ∈ opsE_W, x ∈ opsW) r hm)))

/-! ## The run -/

/-- At the compiled mesh, for any float values, from any memory with zero counters: every weakly fair execution of
    @main terminates with the result buffer at the fold of the 186 operations over the launch contents, and the
    thirteen arguments unchanged. -/
theorem run (m : (ℓ : Loc nD τ sig) → Buf (Elt F) ℓ) (g : Dev nD → PrngReg) :
    θ_run defs (onTc (τ := τ) (main (F := F))) ⟨m, fun _ => 0, g⟩ (fun r => ∀ c : Dev nD,
      r.2.mem ((c.tc : Thread nD τ).loc main_v134) = after ops (launchContents m c) (Proc.devRef .tc main_v134)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨h c main_v134,
      (h c main_arg0).trans (after_ops_keep _ main_arg0 (by decide)),
      (h c main_arg1).trans (after_ops_keep _ main_arg1 (by decide)),
      (h c main_arg2).trans (after_ops_keep _ main_arg2 (by decide)),
      (h c main_arg3).trans (after_ops_keep _ main_arg3 (by decide)),
      (h c main_arg4).trans (after_ops_keep _ main_arg4 (by decide)),
      (h c main_arg5).trans (after_ops_keep _ main_arg5 (by decide)),
      (h c main_arg6).trans (after_ops_keep _ main_arg6 (by decide)),
      (h c main_arg7).trans (after_ops_keep _ main_arg7 (by decide)),
      (h c main_arg8).trans (after_ops_keep _ main_arg8 (by decide)),
      (h c main_arg9).trans (after_ops_keep _ main_arg9 (by decide)),
      (h c main_arg10).trans (after_ops_keep _ main_arg10 (by decide)),
      (h c main_arg11).trans (after_ops_keep _ main_arg11 (by decide)),
      (h c main_arg12).trans (after_ops_keep _ main_arg12 (by decide))⟩)
    (run_after m g)

end Cert.ReferenceIdeal.RefRun

end
-- ==== Proof.RefPieces.lean ====
/-
  The reference program's values, group by group, as pure functions of arrays.

  Each function below is the composition of one group's operations, in the program's order and with the program's own
  operation terms, over plain arrays in place of buffers: the embedding table; a layer's neighbourhood sum, its two affine
  maps, its rectifier, its row normalization; the slices of the stacked weights and biases; the readout. Each lemma says
  that after the group's operations, from ANY incoming contents, the group's result buffer holds that function of the
  incoming contents of the buffers the group reads.
-/
import proofs.«162997_j3143916060680_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-! ## The functions -/

/-- The embedding table: the users' rows (`a5`) above the items' rows (`a6`). -/
def refEgo0 (a5 : FVec F S100000x64 .f32) (a6 : FVec F S60000x64 .f32) : FVec F S160000x64 .f32 :=
  ((fun a b => concatenate S160000x64 0 [⟨S100000x64, a⟩, ⟨S60000x64, b⟩] concatenates_S100000x64_S60000x64_S160000x64_d0) : (⟨S100000x64, .f32⟩ : BufTy).Contents (Elt F) → (⟨S60000x64, .f32⟩ : BufTy).Contents (Elt F) → (⟨S160000x64, .f32⟩ : BufTy).Contents (Elt F)) a5 a6

/-- A layer's neighbourhood sum: a column index below zero is wrapped by the table's height; row `cols e` of the table `ego` is gathered for every edge `e`, scaled by the edge's value `vals e`, and added into row `rows e` of a zero table. -/
def refSide (ego : FVec F S160000x64 .f32) (rows : IVec S2000000 32) (cols : IVec S2000000 32) (vals : FVec F S2000000 .f32) : FVec F S160000x64 .f32 :=
  ((fun x i u => Host.scatterAdd scatter_S160000x64_S2000000x1_S2000000x64_1_0_0_1 x i u) : (⟨S160000x64, .f32⟩ : BufTy).Contents (Elt F) → (⟨S2000000x1, .i32⟩ : BufTy).Contents (Elt F) → (⟨S2000000x64, .f32⟩ : BufTy).Contents (Elt F) → (⟨S160000x64, .f32⟩ : BufTy).Contents (Elt F)) ((broadcastInDim S160000x64 ![] bcast_S_S160000x64 : (⟨S_, .f32⟩ : BufTy).Contents (Elt F) → (⟨S160000x64, .f32⟩ : BufTy).Contents (Elt F)) (constant S_ .f32 0x00000000#32)) ((broadcastInDim S2000000x1 ![0] bcast_S2000000_S2000000x1_0 : (⟨S2000000, .i32⟩ : BufTy).Contents (Elt F) → (⟨S2000000x1, .i32⟩ : BufTy).Contents (Elt F)) rows) ((mulf : (⟨S2000000x64, .f32⟩ : BufTy).Contents (Elt F) → (⟨S2000000x64, .f32⟩ : BufTy).Contents (Elt F) → (⟨S2000000x64, .f32⟩ : BufTy).Contents (Elt F)) ((broadcastInDim S2000000x64 ![0, 1] bcast_S2000000x1_S2000000x64_0_1 : (⟨S2000000x1, .f32⟩ : BufTy).Contents (Elt F) → (⟨S2000000x64, .f32⟩ : BufTy).Contents (Elt F)) ((broadcastInDim S2000000x1 ![0] bcast_S2000000_S2000000x1_0 : (⟨S2000000, .f32⟩ : BufTy).Contents (Elt F) → (⟨S2000000x1, .f32⟩ : BufTy).Contents (Elt F)) vals)) (((fun x i => Host.gather gather_S160000x64_S2000000x1_S2000000x64_1_0_n_n_0_1_164 x i) : (⟨S160000x64, .f32⟩ : BufTy).Contents (Elt F) → (⟨S2000000x1, .i32⟩ : BufTy).Contents (Elt F) → (⟨S2000000x64, .f32⟩ : BufTy).Contents (Elt F)) ego ((broadcastInDim S2000000x1 ![0] bcast_S2000000_S2000000x1_0 : (⟨S2000000, .i32⟩ : BufTy).Contents (Elt F) → (⟨S2000000x1, .i32⟩ : BufTy).Contents (Elt F)) ((select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ((cmpi .slt : (⟨S2000000, .i32⟩ : BufTy).Contents (Elt F) → (⟨S2000000, .i32⟩ : BufTy).Contents (Elt F) → (⟨S2000000, .i1⟩ : BufTy).Contents (Elt F)) cols ((broadcastInDim S2000000 ![] bcast_S_S2000000 : (⟨S_, .i32⟩ : BufTy).Contents (Elt F) → (⟨S2000000, .i32⟩ : BufTy).Contents (Elt F)) (constantI S_ 32 0#32))) ((addi : (⟨S2000000, .i32⟩ : BufTy).Contents (Elt F) → (⟨S2000000, .i32⟩ : BufTy).Contents (Elt F) → (⟨S2000000, .i32⟩ : BufTy).Contents (Elt F)) cols ((broadcastInDim S2000000 ![] bcast_S_S2000000 : (⟨S_, .i32⟩ : BufTy).Contents (Elt F) → (⟨S2000000, .i32⟩ : BufTy).Contents (Elt F)) (constantI S_ 32 160000#32))) cols))))

/-- Matrix 0 of a stack of three 64×64 matrices. -/
def refW0 (w : FVec F S3x64x64 .f32) : FVec F S64x64 .f32 :=
  shapeCast S64x64 (((extractStridedSlice S1x64x64 ![0, 0, 0] · slices_S3x64x64_S1x64x64_0_0_0) : (⟨S3x64x64, .f32⟩ : BufTy).Contents (Elt F) → (⟨S1x64x64, .f32⟩ : BufTy).Contents (Elt F)) w) shapeCasts_S1x64x64_S64x64

/-- Row vector 0 of a stack of three 1×64 row vectors. -/
def refB0 (b : FVec F S3x1x64 .f32) : FVec F S1x64 .f32 :=
  shapeCast S1x64 (((extractStridedSlice S1x1x64 ![0, 0, 0] · slices_S3x1x64_S1x1x64_0_0_0) : (⟨S3x1x64, .f32⟩ : BufTy).Contents (Elt F) → (⟨S1x1x64, .f32⟩ : BufTy).Contents (Elt F)) b) shapeCasts_S1x1x64_S1x64

/-- Matrix 1 of a stack of three 64×64 matrices. -/
def refW1 (w : FVec F S3x64x64 .f32) : FVec F S64x64 .f32 :=
  shapeCast S64x64 (((extractStridedSlice S1x64x64 ![1, 0, 0] · slices_S3x64x64_S1x64x64_1_0_0) : (⟨S3x64x64, .f32⟩ : BufTy).Contents (Elt F) → (⟨S1x64x64, .f32⟩ : BufTy).Contents (Elt F)) w) shapeCasts_S1x64x64_S64x64

/-- Row vector 1 of a stack of three 1×64 row vectors. -/
def refB1 (b : FVec F S3x1x64 .f32) : FVec F S1x64 .f32 :=
  shapeCast S1x64 (((extractStridedSlice S1x1x64 ![1, 0, 0] · slices_S3x1x64_S1x1x64_1_0_0) : (⟨S3x1x64, .f32⟩ : BufTy).Contents (Elt F) → (⟨S1x1x64, .f32⟩ : BufTy).Contents (Elt F)) b) shapeCasts_S1x1x64_S1x64

/-- Matrix 2 of a stack of three 64×64 matrices. -/
def refW2 (w : FVec F S3x64x64 .f32) : FVec F S64x64 .f32 :=
  shapeCast S64x64 (((extractStridedSlice S1x64x64 ![2, 0, 0] · slices_S3x64x64_S1x64x64_2_0_0) : (⟨S3x64x64, .f32⟩ : BufTy).Contents (Elt F) → (⟨S1x64x64, .f32⟩ : BufTy).Contents (Elt F)) w) shapeCasts_S1x64x64_S64x64

/-- Row vector 2 of a stack of three 1×64 row vectors. -/
def refB2 (b : FVec F S3x1x64 .f32) : FVec F S1x64 .f32 :=
  shapeCast S1x64 (((extractStridedSlice S1x1x64 ![2, 0, 0] · slices_S3x1x64_S1x1x64_2_0_0) : (⟨S3x1x64, .f32⟩ : BufTy).Contents (Elt F) → (⟨S1x1x64, .f32⟩ : BufTy).Contents (Elt F)) b) shapeCasts_S1x1x64_S1x64

/-- A layer's two affine maps, added: `side · wg + bg` (the bias broadcast over the rows) and `(ego * side) · wb + bb`, the product elementwise. -/
def refPre (ego : FVec F S160000x64 .f32) (side : FVec F S160000x64 .f32) (wg : FVec F S64x64 .f32) (bg : FVec F S1x64 .f32) (wb : FVec F S64x64 .f32) (bb : FVec F S1x64 .f32) : FVec F S160000x64 .f32 :=
  (addf : (⟨S160000x64, .f32⟩ : BufTy).Contents (Elt F) → (⟨S160000x64, .f32⟩ : BufTy).Contents (Elt F) → (⟨S160000x64, .f32⟩ : BufTy).Contents (Elt F)) ((addf : (⟨S160000x64, .f32⟩ : BufTy).Contents (Elt F) → (⟨S160000x64, .f32⟩ : BufTy).Contents (Elt F) → (⟨S160000x64, .f32⟩ : BufTy).Contents (Elt F)) (((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)) side wg) ((broadcastInDim S160000x64 ![0, 1] bcast_S1x64_S160000x64_0_1 : (⟨S1x64, .f32⟩ : BufTy).Contents (Elt F) → (⟨S160000x64, .f32⟩ : BufTy).Contents (Elt F)) bg)) ((addf : (⟨S160000x64, .f32⟩ : BufTy).Contents (Elt F) → (⟨S160000x64, .f32⟩ : BufTy).Contents (Elt F) → (⟨S160000x64, .f32⟩ : BufTy).Contents (Elt F)) (((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)) ((mulf : (⟨S160000x64, .f32⟩ : BufTy).Contents (Elt F) → (⟨S160000x64, .f32⟩ : BufTy).Contents (Elt F) → (⟨S160000x64, .f32⟩ : BufTy).Contents (Elt F)) ego side) wb) ((broadcastInDim S160000x64 ![0, 1] bcast_S1x64_S160000x64_0_1 : (⟨S1x64, .f32⟩ : BufTy).Contents (Elt F) → (⟨S160000x64, .f32⟩ : BufTy).Contents (Elt F)) bb))

/-- The leaky rectifier with slope 0.2: `x` where `x ≥ 0`, else `0.2 * x`. -/
def refAct (x : FVec F S160000x64 .f32) : FVec F S160000x64 .f32 :=
  (select : (⟨S160000x64, .i1⟩ : BufTy).Contents (Elt F) → (⟨S160000x64, .f32⟩ : BufTy).Contents (Elt F) → (⟨S160000x64, .f32⟩ : BufTy).Contents (Elt F) → (⟨S160000x64, .f32⟩ : BufTy).Contents (Elt F)) ((cmpf .oge : (⟨S160000x64, .f32⟩ : BufTy).Contents (Elt F) → (⟨S160000x64, .f32⟩ : BufTy).Contents (Elt F) → (⟨S160000x64, .i1⟩ : BufTy).Contents (Elt F)) x ((broadcastInDim S160000x64 ![] bcast_S_S160000x64 : (⟨S_, .f32⟩ : BufTy).Contents (Elt F) → (⟨S160000x64, .f32⟩ : BufTy).Contents (Elt F)) (constant S_ .f32 0x00000000#32))) x ((mulf : (⟨S160000x64, .f32⟩ : BufTy).Contents (Elt F) → (⟨S160000x64, .f32⟩ : BufTy).Contents (Elt F) → (⟨S160000x64, .f32⟩ : BufTy).Contents (Elt F)) ((broadcastInDim S160000x64 ![] bcast_S_S160000x64 : (⟨S_, .f32⟩ : BufTy).Contents (Elt F) → (⟨S160000x64, .f32⟩ : BufTy).Contents (Elt F)) ((id : (⟨S_, .f32⟩ : BufTy).Contents (Elt F) → (⟨S_, .f32⟩ : BufTy).Contents (Elt F)) (constant S_ .f32 0x3E4CCCCD#32))) x)

/-- Each row divided by its Euclidean norm (the square root of the sum of the row's squares), the norm bounded below by 1e-12. -/
def refNormed (a : FVec F S160000x64 .f32) : FVec F S160000x64 .f32 :=
  (Host.divf : (⟨S160000x64, .f32⟩ : BufTy).Contents (Elt F) → (⟨S160000x64, .f32⟩ : BufTy).Contents (Elt F) → (⟨S160000x64, .f32⟩ : BufTy).Contents (Elt F)) a ((broadcastInDim S160000x64 ![0, 1] bcast_S160000x1_S160000x64_0_1 : (⟨S160000x1, .f32⟩ : BufTy).Contents (Elt F) → (⟨S160000x64, .f32⟩ : BufTy).Contents (Elt F)) ((maximumf : (⟨S160000x1, .f32⟩ : BufTy).Contents (Elt F) → (⟨S160000x1, .f32⟩ : BufTy).Contents (Elt F) → (⟨S160000x1, .f32⟩ : BufTy).Contents (Elt F)) ((Host.sqrt : (⟨S160000x1, .f32⟩ : BufTy).Contents (Elt F) → (⟨S160000x1, .f32⟩ : BufTy).Contents (Elt F)) ((broadcastInDim S160000x1 ![0] bcast_S160000_S160000x1_0 : (⟨S160000, .f32⟩ : BufTy).Contents (Elt F) → (⟨S160000x1, .f32⟩ : BufTy).Contents (Elt F)) (((fun x v => Host.reduceAdd x v reducesTo_S160000x64_S160000_d1 h_S_) : (⟨S160000x64, .f32⟩ : BufTy).Contents (Elt F) → (⟨S_, .f32⟩ : BufTy).Contents (Elt F) → (⟨S160000, .f32⟩ : BufTy).Contents (Elt F)) ((mulf : (⟨S160000x64, .f32⟩ : BufTy).Contents (Elt F) → (⟨S160000x64, .f32⟩ : BufTy).Contents (Elt F) → (⟨S160000x64, .f32⟩ : BufTy).Contents (Elt F)) a a) (constant S_ .f32 0x00000000#32)))) ((broadcastInDim S160000x1 ![] bcast_S_S160000x1 : (⟨S_, .f32⟩ : BufTy).Contents (Elt F) → (⟨S160000x1, .f32⟩ : BufTy).Contents (Elt F)) (constant S_ .f32 0x2B8CBCCC#32))))

/-- The readout: the four tables side by side (256 columns); row `users i` of its first 100000 rows and row `items i` of its last 60000 rows (an index below zero wrapped by that height), multiplied elementwise, times the column `pw`, plus the bias `pb`; then the logistic function `1 / (1 + exp (-·))`. -/
def refTail (e0 : FVec F S160000x64 .f32) (n1 : FVec F S160000x64 .f32) (n2 : FVec F S160000x64 .f32) (n3 : FVec F S160000x64 .f32) (users : IVec S16384 32) (items : IVec S16384 32) (pw : FVec F S256x1 .f32) (pb : FVec F S1 .f32) : FVec F S16384 .f32 :=
  (Host.divf : (⟨S16384, .f32⟩ : BufTy).Contents (Elt F) → (⟨S16384, .f32⟩ : BufTy).Contents (Elt F) → (⟨S16384, .f32⟩ : BufTy).Contents (Elt F)) ((broadcastInDim S16384 ![] bcast_S_S16384 : (⟨S_, .f32⟩ : BufTy).Contents (Elt F) → (⟨S16384, .f32⟩ : BufTy).Contents (Elt F)) (constant S_ .f32 0x3F800000#32)) ((addf : (⟨S16384, .f32⟩ : BufTy).Contents (Elt F) → (⟨S16384, .f32⟩ : BufTy).Contents (Elt F) → (⟨S16384, .f32⟩ : BufTy).Contents (Elt F)) ((broadcastInDim S16384 ![] bcast_S_S16384 : (⟨S_, .f32⟩ : BufTy).Contents (Elt F) → (⟨S16384, .f32⟩ : BufTy).Contents (Elt F)) (constant S_ .f32 0x3F800000#32)) ((Host.exp : (⟨S16384, .f32⟩ : BufTy).Contents (Elt F) → (⟨S16384, .f32⟩ : BufTy).Contents (Elt F)) ((Host.negf : (⟨S16384, .f32⟩ : BufTy).Contents (Elt F) → (⟨S16384, .f32⟩ : BufTy).Contents (Elt F)) (shapeCast S16384 ((addf : (⟨S16384x1, .f32⟩ : BufTy).Contents (Elt F) → (⟨S16384x1, .f32⟩ : BufTy).Contents (Elt F) → (⟨S16384x1, .f32⟩ : BufTy).Contents (Elt F)) (((fun l r => Host.dotGeneral dot_S16384x256_S256x1_S16384x1_1_0_0_1_n_n none l r) : (⟨S16384x256, .f32⟩ : BufTy).Contents (Elt F) → (⟨S256x1, .f32⟩ : BufTy).Contents (Elt F) → (⟨S16384x1, .f32⟩ : BufTy).Contents (Elt F)) ((mulf : (⟨S16384x256, .f32⟩ : BufTy).Contents (Elt F) → (⟨S16384x256, .f32⟩ : BufTy).Contents (Elt F) → (⟨S16384x256, .f32⟩ : BufTy).Contents (Elt F)) (((fun x i => Host.gather gather_S100000x256_S16384x1_S16384x256_1_0_n_n_0_1_1256 x i) : (⟨S100000x256, .f32⟩ : BufTy).Contents (Elt F) → (⟨S16384x1, .i32⟩ : BufTy).Contents (Elt F) → (⟨S16384x256, .f32⟩ : BufTy).Contents (Elt F)) (((extractStridedSlice S100000x256 ![0, 0] · slices_S160000x256_S100000x256_0_0) : (⟨S160000x256, .f32⟩ : BufTy).Contents (Elt F) → (⟨S100000x256, .f32⟩ : BufTy).Contents (Elt F)) (concatenate S160000x256 1 [⟨S160000x64, e0⟩, ⟨S160000x64, n1⟩, ⟨S160000x64, n2⟩, ⟨S160000x64, n3⟩] concatenates_S160000x64_S160000x64_S160000x64_S160000x64_S160000x256_d1)) ((broadcastInDim S16384x1 ![0] bcast_S16384_S16384x1_0 : (⟨S16384, .i32⟩ : BufTy).Contents (Elt F) → (⟨S16384x1, .i32⟩ : BufTy).Contents (Elt F)) ((select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) ((cmpi .slt : (⟨S16384, .i32⟩ : BufTy).Contents (Elt F) → (⟨S16384, .i32⟩ : BufTy).Contents (Elt F) → (⟨S16384, .i1⟩ : BufTy).Contents (Elt F)) users ((broadcastInDim S16384 ![] bcast_S_S16384 : (⟨S_, .i32⟩ : BufTy).Contents (Elt F) → (⟨S16384, .i32⟩ : BufTy).Contents (Elt F)) (constantI S_ 32 0#32))) ((addi : (⟨S16384, .i32⟩ : BufTy).Contents (Elt F) → (⟨S16384, .i32⟩ : BufTy).Contents (Elt F) → (⟨S16384, .i32⟩ : BufTy).Contents (Elt F)) users ((broadcastInDim S16384 ![] bcast_S_S16384 : (⟨S_, .i32⟩ : BufTy).Contents (Elt F) → (⟨S16384, .i32⟩ : BufTy).Contents (Elt F)) (constantI S_ 32 100000#32))) users))) (((fun x i => Host.gather gather_S60000x256_S16384x1_S16384x256_1_0_n_n_0_1_1256 x i) : (⟨S60000x256, .f32⟩ : BufTy).Contents (Elt F) → (⟨S16384x1, .i32⟩ : BufTy).Contents (Elt F) → (⟨S16384x256, .f32⟩ : BufTy).Contents (Elt F)) (((extractStridedSlice S60000x256 ![100000, 0] · slices_S160000x256_S60000x256_100000_0) : (⟨S160000x256, .f32⟩ : BufTy).Contents (Elt F) → (⟨S60000x256, .f32⟩ : BufTy).Contents (Elt F)) (concatenate S160000x256 1 [⟨S160000x64, e0⟩, ⟨S160000x64, n1⟩, ⟨S160000x64, n2⟩, ⟨S160000x64, n3⟩] concatenates_S160000x64_S160000x64_S160000x64_S160000x64_S160000x256_d1)) ((broadcastInDim S16384x1 ![0] bcast_S16384_S16384x1_0 : (⟨S16384, .i32⟩ : BufTy).Contents (Elt F) → (⟨S16384x1, .i32⟩ : BufTy).Contents (Elt F)) ((select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) ((cmpi .slt : (⟨S16384, .i32⟩ : BufTy).Contents (Elt F) → (⟨S16384, .i32⟩ : BufTy).Contents (Elt F) → (⟨S16384, .i1⟩ : BufTy).Contents (Elt F)) items ((broadcastInDim S16384 ![] bcast_S_S16384 : (⟨S_, .i32⟩ : BufTy).Contents (Elt F) → (⟨S16384, .i32⟩ : BufTy).Contents (Elt F)) (constantI S_ 32 0#32))) ((addi : (⟨S16384, .i32⟩ : BufTy).Contents (Elt F) → (⟨S16384, .i32⟩ : BufTy).Contents (Elt F) → (⟨S16384, .i32⟩ : BufTy).Contents (Elt F)) items ((broadcastInDim S16384 ![] bcast_S_S16384 : (⟨S_, .i32⟩ : BufTy).Contents (Elt F) → (⟨S16384, .i32⟩ : BufTy).Contents (Elt F)) (constantI S_ 32 60000#32))) items)))) pw) ((broadcastInDim S16384x1 ![0, 1] bcast_S1x1_S16384x1_0_1 : (⟨S1x1, .f32⟩ : BufTy).Contents (Elt F) → (⟨S16384x1, .f32⟩ : BufTy).Contents (Elt F)) ((broadcastInDim S1x1 ![1] bcast_S1_S1x1_1 : (⟨S1, .f32⟩ : BufTy).Contents (Elt F) → (⟨S1x1, .f32⟩ : BufTy).Contents (Elt F)) pb))) shapeCasts_S16384x1_S16384))))

/-- One layer: the rectified affine maps of the table and its neighbourhood sum. -/
def refLayer (ego : FVec F S160000x64 .f32) (rows cols : IVec S2000000 32) (vals : FVec F S2000000 .f32)
    (wg : FVec F S64x64 .f32) (bg : FVec F S1x64 .f32) (wb : FVec F S64x64 .f32) (bb : FVec F S1x64 .f32) : FVec F S160000x64 .f32 :=
  refAct (refPre ego (refSide ego rows cols vals) wg bg wb bb)

/-- The table after one, two and three layers (each layer reads the rectified table before it, not the normalized one). -/
def refE1 (a0 : IVec S16384 32) (a1 : IVec S16384 32) (a2 : IVec S2000000 32) (a3 : IVec S2000000 32) (a4 : FVec F S2000000 .f32) (a5 : FVec F S100000x64 .f32) (a6 : FVec F S60000x64 .f32) (a7 : FVec F S3x64x64 .f32) (a8 : FVec F S3x1x64 .f32) (a9 : FVec F S3x64x64 .f32) (a10 : FVec F S3x1x64 .f32) (a11 : FVec F S256x1 .f32) (a12 : FVec F S1 .f32) : FVec F S160000x64 .f32 :=
  refLayer (refEgo0 a5 a6) a2 a3 a4 (refW0 a7) (refB0 a8) (refW0 a9) (refB0 a10)
@[inherit_doc refE1]
def refE2 (a0 : IVec S16384 32) (a1 : IVec S16384 32) (a2 : IVec S2000000 32) (a3 : IVec S2000000 32) (a4 : FVec F S2000000 .f32) (a5 : FVec F S100000x64 .f32) (a6 : FVec F S60000x64 .f32) (a7 : FVec F S3x64x64 .f32) (a8 : FVec F S3x1x64 .f32) (a9 : FVec F S3x64x64 .f32) (a10 : FVec F S3x1x64 .f32) (a11 : FVec F S256x1 .f32) (a12 : FVec F S1 .f32) : FVec F S160000x64 .f32 :=
  refLayer (refE1 a0 a1 a2 a3 a4 a5 a6 a7 a8 a9 a10 a11 a12) a2 a3 a4 (refW1 a7) (refB1 a8) (refW1 a9) (refB1 a10)
@[inherit_doc refE1]
def refE3 (a0 : IVec S16384 32) (a1 : IVec S16384 32) (a2 : IVec S2000000 32) (a3 : IVec S2000000 32) (a4 : FVec F S2000000 .f32) (a5 : FVec F S100000x64 .f32) (a6 : FVec F S60000x64 .f32) (a7 : FVec F S3x64x64 .f32) (a8 : FVec F S3x1x64 .f32) (a9 : FVec F S3x64x64 .f32) (a10 : FVec F S3x1x64 .f32) (a11 : FVec F S256x1 .f32) (a12 : FVec F S1 .f32) : FVec F S160000x64 .f32 :=
  refLayer (refE2 a0 a1 a2 a3 a4 a5 a6 a7 a8 a9 a10 a11 a12) a2 a3 a4 (refW2 a7) (refB2 a8) (refW2 a9) (refB2 a10)

/-- The reference's result as a function of its thirteen arguments: the readout of the embedding table and the three
    layers' tables, each normalized row by row. -/
def refResult (a0 : IVec S16384 32) (a1 : IVec S16384 32) (a2 : IVec S2000000 32) (a3 : IVec S2000000 32) (a4 : FVec F S2000000 .f32) (a5 : FVec F S100000x64 .f32) (a6 : FVec F S60000x64 .f32) (a7 : FVec F S3x64x64 .f32) (a8 : FVec F S3x1x64 .f32) (a9 : FVec F S3x64x64 .f32) (a10 : FVec F S3x1x64 .f32) (a11 : FVec F S256x1 .f32) (a12 : FVec F S1 .f32) : FVec F S16384 .f32 :=
  refTail (refEgo0 a5 a6) (refNormed (refE1 a0 a1 a2 a3 a4 a5 a6 a7 a8 a9 a10 a11 a12)) (refNormed (refE2 a0 a1 a2 a3 a4 a5 a6 a7 a8 a9 a10 a11 a12)) (refNormed (refE3 a0 a1 a2 a3 a4 a5 a6 a7 a8 a9 a10 a11 a12)) a0 a1 a11 a12

/-! ## Each group's result, from any incoming contents -/

set_option maxRecDepth 8192 in
set_option maxHeartbeats 4000000 in
/-- The embedding table. -/
theorem E_v0 (W : Valuation τ sig (Elt F)) :
    after opsE W (no_index (Proc.devRef .tc main_v0)) =
      refEgo0 (W (Proc.devRef .tc main_arg5)) (W (Proc.devRef .tc main_arg6)) := by
  simp only [opsE]
  after_results_simp <;> rfl

set_option maxRecDepth 8192 in
set_option maxHeartbeats 4000000 in
/-- Layer 1's neighbourhood sum: scattered by the row indices (argument 2), gathered by the column indices (argument 3). -/
theorem S1_side (W : Valuation τ sig (Elt F)) :
    after opsS1 W (no_index (Proc.devRef .tc main_v13)) =
      refSide (W (Proc.devRef .tc main_v0)) (W (Proc.devRef .tc main_arg2)) (W (Proc.devRef .tc main_arg3)) (W (Proc.devRef .tc main_arg4)) := by
  simp only [opsS1]
  after_results_simp <;> rfl

set_option maxRecDepth 8192 in
set_option maxHeartbeats 4000000 in
/-- Layer 1's affine maps, at slice 0 of the stacked weights and biases. -/
theorem P1_pre (W : Valuation τ sig (Elt F)) :
    after opsP1 W (no_index (Proc.devRef .tc main_v29)) =
      refPre (W (Proc.devRef .tc main_v0)) (W (Proc.devRef .tc main_v13)) (refW0 (W (Proc.devRef .tc main_arg7))) (refB0 (W (Proc.devRef .tc main_arg8))) (refW0 (W (Proc.devRef .tc main_arg9))) (refB0 (W (Proc.devRef .tc main_arg10))) := by
  simp only [opsP1]
  after_results_simp <;> rfl

set_option maxRecDepth 8192 in
set_option maxHeartbeats 4000000 in
/-- Layer 1's rectifier. -/
theorem A1_act (W : Valuation τ sig (Elt F)) :
    after opsA1 W (no_index (Proc.devRef .tc main_v30)) =
      refAct (W (Proc.devRef .tc main_v29)) := by
  simp only [opsA1]
  after_results_simp <;> rfl

set_option maxRecDepth 8192 in
set_option maxHeartbeats 4000000 in
/-- Layer 1's row normalization. -/
theorem N1_nrm (W : Valuation τ sig (Elt F)) :
    after opsN1 W (no_index (Proc.devRef .tc main_v35)) =
      refNormed (W (Proc.devRef .tc main_v30)) := by
  simp only [opsN1]
  after_results_simp <;> rfl

set_option maxRecDepth 8192 in
set_option maxHeartbeats 4000000 in
/-- Layer 2's neighbourhood sum: scattered by the row indices (argument 2), gathered by the column indices (argument 3). -/
theorem S2_side (W : Valuation τ sig (Elt F)) :
    after opsS2 W (no_index (Proc.devRef .tc main_v48)) =
      refSide (W (Proc.devRef .tc main_v30)) (W (Proc.devRef .tc main_arg2)) (W (Proc.devRef .tc main_arg3)) (W (Proc.devRef .tc main_arg4)) := by
  simp only [opsS2]
  after_results_simp <;> rfl

set_option maxRecDepth 8192 in
set_option maxHeartbeats 4000000 in
/-- Layer 2's affine maps, at slice 1 of the stacked weights and biases. -/
theorem P2_pre (W : Valuation τ sig (Elt F)) :
    after opsP2b (after opsP2a W) (no_index (Proc.devRef .tc main_v64)) =
      refPre (W (Proc.devRef .tc main_v30)) (W (Proc.devRef .tc main_v48)) (refW1 (W (Proc.devRef .tc main_arg7))) (refB1 (W (Proc.devRef .tc main_arg8))) (refW1 (W (Proc.devRef .tc main_arg9))) (refB1 (W (Proc.devRef .tc main_arg10))) := by
  simp only [opsP2a, opsP2b]
  after_results_simp <;> rfl

set_option maxRecDepth 8192 in
set_option maxHeartbeats 4000000 in
/-- Layer 2's rectifier. -/
theorem A2_act (W : Valuation τ sig (Elt F)) :
    after opsA2 W (no_index (Proc.devRef .tc main_v65)) =
      refAct (W (Proc.devRef .tc main_v64)) := by
  simp only [opsA2]
  after_results_simp <;> rfl

set_option maxRecDepth 8192 in
set_option maxHeartbeats 4000000 in
/-- Layer 2's row normalization. -/
theorem N2_nrm (W : Valuation τ sig (Elt F)) :
    after opsN2 W (no_index (Proc.devRef .tc main_v70)) =
      refNormed (W (Proc.devRef .tc main_v65)) := by
  simp only [opsN2]
  after_results_simp <;> rfl

set_option maxRecDepth 8192 in
set_option maxHeartbeats 4000000 in
/-- Layer 3's neighbourhood sum: scattered by the row indices (argument 2), gathered by the column indices (argument 3). -/
theorem S3_side (W : Valuation τ sig (Elt F)) :
    after opsS3 W (no_index (Proc.devRef .tc main_v83)) =
      refSide (W (Proc.devRef .tc main_v65)) (W (Proc.devRef .tc main_arg2)) (W (Proc.devRef .tc main_arg3)) (W (Proc.devRef .tc main_arg4)) := by
  simp only [opsS3]
  after_results_simp <;> rfl

set_option maxRecDepth 8192 in
set_option maxHeartbeats 4000000 in
/-- Layer 3's affine maps, at slice 2 of the stacked weights and biases. -/
theorem P3_pre (W : Valuation τ sig (Elt F)) :
    after opsP3 W (no_index (Proc.devRef .tc main_v99)) =
      refPre (W (Proc.devRef .tc main_v65)) (W (Proc.devRef .tc main_v83)) (refW2 (W (Proc.devRef .tc main_arg7))) (refB2 (W (Proc.devRef .tc main_arg8))) (refW2 (W (Proc.devRef .tc main_arg9))) (refB2 (W (Proc.devRef .tc main_arg10))) := by
  simp only [opsP3]
  after_results_simp <;> rfl

set_option maxRecDepth 8192 in
set_option maxHeartbeats 4000000 in
/-- Layer 3's rectifier. -/
theorem A3_act (W : Valuation τ sig (Elt F)) :
    after opsA3 W (no_index (Proc.devRef .tc main_v100)) =
      refAct (W (Proc.devRef .tc main_v99)) := by
  simp only [opsA3]
  after_results_simp <;> rfl

set_option maxRecDepth 8192 in
set_option maxHeartbeats 4000000 in
/-- Layer 3's row normalization. -/
theorem N3_nrm (W : Valuation τ sig (Elt F)) :
    after opsN3b (after opsN3a W) (no_index (Proc.devRef .tc main_v105)) =
      refNormed (W (Proc.devRef .tc main_v100)) := by
  simp only [opsN3a, opsN3b]
  after_results_simp <;> rfl

set_option maxRecDepth 8192 in
set_option maxHeartbeats 4000000 in
/-- The readout. -/
theorem T_out (W : Valuation τ sig (Elt F)) :
    after opsT W (no_index (Proc.devRef .tc main_v134)) =
      refTail (W (Proc.devRef .tc main_v0)) (W (Proc.devRef .tc main_v35)) (W (Proc.devRef .tc main_v70)) (W (Proc.devRef .tc main_v105)) (W (Proc.devRef .tc main_arg0)) (W (Proc.devRef .tc main_arg1)) (W (Proc.devRef .tc main_arg11)) (W (Proc.devRef .tc main_arg12)) := by
  simp only [opsT]
  after_results_simp <;> rfl

end Cert.ReferenceIdeal.RefRun

end
-- ==== Proof.RefValue.lean ====
/-
  The reference program's result as a function of its arguments.

  The contents after the 186 operations are the sixteen groups' contents, each from the one before. Read at the result
  buffer: the readout of four tables; each table is read back through the groups that do not write it to the group
  that does, whose value is a function of the tables before it; and so on down to the arguments, which no group
  writes. What is left is the composition `refResult` of the groups' functions at the arguments' launch contents.
-/
import proofs.«162997_j3143916060680_1_alg».proof.Proof.RefRun
import proofs.«162997_j3143916060680_1_alg».proof.Proof.RefPieces

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
open Cert.LibAfterAppend

set_option maxRecDepth 8192 in
set_option maxHeartbeats 8000000 in
/-- The fold of the 186 operations at the result buffer is `refResult` of the arguments' contents. -/
theorem result_eq (V : Valuation τ sig (Elt F)) :
    after ops V (Proc.devRef .tc main_v134) =
      refResult (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_ops]
  simp (disch := decide) only [E_v0, S1_side, P1_pre, A1_act, N1_nrm, S2_side, P2_pre, A2_act, N2_nrm, S3_side, P3_pre, A3_act, N3_nrm, T_out,
    E_keep, S1_keep, P1_keep, A1_keep, N1_keep, S2_keep, P2a_keep, P2b_keep, A2_keep, N2_keep, S3_keep, P3_keep, A3_keep, N3a_keep, N3b_keep, T_keep,
    refResult, refE3, refE2, refE1, refLayer]

/-- At the compiled mesh, for any float values, from any memory with zero counters: every weakly fair execution of
    @main terminates with the result buffer at `refResult` of the arguments' launch contents, and the thirteen
    arguments unchanged. -/
theorem run' (m : (ℓ : Loc nD τ sig) → Buf (Elt F) ℓ) (g : Dev nD → PrngReg) :
    θ_run defs (onTc (τ := τ) (main (F := F))) ⟨m, fun _ => 0, g⟩ (fun r => ∀ c : Dev nD,
      r.2.mem ((c.tc : Thread nD τ).loc main_v134) =
        refResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1.trans (result_eq _), (h c).2⟩) (run m g)

end Cert.ReferenceIdeal.RefRun

end
-- ==== Proof.LibHostDotIx.lean ====
/-
  The host's general dot product of two matrices, read at one entry.

  For an `M × K` matrix `A` and a `K × N` matrix `B` whose product contracts the second axis of `A` with the first
  axis of `B` (no batch axis), the entry `(a, b)` of the product is the sum over the contracted coordinate `c` of
  `A (a, c) * B (c, b)`. Stated over the extended reals, for any extents and for any proof that the dimension numbers
  are well formed, so that it applies to every record with these dimension numbers.
-/
import Idealize.ShloMosaic.Lib.ValueIdx
import Idealize.ShloMosaic.PureOps.Ideal.Laws

noncomputable section

open scoped BigOperators

namespace Cert.LibHostDotIx

open Idealize.ShloMosaic Idealize.ShloMosaic.ValueIdx

/-- The host's product of an `M × K` by a `K × N` matrix at entry `(a, b)`: the sum over the contracted coordinate of
    the products of the entries `A (a, c)` and `B (c, b)`. The contraction index has one axis, of extent `K`; the sum
    over it is re-indexed by that axis's coordinate, and the two operand indices are read coordinate by coordinate. -/
theorem dotGeneral_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (F := Ideal) (⟨[1], [0], [0], [1], [], [], w⟩ : DotDims _ _ _) prec A B (ix2 a b)
      = ∑ c : Fin K, A (ix2 a c) * B (ix2 c b) := by
  simp only [Host.dotGeneral]
  rw [Ideal.dotGeneral_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDotIx

end
-- ==== Proof.LibHostRows.lean ====
/-
  Host operations of a small dense network read at one index, over the extended reals.

  The general dot product contracting the last axis of a matrix with the last axis of a second matrix, or of a
  rank-3 array, is at each result index the sum over the contracted coordinate of the products of the two entries.
  The host's sum and maximum over the columns of a matrix are the finite sum and the fold of the maximum over the
  column coordinate. A broadcast reads the operand at the coordinates it keeps. A slice of one leading block
  followed by the cast that forgets the unit axis reads the array at that block.
-/
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Cert.RefOps

open Idealize.ShloMosaic Idealize.ShloMosaic.ValueIdx

/-! ## Dot products contracting the last axes -/

/-- An M × K matrix against an N × K matrix, contracting both second axes: entry (a, b) is the sum over c of
    A (a, c) * B (b, c). -/
theorem dotGeneral_rows_apply {M K N : ℕ} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (F := Ideal) (⟨[1], [1], [0], [0], [], [], w⟩ : DotDims _ _ _) prec A B (ix2 a b)
      = ∑ c : Fin K, A (ix2 a c) * B (ix2 b c) := by
  simp only [Host.dotGeneral]
  rw [Ideal.dotGeneral_apply,
    ← Equiv.sum_comp (contrEquiv1 (⟨[1], [1], [0], [0], [], [], w⟩ : DotDims _ _ _) K rfl rfl).symm]
  refine Finset.sum_congr rfl fun c _ => ?_
  have c2 := contrEquiv1_symm_val
    (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- An M × K matrix against an N × J × K array, contracting the matrix's second axis with the array's last:
    entry (a, e, r) is the sum over c of A (a, c) * B (e, r, c). -/
theorem dotGeneral_rows3_apply {M K N J : ℕ} {φ₁ φ₂ : FTy}
    (w : DotDims.WF ⟨2, ![M, K]⟩ ⟨3, ![N, J, K]⟩ ⟨3, ![M, N, J]⟩ [1] [2] [0] [0, 1] [] [])
    (prec : Option ContractPrecision) (A : FVec Ideal ⟨2, ![M, K]⟩ φ₁) (B : FVec Ideal ⟨3, ![N, J, K]⟩ φ₂)
    (a : Fin M) (e : Fin N) (r : Fin J) :
    Host.dotGeneral (F := Ideal) (⟨[1], [2], [0], [0, 1], [], [], w⟩ : DotDims _ _ _) prec A B (ix3 a e r)
      = ∑ c : Fin K, A (ix2 a c) * B (ix3 e r c) := by
  simp only [Host.dotGeneral]
  rw [Ideal.dotGeneral_apply,
    ← Equiv.sum_comp (contrEquiv1 (⟨[1], [2], [0], [0, 1], [], [], w⟩ : DotDims _ _ _) K rfl rfl).symm]
  refine Finset.sum_congr rfl fun c _ => ?_
  have c2 := contrEquiv1_symm_val
    (⟨[1], [2], [0], [0, 1], [], [], w⟩ : DotDims ⟨2, ![M, K]⟩ ⟨3, ![N, J, K]⟩ ⟨3, ![M, N, J]⟩) K rfl rfl c
  have l2 : (⟨[1], [2], [0], [0, 1], [], [], w⟩ : DotDims ⟨2, ![M, K]⟩ ⟨3, ![N, J, K]⟩ ⟨3, ![M, N, J]⟩).lhsIdx (ix3 a e r)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [2], [0], [0, 1], [], [], w⟩ : DotDims ⟨2, ![M, K]⟩ ⟨3, ![N, J, K]⟩ ⟨3, ![M, N, J]⟩).rhsIdx (ix3 a e r)
      ((contrEquiv1 _ K rfl rfl).symm c) = ix3 e r c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c2
  rw [l2, r2]

/-! ## Reductions over the columns of a matrix -/

/-- The reduced index a of [N] with k inserted on the dropped second axis is (a, k). -/
theorem lift_cols {N K : Nat} (h : (⟨2, ![N, K]⟩ : Shape).Reduces [1] ⟨1, ![N]⟩) (a : Fin N) (k : Fin K) :
    h.lift (ix1 a) k = ix2 a k := by
  funext b; refine Fin.ext ?_
  match b with
  | ⟨0, _⟩ => rfl
  | ⟨1, _⟩ => rfl

/-- The host's sum over the columns of [N, K] from the initial value 0, read at row a: the sum over k of the
    matrix at (a, k). -/
theorem hostReduceAdd_cols_apply {N K : Nat} {u : Shape} (x : FVec Ideal ⟨2, ![N, K]⟩ .f32)
    (h' : (⟨2, ![N, K]⟩ : Shape).ReducesTo [1] ⟨1, ![N]⟩) (hu : 0 < u.numel) (a : Fin N) :
    Host.reduceAdd (F := Ideal) x (constant (F := Ideal) u .f32 0x00000000#32) h' hu (ix1 a)
      = ∑ k : Fin K, x (ix2 a k) := by
  have h : (⟨2, ![N, K]⟩ : Shape).Reduces [1] ⟨1, ![N]⟩ := ⟨h'.1, Nat.zero_lt_one, h'.2⟩
  show Ideal.hostReduceAdd h' x (Ideal.ofBits .f32 0x00000000#32) (ix1 a) = _
  rw [Ideal.hostReduceAdd_single h' h x _ (ix1 a), Ideal.ofBits_zero_f32, zero_add]
  exact Finset.sum_congr rfl fun k _ => congrArg x (lift_cols h a k)

/-- The host's maximum over the columns of [N, K] from a constant initial value, read at row a: the fold of the
    maximum from that value over k of the matrix at (a, k). -/
theorem hostReduce_max_cols_apply {N K : Nat} {u : Shape} (x : FVec Ideal ⟨2, ![N, K]⟩ .f32) (bits : BitVec 32)
    (h' : (⟨2, ![N, K]⟩ : Shape).ReducesTo [1] ⟨1, ![N]⟩) (hu : 0 < u.numel) (a : Fin N) :
    Host.reduce FloatOps.maximumf x (constant (F := Ideal) u .f32 bits) h' hu (ix1 a)
      = (Finset.univ : Finset (Fin K)).fold max (Ideal.ofBits .f32 bits) (fun k => x (ix2 a k)) := by
  have h : (⟨2, ![N, K]⟩ : Shape).Reduces [1] ⟨1, ![N]⟩ := ⟨h'.1, Nat.zero_lt_one, h'.2⟩
  rw [Host.reduce_eq_fold_single FloatOps.maximumf x _ h' h hu]
  exact congrArg ((Finset.univ : Finset (Fin K)).fold max (Ideal.ofBits .f32 bits))
    (funext fun k => congrArg x (lift_cols h a k))

/-! ## Broadcasts -/

section Broadcast
variable {α : Type}

/-- A column [R, 1] broadcast along both axes of [R, C], read at (p, c): the column's entry of row p. -/
theorem broadcastInDim_col_mat_apply {R C : Nat} (x : (⟨2, ![R, 1]⟩ : Shape).Idx → α)
    (h : (⟨2, ![R, 1]⟩ : Shape).BroadcastsInDim ⟨2, ![R, C]⟩ ![0, 1]) (p : Fin R) (c : Fin C) :
    broadcastInDim ⟨2, ![R, C]⟩ ![0, 1] h x (ix2 p c) = x (ix2 p 0) :=
  broadcastInDim_apply _ h x (ix2 p c) (ix2 p 0) (fun a => match a with
    | ⟨0, _⟩ => by
      show p.val = if R = 1 then 0 else p.val
      have := p.isLt
      split <;> omega
    | ⟨1, _⟩ => rfl)

/-- A vector [R] broadcast along axis 0 of [R, 1], read at (e, z): the vector at e. -/
theorem broadcastInDim_vec_col_apply {R : Nat} (x : (⟨1, ![R]⟩ : Shape).Idx → α)
    (h : (⟨1, ![R]⟩ : Shape).BroadcastsInDim ⟨2, ![R, 1]⟩ ![0]) (e : Fin R) (z : Fin 1) :
    broadcastInDim ⟨2, ![R, 1]⟩ ![0] h x (ix2 e z) = x (ix1 e) :=
  broadcastInDim_apply _ h x (ix2 e z) (ix1 e) (fun a => match a with
    | ⟨0, _⟩ => by
      show e.val = if R = 1 then 0 else e.val
      have := e.isLt
      split <;> omega)

/-- A vector [C] broadcast along axis 1 of [1, C], read at (z, c): the vector at c. -/
theorem broadcastInDim_vec_row_apply {C : Nat} (x : (⟨1, ![C]⟩ : Shape).Idx → α)
    (h : (⟨1, ![C]⟩ : Shape).BroadcastsInDim ⟨2, ![1, C]⟩ ![1]) (z : Fin 1) (c : Fin C) :
    broadcastInDim ⟨2, ![1, C]⟩ ![1] h x (ix2 z c) = x (ix1 c) :=
  broadcastInDim_apply _ h x (ix2 z c) (ix1 c) (fun a => match a with
    | ⟨0, _⟩ => by
      show c.val = if C = 1 then 0 else c.val
      have := c.isLt
      split <;> omega)

/-- A row [1, C] broadcast along both axes of [R, C], read at (p, c): the row's entry of column c. -/
theorem broadcastInDim_row_mat_apply {R C : Nat} (x : (⟨2, ![1, C]⟩ : Shape).Idx → α)
    (h : (⟨2, ![1, C]⟩ : Shape).BroadcastsInDim ⟨2, ![R, C]⟩ ![0, 1]) (p : Fin R) (c : Fin C) :
    broadcastInDim ⟨2, ![R, C]⟩ ![0, 1] h x (ix2 p c) = x (ix2 0 c) :=
  broadcastInDim_apply _ h x (ix2 p c) (ix2 0 c) (fun a => match a with
    | ⟨0, _⟩ => rfl
    | ⟨1, _⟩ => by
      show c.val = if C = 1 then 0 else c.val
      have := c.isLt
      split <;> omega)

/-- A scalar broadcast to a vector reads the scalar everywhere. -/
theorem broadcastInDim_scalar_apply {R : Nat} (x : (⟨0, ![]⟩ : Shape).Idx → α)
    (h : (⟨0, ![]⟩ : Shape).BroadcastsInDim ⟨1, ![R]⟩ ![]) (k : (⟨0, ![]⟩ : Shape).Idx) (e : Fin R) :
    broadcastInDim ⟨1, ![R]⟩ ![] h x (ix1 e) = x k :=
  broadcastInDim_apply _ h x (ix1 e) k (fun a => a.elim0)

end Broadcast

/-! ## One leading block of an array, its unit axis forgotten -/

section Block
variable {α : Type}

/-- Block l of a [L, A] matrix, as a vector: entry e is the matrix at (l, e). -/
theorem block2_apply {L A : Nat} (o : Nat) (l : Fin L) (ho : l.val = o) (x : (⟨2, ![L, A]⟩ : Shape).Idx → α)
    (h : (⟨2, ![L, A]⟩ : Shape).Slices ![o, 0] ⟨2, ![1, A]⟩)
    (hc : (⟨2, ![1, A]⟩ : Shape).ShapeCasts ⟨1, ![A]⟩) (e : Fin A) :
    shapeCast ⟨1, ![A]⟩ (extractStridedSlice ⟨2, ![1, A]⟩ ![o, 0] x h) hc (ix1 e) = x (ix2 l e) := by
  refine (shapeCast_apply _ hc (ix1 e) (ix2 0 e) ?_).trans ?_
  · rw [Shape.rowMajor_val_one, Shape.rowMajor_val_two]
    show 0 * A + e.val = e.val
    rw [Nat.zero_mul, Nat.zero_add]
  · exact extractStridedSlice_apply _ x h (ix2 0 e) (ix2 l e) (fun a => match a with
      | ⟨0, _⟩ => by show l.val = o + 0; omega
      | ⟨1, _⟩ => by show e.val = 0 + e.val; omega)

/-- Block l of a [L, A, B] array, as a matrix: entry (e, d) is the array at (l, e, d). -/
theorem block3_apply {L A B : Nat} (o : Nat) (l : Fin L) (ho : l.val = o) (x : (⟨3, ![L, A, B]⟩ : Shape).Idx → α)
    (h : (⟨3, ![L, A, B]⟩ : Shape).Slices ![o, 0, 0] ⟨3, ![1, A, B]⟩)
    (hc : (⟨3, ![1, A, B]⟩ : Shape).ShapeCasts ⟨2, ![A, B]⟩) (e : Fin A) (d : Fin B) :
    shapeCast ⟨2, ![A, B]⟩ (extractStridedSlice ⟨3, ![1, A, B]⟩ ![o, 0, 0] x h) hc (ix2 e d) = x (ix3 l e d) := by
  refine (shapeCast_apply _ hc (ix2 e d) (ix3 0 e d) ?_).trans ?_
  · rw [Shape.rowMajor_val_two, Shape.rowMajor_val_three]
    show (0 * A + e.val) * B + d.val = e.val * B + d.val
    rw [Nat.zero_mul, Nat.zero_add]
  · exact extractStridedSlice_apply _ x h (ix3 0 e d) (ix3 l e d) (fun a => match a with
      | ⟨0, _⟩ => by show l.val = o + 0; omega
      | ⟨1, _⟩ => by show e.val = 0 + e.val; omega
      | ⟨2, _⟩ => by show d.val = 0 + d.val; omega)

/-- Block l of a [L, A, B, C] array, as a rank-3 array: entry (e, r, d) is the array at (l, e, r, d). -/
theorem block4_apply {L A B C : Nat} (o : Nat) (l : Fin L) (ho : l.val = o)
    (x : (⟨4, ![L, A, B, C]⟩ : Shape).Idx → α)
    (h : (⟨4, ![L, A, B, C]⟩ : Shape).Slices ![o, 0, 0, 0] ⟨4, ![1, A, B, C]⟩)
    (hc : (⟨4, ![1, A, B, C]⟩ : Shape).ShapeCasts ⟨3, ![A, B, C]⟩) (e : Fin A) (r : Fin B) (d : Fin C) :
    shapeCast ⟨3, ![A, B, C]⟩ (extractStridedSlice ⟨4, ![1, A, B, C]⟩ ![o, 0, 0, 0] x h) hc (ix3 e r d)
      = x (ix4 l e r d) := by
  refine (shapeCast_apply _ hc (ix3 e r d) (ix4 0 e r d) ?_).trans ?_
  · rw [Shape.rowMajor_val_three, Shape.rowMajor_val_four]
    show ((0 * A + e.val) * B + r.val) * C + d.val = (e.val * B + r.val) * C + d.val
    rw [Nat.zero_mul, Nat.zero_add]
  · exact extractStridedSlice_apply _ x h (ix4 0 e r d) (ix4 l e r d) (fun a => match a with
      | ⟨0, _⟩ => by show l.val = o + 0; omega
      | ⟨1, _⟩ => by show e.val = 0 + e.val; omega
      | ⟨2, _⟩ => by show r.val = 0 + r.val; omega
      | ⟨3, _⟩ => by show d.val = 0 + d.val; omega)

end Block

end Cert.RefOps

end
-- ==== Proof.LibHostIx.lean ====
/-
  Host operations on literal-shaped arrays read at one index, for any extents.

  Layout: two matrices stacked by rows; a scalar, a column, a row and a vector broadcast to a larger array;
  a unit-stride slice of a vector. Arithmetic at the ideal values: the sum over each row of a matrix and
  the sum of a vector, each from an initial value; the product of a matrix with the transpose of another
  (both contracted along their second axis) at an entry; and the element of a matrix picked by a pair of
  start indices, each read as a signed integer and clamped into its axis. Words: the 32-bit word of a natural
  below 8192 under the signed remainder by 4096, when two such words are equal or negative, and a bit read as
  an unsigned integer at the ideal values.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.RefValLib

open Idealize.ShloMosaic Idealize.ShloMosaic.ValueIdx

/-! ## Layout -/

section Layout
variable {α : Type}

/-- Stacked by rows, at a row below the first height: the first matrix at the same row and column. -/
theorem concatenate_rows_apply_left {A B T C : Nat}
    (x₁ : (⟨2, ![A, C]⟩ : Shape).Idx → α) (x₂ : (⟨2, ![B, C]⟩ : Shape).Idx → α)
    (h : Shape.Concatenates [⟨2, ![A, C]⟩, ⟨2, ![B, C]⟩] ⟨2, ![T, C]⟩ 0)
    (p : Fin T) (k : Fin C) (hp : p.val < A) :
    concatenate ⟨2, ![T, C]⟩ 0 [⟨⟨2, ![A, C]⟩, x₁⟩, ⟨⟨2, ![B, C]⟩, x₂⟩] h (ix2 p k)
      = x₁ (ix2 ⟨p.val, hp⟩ k) :=
  concatenate_pair_apply_left _ x₁ x₂ h (ix2 p k) rfl (ix2 ⟨p.val, hp⟩ k)
    (fun b => match b with | ⟨0, _⟩ => rfl | ⟨1, _⟩ => rfl)

/-- Stacked by rows, at row `A + p'`: the second matrix at row `p'` and the same column. -/
theorem concatenate_rows_apply_right {A B T C : Nat}
    (x₁ : (⟨2, ![A, C]⟩ : Shape).Idx → α) (x₂ : (⟨2, ![B, C]⟩ : Shape).Idx → α)
    (h : Shape.Concatenates [⟨2, ![A, C]⟩, ⟨2, ![B, C]⟩] ⟨2, ![T, C]⟩ 0)
    (p : Fin T) (k : Fin C) (p' : Fin B) (hp : p.val = A + p'.val) :
    concatenate ⟨2, ![T, C]⟩ 0 [⟨⟨2, ![A, C]⟩, x₁⟩, ⟨⟨2, ![B, C]⟩, x₂⟩] h (ix2 p k)
      = x₂ (ix2 p' k) :=
  concatenate_pair_apply_right _ x₁ x₂ h (ix2 p k) rfl rfl (ix2 p' k)
    (fun b hb => match b, hb with
      | ⟨0, _⟩, hb => (hb rfl).elim
      | ⟨1, _⟩, _ => rfl)
    (by show p'.val + A = p.val; omega)

/-- Two one-column matrices side by side, at column 0: the first. -/
theorem concatenate_cols2_apply_zero {R : Nat}
    (x₁ x₂ : (⟨2, ![R, 1]⟩ : Shape).Idx → α)
    (h : Shape.Concatenates [⟨2, ![R, 1]⟩, ⟨2, ![R, 1]⟩] ⟨2, ![R, 2]⟩ 1) (r : Fin R) :
    concatenate ⟨2, ![R, 2]⟩ 1 [⟨⟨2, ![R, 1]⟩, x₁⟩, ⟨⟨2, ![R, 1]⟩, x₂⟩] h (ix2 r (0 : Fin 2))
      = x₁ (ix2 r (0 : Fin 1)) :=
  concatenate_pair_apply_left _ x₁ x₂ h (ix2 r (0 : Fin 2)) rfl (ix2 r (0 : Fin 1))
    (fun b => match b with | ⟨0, _⟩ => rfl | ⟨1, _⟩ => rfl)

/-- Two one-column matrices side by side, at column 1: the second. -/
theorem concatenate_cols2_apply_one {R : Nat}
    (x₁ x₂ : (⟨2, ![R, 1]⟩ : Shape).Idx → α)
    (h : Shape.Concatenates [⟨2, ![R, 1]⟩, ⟨2, ![R, 1]⟩] ⟨2, ![R, 2]⟩ 1) (r : Fin R) :
    concatenate ⟨2, ![R, 2]⟩ 1 [⟨⟨2, ![R, 1]⟩, x₁⟩, ⟨⟨2, ![R, 1]⟩, x₂⟩] h (ix2 r (1 : Fin 2))
      = x₂ (ix2 r (0 : Fin 1)) :=
  concatenate_pair_apply_right _ x₁ x₂ h (ix2 r (1 : Fin 2)) rfl rfl (ix2 r (0 : Fin 1))
    (fun b hb => match b, hb with
      | ⟨0, _⟩, _ => rfl
      | ⟨1, _⟩, hb => (hb rfl).elim)
    rfl

/-- A scalar broadcast to any shape reads the scalar everywhere. -/
theorem broadcastInDim_scalar_apply {t : Shape} (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A vector as a one-column matrix reads, at `(e, z)`, the vector at `e`. -/
theorem broadcastInDim_col_apply {R : Nat} (x : (⟨1, ![R]⟩ : Shape).Idx → α)
    (h : (⟨1, ![R]⟩ : Shape).BroadcastsInDim ⟨2, ![R, 1]⟩ ![0]) (e : Fin R) (z : Fin 1) :
    broadcastInDim ⟨2, ![R, 1]⟩ ![0] h x (ix2 e z) = x (ix1 e) :=
  broadcastInDim_apply _ h x (ix2 e z) (ix1 e) (fun a => match a with
    | ⟨0, _⟩ => by
      show e.val = if R = 1 then 0 else e.val
      have := e.isLt
      split <;> omega)

/-- A vector as a one-row matrix reads, at `(z, c)`, the vector at `c`. -/
theorem broadcastInDim_row_apply {n : Nat} (x : (⟨1, ![n]⟩ : Shape).Idx → α)
    (h : (⟨1, ![n]⟩ : Shape).BroadcastsInDim ⟨2, ![1, n]⟩ ![1]) (z : Fin 1) (c : Fin n) :
    broadcastInDim ⟨2, ![1, n]⟩ ![1] h x (ix2 z c) = x (ix1 c) :=
  broadcastInDim_apply _ h x (ix2 z c) (ix1 c) (fun a => match a with
    | ⟨0, _⟩ => by
      show c.val = if n = 1 then 0 else c.val
      have := c.isLt
      split <;> omega)

/-- A one-column matrix broadcast along its columns reads, at `(p, c)`, the column's entry of row `p`. -/
theorem broadcastInDim_colwide_apply {a b : Nat} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) :=
  broadcastInDim_apply _ h x (ix2 p c) (ix2 p (0 : Fin 1)) (fun ax => match ax with
    | ⟨0, _⟩ => by
      show p.val = if a = 1 then 0 else p.val
      have := p.isLt
      split <;> omega
    | ⟨1, _⟩ => by
      show 0 = if 1 = 1 then 0 else c.val
      rfl)

/-- A one-row matrix broadcast along its rows reads, at `(p, c)`, the row's entry of column `c`. -/
theorem broadcastInDim_rowwide_apply {a b : Nat} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) :=
  broadcastInDim_apply _ h x (ix2 p c) (ix2 (0 : Fin 1) c) (fun ax => match ax with
    | ⟨0, _⟩ => by
      show 0 = if 1 = 1 then 0 else p.val
      rfl
    | ⟨1, _⟩ => by
      show c.val = if b = 1 then 0 else c.val
      have := c.isLt
      split <;> omega)

/-- The slice's side condition bounds the positions read. -/
theorem slices1_lt {M R o : Nat}
    (h : (⟨1, ![M]⟩ : Shape).Slices ![o] ⟨1, ![R]⟩) (r : Fin R) : o + r.val < M := by
  have h0 : o + R ≤ M := h.2 0
  have := r.isLt
  omega

/-- A slice of a vector at `r`: the vector at `o + r`. -/
theorem slice1_apply {M R o : Nat} (x : (⟨1, ![M]⟩ : Shape).Idx → α)
    (h : (⟨1, ![M]⟩ : Shape).Slices ![o] ⟨1, ![R]⟩) (r : Fin R) :
    extractStridedSlice ⟨1, ![R]⟩ ![o] x h (ix1 r) = x (ix1 ⟨o + r.val, slices1_lt h r⟩) :=
  extractStridedSlice_apply _ x h (ix1 r) (ix1 ⟨o + r.val, slices1_lt h r⟩) (fun a => match a with
    | ⟨0, _⟩ => rfl)

end Layout

/-! ## Sums -/

section Sums
variable {φ : FTy}

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) :=
  Fintype.sum_equiv idxEquiv1 f (fun a => f (ix1 a)) (fun i => congrArg f (eq_ix1 i))

/-- The host's sum over each row of a matrix, from an initial scalar: at row `i` the initial value plus the sum of the row. -/
theorem hostReduceAdd_rows {a b : Nat} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel)
    (hr : (⟨2, ![a, b]⟩ : Shape).Reduces [1] ⟨1, ![a]⟩) (i : Fin a) :
    Host.reduceAdd (F := Ideal) x init h hu (ix1 i) = init ix0 + ∑ k : Fin b, x (ix2 i k) := by
  show Ideal.hostReduceAdd h x (init (Shape.Idx.first hu)) (ix1 i) = _
  rw [Ideal.hostReduceAdd_single h hr x _ (ix1 i), eq_ix0 (Shape.Idx.first hu)]
  exact congrArg (init ix0 + ·) (Finset.sum_congr rfl fun k _ => congrArg x (funext fun c => Fin.ext (by
    match c with
    | ⟨0, _⟩ => rfl
    | ⟨1, _⟩ => rfl)))

/-- The host's sum of a vector, from an initial scalar: the initial value plus the sum of the entries. -/
theorem hostReduceAdd_vec {n : Nat} (x : FVec Ideal ⟨1, ![n]⟩ φ) (init : (⟨0, ![]⟩ : Shape).Idx → Ideal φ)
    (h : (⟨1, ![n]⟩ : Shape).ReducesTo [0] ⟨0, ![]⟩) (hu : 0 < (⟨0, ![]⟩ : Shape).numel)
    (j : (⟨0, ![]⟩ : Shape).Idx) :
    Host.reduceAdd (F := Ideal) x init h hu j = init ix0 + ∑ i : Fin n, x (ix1 i) := by
  show Ideal.hostReduceAdd h x (init (Shape.Idx.first hu)) j = _
  rw [Ideal.hostReduceAdd_total h (fun b => b.elim0) x _ j, eq_ix0 (Shape.Idx.first hu), sum_idx1]

end Sums

/-! ## A product with a transposed matrix -/

section Dot

/-- The host's product of an `M × K` matrix with the transpose of an `N × K` matrix (both contracted along their
    second axis, no batch axis) at entry `(a, b)`: the sum over the contracted coordinate of the products of the
    entries `A (a, c)` and `B (b, c)`. -/
theorem dotGeneral_nt_apply {M N K : ℕ} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (F := Ideal) (⟨[1], [1], [0], [0], [], [], w⟩ : DotDims _ _ _) prec A B (ix2 a b)
      = ∑ c : Fin K, A (ix2 a c) * B (ix2 b c) := by
  simp only [Host.dotGeneral]
  rw [Ideal.dotGeneral_apply,
    ← Equiv.sum_comp (contrEquiv1 (⟨[1], [1], [0], [0], [], [], w⟩ : DotDims _ _ _) K rfl rfl).symm]
  refine Finset.sum_congr rfl fun c _ => ?_
  have c2 := contrEquiv1_symm_val
    (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Dot

/-! ## One element of a matrix picked by a pair of start indices -/

section Gather
variable {α : Type}

/-- The dimension numbers of a gather of single elements of a matrix: operand `[M, N]`, start indices `[R, 2]` (row, column), result `[R]`; both operand axes collapsed. -/
abbrev elemDims (M N R : Nat)
    (wf : GatherDims.WF ⟨2, ![M, N]⟩ ⟨2, ![R, 2]⟩ ⟨1, ![R]⟩ [] [0, 1] [] [0, 1] [] 1 ![1, 1]) :
    GatherDims ⟨2, ![M, N]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- The gather read at `i`: the matrix at the start index `(idx[i, 0], idx[i, 1])`, each component read signed and clamped into its axis. -/
theorem gather_elem_apply {M N R w : Nat} (hM : 0 < M) (hN : 0 < N)
    (wf : GatherDims.WF ⟨2, ![M, N]⟩ ⟨2, ![R, 2]⟩ ⟨1, ![R]⟩ [] [0, 1] [] [0, 1] [] 1 ![1, 1])
    (x : (⟨2, ![M, N]⟩ : Shape).Idx → α) (idx : IVec ⟨2, ![R, 2]⟩ w) (i : Fin R) :
    Host.gather (elemDims M N R wf) x idx (ix1 i)
      = x (ix2 ⟨min (idx (ix2 i (0 : Fin 2))).toInt.toNat (M - 1), by omega⟩
               ⟨min (idx (ix2 i (1 : Fin 2))).toInt.toNat (N - 1), by omega⟩) := by
  have key : ∀ a : Fin 2, (elemDims M N R wf).start (ix1 i) idx a + (elemDims M N R wf).batchCoord (ix1 i) a
      + (elemDims M N R wf).offCoord (ix1 i) a
      = ((ix2 (⟨min (idx (ix2 i (0 : Fin 2))).toInt.toNat (M - 1), by omega⟩ : Fin M)
               (⟨min (idx (ix2 i (1 : Fin 2))).toInt.toNat (N - 1), by omega⟩ : Fin N)) a).val := by
    refine Fin.forall_fin_two.2 ⟨?_, ?_⟩
    · rw [GatherDims.batchCoord_eq_zero _ _ _ List.not_mem_nil,
        GatherDims.offCoord_eq_zero _ _ _ (fun h => ((GatherDims.mem_sKept _ _).mp h).1 (by simp))]
      simp only [Nat.add_zero]
      unfold GatherDims.start
      rw [dif_pos (show (0 : Fin 2) ∈ (elemDims M N R wf).startIndexMap by simp)]
      have hsi : (elemDims M N R wf).siIdx (ix1 i) ⟨List.idxOf (0 : Fin 2) (elemDims M N R wf).startIndexMap,
          List.idxOf_lt_length_iff.2 (by simp)⟩ = ix2 i (0 : Fin 2) := by
        funext b; refine Fin.ext ?_
        match b with
        | ⟨0, _⟩ => rfl
        | ⟨1, _⟩ => rfl
      rw [hsi]
      rfl
    · rw [GatherDims.batchCoord_eq_zero _ _ _ List.not_mem_nil,
        GatherDims.offCoord_eq_zero _ _ _ (fun h => ((GatherDims.mem_sKept _ _).mp h).1 (by simp))]
      simp only [Nat.add_zero]
      unfold GatherDims.start
      rw [dif_pos (show (1 : Fin 2) ∈ (elemDims M N R wf).startIndexMap by simp)]
      have hsi : (elemDims M N R wf).siIdx (ix1 i) ⟨List.idxOf (1 : Fin 2) (elemDims M N R wf).startIndexMap,
          List.idxOf_lt_length_iff.2 (by simp)⟩ = ix2 i (1 : Fin 2) := by
        funext b; refine Fin.ext ?_
        match b with
        | ⟨0, _⟩ => rfl
        | ⟨1, _⟩ => rfl
      rw [hsi]
      rfl
  unfold Host.gather
  exact congrArg x (funext fun a => Fin.ext (key a))

end Gather

/-! ## Words: the 32-bit word of a small natural under the signed remainder and comparisons, and a bit as a float -/

section Words

/-- The word of a natural below `2 ^ 32` reads back as the natural. -/
theorem toNat_ofNat_lt (n : Nat) (hn : n < 2 ^ 32) : (BitVec.ofNat 32 n).toNat = n := by
  rw [BitVec.toNat_ofNat, Nat.mod_eq_of_lt hn]

/-- The word of a natural below `2 ^ 31` has its sign bit clear. -/
theorem msb_ofNat_small (n : Nat) (hn : n < 2 ^ 31) : (BitVec.ofNat 32 n).msb = false := by
  rw [BitVec.msb_eq_decide, toNat_ofNat_lt n (by omega)]
  exact decide_eq_false (by omega)

/-- The host's signed remainder of the word of `p < 8192` by 4096 is the word of `p % 4096`: no division corner, both sign bits clear. -/
theorem remsi_ofNat (p : Nat) (hp : p < 8192) : IntOp.remsi .host (BitVec.ofNat 32 p) 4096#32 = BitVec.ofNat 32 (p % 4096) := by
  have hc : ¬ IntOp.SDivCorner (BitVec.ofNat 32 p) 4096#32 := by
    rintro (h | ⟨_, h⟩)
    · exact absurd h (by decide)
    · exact absurd h (by decide)
  unfold IntOp.remsi
  rw [if_neg hc]
  apply BitVec.eq_of_toNat_eq
  rw [BitVec.srem_eq]
  have h1 : (BitVec.ofNat 32 p).msb = false := msb_ofNat_small p (by omega)
  have h2 : (4096#32 : BitVec 32).msb = false := by decide
  simp only [h1, h2]
  have h3 : (4096#32 : BitVec 32).toNat = 4096 := by decide
  rw [BitVec.toNat_umod, toNat_ofNat_lt p (by omega), h3, toNat_ofNat_lt _ (by omega)]

/-- The word of a natural below `2 ^ 31` is not negative. -/
theorem slt_zero_ofNat (n : Nat) (hn : n < 2 ^ 31) : IntOp.cmpi .slt (BitVec.ofNat 32 n) 0#32 = 0#1 := by
  show BitVec.ofBool ((BitVec.ofNat 32 n).slt 0#32) = 0#1
  have : (BitVec.ofNat 32 n).slt 0#32 = false := by
    rw [BitVec.slt_eq_decide, BitVec.toInt_eq_toNat_of_msb (msb_ofNat_small n hn)]
    exact decide_eq_false (by simp; omega)
  rw [this]; rfl

/-- The words of two naturals below `2 ^ 32` differ exactly when the naturals do. -/
theorem cmpi_ne_ofNat (m n : Nat) (hm : m < 2 ^ 32) (hn : n < 2 ^ 32) :
    IntOp.cmpi .ne (BitVec.ofNat 32 m) (BitVec.ofNat 32 n) = if m = n then 0#1 else 1#1 := by
  show BitVec.ofBool (BitVec.ofNat 32 m != BitVec.ofNat 32 n) = _
  by_cases e : m = n
  · subst e; simp
  · have : BitVec.ofNat 32 m ≠ BitVec.ofNat 32 n := fun h => e (by
      have := congrArg BitVec.toNat h
      rwa [toNat_ofNat_lt m hm, toNat_ofNat_lt n hn] at this)
    rw [if_neg e, (bne_iff_ne.2 this : (BitVec.ofNat 32 m != BitVec.ofNat 32 n) = true)]
    rfl

/-- A bit read as an unsigned integer at the ideal values is `1` or `0`. -/
theorem uitofp_bit (b : BitVec 1) : (FloatOps.uitofp (F := Ideal) .f32 b : EReal) = if b = 1#1 then 1 else 0 := by
  show (((b.toNat : ℝ)) : EReal) = _
  rcases BitVec.eq_zero_or_eq_one b with h | h
  · subst h; simp
  · subst h; simp

end Words

end Cert.RefValLib

end
-- ==== Proof.LayerHostValue.lean ====
/-
  The reference's layer on the whole 160000 × 64 arrays, read at one entry.

  The reference computes the layer with the host's operations: two general dot products of a 160000 × 64 array with a
  64 × 64 weight matrix, each plus its bias row broadcast over the rows, added; the leaky rectifier as a select on the
  comparison with a broadcast zero; the row norm as the host's sum over axis 1 from the initial value 0, kept as a
  column, its square root, the maximum with the broadcast literal 1e-12, broadcast back over the columns, and the host's
  quotient. The three definitions below are those operation terms, and at an entry `(r, q)` they are the row's
  `rowPre`, `actS` and `rowNormed`.

  Each is first stated for arrays of any height in the host's own operations, then read off the reference's shapes.
-/
import proofs.«162997_j3143916060680_1_alg».proof.ReferenceIdeal
import proofs.«162997_j3143916060680_1_alg».proof.Proof.LayerSpec
import proofs.«162997_j3143916060680_1_alg».proof.Proof.LibHostDotIx
import proofs.«162997_j3143916060680_1_alg».proof.Proof.LibHostRows
import proofs.«162997_j3143916060680_1_alg».proof.Proof.LibHostIx
import Idealize.ShloMosaic.Lib.ValueIdx
import Idealize.ShloMosaic.Lib.Pipeline.Value

noncomputable section

open scoped BigOperators

namespace Cert.NGCF

open Idealize.ShloMosaic Idealize.ShloMosaic.ValueIdx

/-! ## The host's operations on arrays of any height, at an entry -/

section General
variable {R : ℕ}

/-- The host's pre-activation of an array of `R` rows at `(p, q)`: the row's `rowPre`. -/
theorem hostPre_gen (A B : FVec Ideal ⟨2, ![R, 64]⟩ .f32) (W : FVec Ideal ⟨2, ![64, 64]⟩ .f32)
    (b : FVec Ideal ⟨2, ![1, 64]⟩ .f32) (V : FVec Ideal ⟨2, ![64, 64]⟩ .f32) (c : FVec Ideal ⟨2, ![1, 64]⟩ .f32)
    (w : DotDims.WF ⟨2, ![R, 64]⟩ ⟨2, ![64, 64]⟩ ⟨2, ![R, 64]⟩ [1] [0] [0] [1] [] [])
    (hb : (⟨2, ![1, 64]⟩ : Shape).BroadcastsInDim ⟨2, ![R, 64]⟩ ![0, 1]) (p : Fin R) (q : Fin 64) :
    addf
        (addf (Host.dotGeneral (F := Ideal) (⟨[1], [0], [0], [1], [], [], w⟩ : DotDims _ _ _) none B W)
          (broadcastInDim ⟨2, ![R, 64]⟩ ![0, 1] hb b))
        (addf (Host.dotGeneral (F := Ideal) (⟨[1], [0], [0], [1], [], [], w⟩ : DotDims _ _ _) none (mulf A B) V)
          (broadcastInDim ⟨2, ![R, 64]⟩ ![0, 1] hb c))
        (ix2 p q)
      = rowPre (fun k => A (ix2 p k)) (fun k => B (ix2 p k)) (fun k q => W (ix2 k q)) (fun q => b (ix2 0 q))
          (fun k q => V (ix2 k q)) (fun q => c (ix2 0 q)) q := by
  rw [addf_apply, addf_apply, addf_apply, Cert.LibHostDotIx.dotGeneral_apply, Cert.LibHostDotIx.dotGeneral_apply,
    Cert.RefOps.broadcastInDim_row_mat_apply, Cert.RefOps.broadcastInDim_row_mat_apply]
  rfl

/-- The host's leaky rectifier at any index: the scalar rectifier of the entry. The zero and the slope are scalar
    constants broadcast over the array; the slope passes through a conversion that is the identity. -/
theorem hostAct_gen {s : Shape} (dims : Fin 0 → Fin s.rank) (h : (⟨0, ![]⟩ : Shape).BroadcastsInDim s dims)
    (x : FVec Ideal s .f32) (i : s.Idx) :
    select (cmpf .oge x (broadcastInDim s dims h (constant (F := Ideal) ⟨0, ![]⟩ .f32 0x00000000#32))) x
        (mulf (broadcastInDim s dims h (id (constant (F := Ideal) ⟨0, ![]⟩ .f32 0x3E4CCCCD#32))) x) i
      = actS (x i) := by
  rw [select_apply, cmpf_apply, mulf_apply, Cert.RefValLib.broadcastInDim_scalar_apply,
    Cert.RefValLib.broadcastInDim_scalar_apply]
  rfl

/-- The host's quotient at an index is the ideal quotient of the entries. -/
theorem hostDivf_apply {s : Shape} (a b : FVec Ideal s .f32) (i : s.Idx) : Host.divf a b i = Ideal.div (a i) (b i) := rfl

/-- The host's square root at an index is the ideal square root of the entry. -/
theorem hostSqrt_apply {s : Shape} (a : FVec Ideal s .f32) (i : s.Idx) : Host.sqrt a i = Ideal.sqrt (a i) := rfl

/-- The host's division of an array by its rows' bounded norms at `(p, q)`: the row's `rowNormed`. -/
theorem hostNormed_gen (a : FVec Ideal ⟨2, ![R, 64]⟩ .f32)
    (hr : (⟨2, ![R, 64]⟩ : Shape).ReducesTo [1] ⟨1, ![R]⟩) (hu : 0 < (⟨0, ![]⟩ : Shape).numel)
    (hb1 : (⟨1, ![R]⟩ : Shape).BroadcastsInDim ⟨2, ![R, 1]⟩ ![0])
    (dims : Fin 0 → Fin 2) (hb0 : (⟨0, ![]⟩ : Shape).BroadcastsInDim ⟨2, ![R, 1]⟩ dims)
    (hb2 : (⟨2, ![R, 1]⟩ : Shape).BroadcastsInDim ⟨2, ![R, 64]⟩ ![0, 1]) (p : Fin R) (q : Fin 64) :
    Host.divf a
        (broadcastInDim ⟨2, ![R, 64]⟩ ![0, 1] hb2
          (maximumf
            (Host.sqrt (broadcastInDim ⟨2, ![R, 1]⟩ ![0] hb1
              (Host.reduceAdd (F := Ideal) (mulf a a) (constant (F := Ideal) ⟨0, ![]⟩ .f32 0x00000000#32) hr hu)))
            (broadcastInDim ⟨2, ![R, 1]⟩ dims hb0 (constant (F := Ideal) ⟨0, ![]⟩ .f32 0x2B8CBCCC#32))))
        (ix2 p q)
      = rowNormed (fun j => a (ix2 p j)) q := by
  rw [hostDivf_apply, Cert.RefOps.broadcastInDim_col_mat_apply, maximumf_apply, hostSqrt_apply,
    Cert.RefOps.broadcastInDim_vec_col_apply, Cert.RefValLib.broadcastInDim_scalar_apply,
    Cert.RefOps.hostReduceAdd_cols_apply]
  rfl

end General

/-! ## The reference's shapes -/

section Reference
open Cert.ReferenceIdeal Cert.ReferenceIdeal.Facts₀

variable [Cert.ReferenceIdeal.Facts₀]

/-- The reference's pre-activation of the whole arrays: the second feature array through `wg` plus its bias row,
    plus the elementwise product of the two feature arrays through `wb` plus its bias row. -/
def hostPre (ego side : FVec Ideal S160000x64 .f32) (wg : FVec Ideal S64x64 .f32) (bg : FVec Ideal S1x64 .f32)
    (wb : FVec Ideal S64x64 .f32) (bb : FVec Ideal S1x64 .f32) : FVec Ideal S160000x64 .f32 :=
  addf
    (addf (Host.dotGeneral dot_S160000x64_S64x64_S160000x64_1_0_0_1_n_n none side wg)
      (broadcastInDim S160000x64 ![0, 1] bcast_S1x64_S160000x64_0_1 bg))
    (addf (Host.dotGeneral dot_S160000x64_S64x64_S160000x64_1_0_0_1_n_n none (mulf ego side) wb)
      (broadcastInDim S160000x64 ![0, 1] bcast_S1x64_S160000x64_0_1 bb))

/-- The reference's leaky rectifier of a whole array. -/
def hostAct (x : FVec Ideal S160000x64 .f32) : FVec Ideal S160000x64 .f32 :=
  select (cmpf .oge x (broadcastInDim S160000x64 ![] bcast_S_S160000x64 (constant S_ .f32 0x00000000#32))) x
    (mulf (broadcastInDim S160000x64 ![] bcast_S_S160000x64 (id (constant S_ .f32 0x3E4CCCCD#32))) x)

/-- The reference's division of a whole array by its rows' bounded norms. -/
def hostNormed (a : FVec Ideal S160000x64 .f32) : FVec Ideal S160000x64 .f32 :=
  Host.divf a
    (broadcastInDim S160000x64 ![0, 1] bcast_S160000x1_S160000x64_0_1
      (maximumf
        (Host.sqrt (broadcastInDim S160000x1 ![0] bcast_S160000_S160000x1_0
          (Host.reduceAdd (mulf a a) (constant S_ .f32 0x00000000#32) reducesTo_S160000x64_S160000_d1 h_S_)))
        (broadcastInDim S160000x1 ![] bcast_S_S160000x1 (constant S_ .f32 0x2B8CBCCC#32))))

variable (ego side : FVec Ideal S160000x64 .f32) (wg : FVec Ideal S64x64 .f32) (bg : FVec Ideal S1x64 .f32)
  (wb : FVec Ideal S64x64 .f32) (bb : FVec Ideal S1x64 .f32) (r : Fin 160000) (q : Fin 64)

/-- The reference's pre-activation at `(r, q)`. -/
theorem hostPre_apply :
    hostPre ego side wg bg wb bb (ix2 r q)
      = rowPre (fun k => ego (ix2 r k)) (fun k => side (ix2 r k)) (fun k q => wg (ix2 k q)) (fun q => bg (ix2 0 q))
          (fun k q => wb (ix2 k q)) (fun q => bb (ix2 0 q)) q :=
  hostPre_gen (R := 160000) ego side wg bg wb bb _ _ r q

/-- The reference's activation at `(r, q)`. -/
theorem hostAct_apply (x : FVec Ideal S160000x64 .f32) : hostAct x (ix2 r q) = actS (x (ix2 r q)) :=
  hostAct_gen _ _ x (ix2 r q)

/-- The reference's normalised array at `(r, q)`. -/
theorem hostNormed_apply (a : FVec Ideal S160000x64 .f32) :
    hostNormed a (ix2 r q) = rowNormed (fun j => a (ix2 r j)) q :=
  hostNormed_gen (R := 160000) a _ _ _ _ _ _ r q

end Reference

end Cert.NGCF

end
-- ==== Proof.LayerHostArr.lean ====
/-
  The reference's layer on the whole arrays, as tables.

  Entry by entry the reference's activation of its pre-activation is the row specification's activation of the same
  rows, and its normalised array is that activation row divided by its bounded norm; so as functions of the index the
  two are the activation table and the normalised table of the layer.
-/
import proofs.«162997_j3143916060680_1_alg».proof.Proof.LayerHostValue
import proofs.«162997_j3143916060680_1_alg».proof.Proof.LayerArr

noncomputable section

open scoped BigOperators

namespace Cert.NGCF

open Idealize.ShloMosaic Idealize.ShloMosaic.ValueIdx

variable [Cert.ReferenceIdeal.Facts₀]

variable (ego side : FVec Ideal ⟨2, ![160000, 64]⟩ .f32) (wg : FVec Ideal ⟨2, ![64, 64]⟩ .f32)
  (bg : FVec Ideal ⟨2, ![1, 64]⟩ .f32) (wb : FVec Ideal ⟨2, ![64, 64]⟩ .f32) (bb : FVec Ideal ⟨2, ![1, 64]⟩ .f32)

/-- The reference's activation at `(r, q)` is the layer's. -/
theorem hostAct_hostPre_apply (r : Fin 160000) (q : Fin 64) :
    hostAct (hostPre ego side wg bg wb bb) (ix2 r q) = layerAct ego side wg bg wb bb r q := by
  rw [hostAct_apply, hostPre_apply]
  rfl

/-- The reference's activation of its pre-activation is the layer's activation table. -/
theorem hostAct_hostPre_eq : hostAct (hostPre ego side wg bg wb bb) = actArr ego side wg bg wb bb := by
  funext i
  obtain ⟨r, q, rfl⟩ : ∃ (r : Fin 160000) (q : Fin 64), i = ix2 r q := ⟨i 0, i 1, eq_ix2 i⟩
  rw [hostAct_hostPre_apply, actArr_ix2]

/-- The reference's normalised activation is the layer's normalised table. -/
theorem hostNormed_eq : hostNormed (hostAct (hostPre ego side wg bg wb bb)) = outArr ego side wg bg wb bb := by
  funext i
  obtain ⟨r, q, rfl⟩ : ∃ (r : Fin 160000) (q : Fin 64), i = ix2 r q := ⟨i 0, i 1, eq_ix2 i⟩
  rw [hostNormed_apply, outArr_ix2]
  exact congrArg (fun a => rowNormed a q) (funext fun j => hostAct_hostPre_apply ego side wg bg wb bb r j)

end Cert.NGCF

end
-- ==== Proof.RefBridge.lean ====
/-
  The reference's result and the kernel program's result are the same function of the thirteen arguments.

  Both programs perform the same host operations around the layers: the node table (users above items), each layer's
  sparse aggregation, the slices of the stacked weights and biases, and the scoring tail. Written over the two
  programs' own copies of the shapes and dimension records these are the same functions. A layer of the reference
  (its two affine maps, the leaky rectifier, the row normalisation) is the layer's activation table and normalised
  table, which is what the kernel program's regions leave. Composing the three layers and the tail gives the equality
  of the two results.
-/
import proofs.«162997_j3143916060680_1_alg».proof.Proof.RefPieces
import proofs.«162997_j3143916060680_1_alg».proof.Proof.KernelIdealValue
import proofs.«162997_j3143916060680_1_alg».proof.Proof.LayerHostArr

noncomputable section

namespace Cert.NGCF

open Idealize.ShloMosaic
open Cert.ReferenceIdeal.RefRun Cert.KernelIdeal.HostFns Cert.KernelIdeal.Run

/-! ## The shared host functions, across the two programs' vocabularies -/

section Shared
variable {F : FTy → Type} [FloatOps F]

/-- The node table. -/
theorem refEgo0_eq (a5 : FVec F ⟨2, ![100000, 64]⟩ .f32) (a6 : FVec F ⟨2, ![60000, 64]⟩ .f32) :
    refEgo0 a5 a6 = ego0 a5 a6 := rfl

/-- A layer's sparse aggregation. -/
theorem refSide_eq (ego : FVec F ⟨2, ![160000, 64]⟩ .f32) (rows cols : IVec ⟨1, ![2000000]⟩ 32)
    (vals : FVec F ⟨1, ![2000000]⟩ .f32) : refSide ego rows cols vals = side ego rows cols vals := rfl

/-- The slices of the stacked weight matrices and bias rows. -/
theorem refW0_eq (w : FVec F ⟨3, ![3, 64, 64]⟩ .f32) : refW0 w = sl64_0 w := rfl
theorem refW1_eq (w : FVec F ⟨3, ![3, 64, 64]⟩ .f32) : refW1 w = sl64_1 w := rfl
theorem refW2_eq (w : FVec F ⟨3, ![3, 64, 64]⟩ .f32) : refW2 w = sl64_2 w := rfl
theorem refB0_eq (b : FVec F ⟨3, ![3, 1, 64]⟩ .f32) : refB0 b = sl1_0 b := rfl
theorem refB1_eq (b : FVec F ⟨3, ![3, 1, 64]⟩ .f32) : refB1 b = sl1_1 b := rfl
theorem refB2_eq (b : FVec F ⟨3, ![3, 1, 64]⟩ .f32) : refB2 b = sl1_2 b := rfl

/-- The scoring tail. -/
theorem refTail_eq (e0 n1 n2 n3 : FVec F ⟨2, ![160000, 64]⟩ .f32) (users items : IVec ⟨1, ![16384]⟩ 32)
    (pw : FVec F ⟨2, ![256, 1]⟩ .f32) (pb : FVec F ⟨1, ![1]⟩ .f32) :
    refTail e0 n1 n2 n3 users items pw pb = tail e0 n1 n2 n3 users items pw pb := rfl

end Shared

/-! ## A layer of the reference is the layer's two tables -/

section Layer
variable (ego side : FVec Ideal ⟨2, ![160000, 64]⟩ .f32) (wg : FVec Ideal ⟨2, ![64, 64]⟩ .f32)
  (bg : FVec Ideal ⟨2, ![1, 64]⟩ .f32) (wb : FVec Ideal ⟨2, ![64, 64]⟩ .f32) (bb : FVec Ideal ⟨2, ![1, 64]⟩ .f32)

/-- The reference's rectified affine maps are the activation table. -/
theorem refAct_refPre_eq : refAct (refPre ego side wg bg wb bb) = actArr ego side wg bg wb bb :=
  (show refAct (refPre ego side wg bg wb bb) = hostAct (hostPre ego side wg bg wb bb) from rfl).trans
    (hostAct_hostPre_eq ego side wg bg wb bb)

/-- The reference's row-normalised rectified affine maps are the normalised table. -/
theorem refNormed_refAct_refPre_eq :
    refNormed (refAct (refPre ego side wg bg wb bb)) = outArr ego side wg bg wb bb :=
  (show refNormed (refAct (refPre ego side wg bg wb bb)) = hostNormed (hostAct (hostPre ego side wg bg wb bb)) from rfl).trans
    (hostNormed_eq ego side wg bg wb bb)

end Layer

/-! ## The two results -/

section Result
variable (a0 a1 : IVec ⟨1, ![16384]⟩ 32) (a2 a3 : IVec ⟨1, ![2000000]⟩ 32) (a4 : FVec Ideal ⟨1, ![2000000]⟩ .f32)
    (a5 : FVec Ideal ⟨2, ![100000, 64]⟩ .f32) (a6 : FVec Ideal ⟨2, ![60000, 64]⟩ .f32) (a7 : FVec Ideal ⟨3, ![3, 64, 64]⟩ .f32)
    (a8 : FVec Ideal ⟨3, ![3, 1, 64]⟩ .f32) (a9 : FVec Ideal ⟨3, ![3, 64, 64]⟩ .f32) (a10 : FVec Ideal ⟨3, ![3, 1, 64]⟩ .f32)
    (a11 : FVec Ideal ⟨2, ![256, 1]⟩ .f32) (a12 : FVec Ideal ⟨1, ![1]⟩ .f32)

/-- The table after the first layer. -/
theorem refE1_eq : refE1 a0 a1 a2 a3 a4 a5 a6 a7 a8 a9 a10 a11 a12 = kE1 a2 a3 a4 a5 a6 a7 a8 a9 a10 := by
  unfold refE1 refLayer kE1 kE0
  rw [refAct_refPre_eq, refEgo0_eq, refSide_eq, refW0_eq, refW0_eq, refB0_eq, refB0_eq]

/-- The table after the second layer. -/
theorem refE2_eq : refE2 a0 a1 a2 a3 a4 a5 a6 a7 a8 a9 a10 a11 a12 = kE2 a2 a3 a4 a5 a6 a7 a8 a9 a10 := by
  unfold refE2 refLayer kE2
  rw [refAct_refPre_eq, refE1_eq, refSide_eq, refW1_eq, refW1_eq, refB1_eq, refB1_eq]

/-- The first layer's normalised table. -/
theorem refN1_eq :
    refNormed (refE1 a0 a1 a2 a3 a4 a5 a6 a7 a8 a9 a10 a11 a12) = kN1 a2 a3 a4 a5 a6 a7 a8 a9 a10 := by
  unfold refE1 refLayer kN1 kE0
  rw [refNormed_refAct_refPre_eq, refEgo0_eq, refSide_eq, refW0_eq, refW0_eq, refB0_eq, refB0_eq]

/-- The second layer's normalised table. -/
theorem refN2_eq :
    refNormed (refE2 a0 a1 a2 a3 a4 a5 a6 a7 a8 a9 a10 a11 a12) = kN2 a2 a3 a4 a5 a6 a7 a8 a9 a10 := by
  unfold refE2 refLayer kN2
  rw [refNormed_refAct_refPre_eq, refE1_eq, refSide_eq, refW1_eq, refW1_eq, refB1_eq, refB1_eq]

/-- The third layer's normalised table. -/
theorem refN3_eq :
    refNormed (refE3 a0 a1 a2 a3 a4 a5 a6 a7 a8 a9 a10 a11 a12) = kN3 a2 a3 a4 a5 a6 a7 a8 a9 a10 := by
  unfold refE3 refLayer kN3
  rw [refNormed_refAct_refPre_eq, refE2_eq, refSide_eq, refW2_eq, refW2_eq, refB2_eq, refB2_eq]

/-- The reference's result is the kernel program's result. -/
theorem refResult_eq_kResult :
    refResult (F := Ideal) a0 a1 a2 a3 a4 a5 a6 a7 a8 a9 a10 a11 a12 = kResult a0 a1 a2 a3 a4 a5 a6 a7 a8 a9 a10 a11 a12 := by
  unfold refResult kResult kE0
  rw [refTail_eq, refN1_eq, refN2_eq, refN3_eq, refEgo0_eq]

end Result

end Cert.NGCF

end
-- ==== Proof.lean ====
/-
  The certificate of a three-layer graph-convolution scorer.  The kernel program computes, per layer, the sparse
  aggregation of the node embeddings on the host and the dense layer (two 64 × 64 products with biases, a leaky
  rectifier, a row-wise Euclidean normalisation) in a kernel region tiled over 40 blocks of 4000 rows; the reference
  computes the same layer on the host over the whole node table.  Over the extended reals both perform the same
  operations row by row: a row of either result depends only on the same row of the layer's inputs, the two matrix
  products are the same finite sums, and the blocks tile the table.  The host operations around the layers (node
  table, aggregation, weight slices, scoring tail) are the same operations in both programs.  No finiteness of the
  inputs is used: no sum is rearranged beyond re-indexing and no factor is moved across a sum.

  frame_Kernel, frame_KernelIdeal: the run of the three regions among the host stretches, at any float instance.
  frame_ReferenceIdeal: the reference's run with the result dropped.  preserves: the idealisation rewrote nothing.
  algebraic: both runs end with the result buffer at one function of the arguments.
-/
import proofs.«162997_j3143916060680_1_alg».proof.Defs
import proofs.«162997_j3143916060680_1_alg».proof.Proof.Gen.Kernel
import proofs.«162997_j3143916060680_1_alg».proof.Proof.Gen.KernelIdeal
import proofs.«162997_j3143916060680_1_alg».proof.Proof.Gen.ReferenceIdeal
import proofs.«162997_j3143916060680_1_alg».proof.Proof.Gen.Pre_finite_inputs
import proofs.«162997_j3143916060680_1_alg».proof.Proof.KernelRun
import proofs.«162997_j3143916060680_1_alg».proof.Proof.KernelIdealResult
import proofs.«162997_j3143916060680_1_alg».proof.Proof.RefValue
import proofs.«162997_j3143916060680_1_alg».proof.Proof.RefBridge
import Idealize.ShloMosaic.Adequacy
import Idealize.ShloMosaic.Init

noncomputable section

namespace Cert.Proof

open Idealize.ShloMosaic Idealize.SL.Sem

theorem frame_k : Cert.frame_Kernel := fun m ρ _ => Cert.Kernel.Run.frame m ρ

theorem frame_ki : Cert.frame_KernelIdeal := fun m ρ _ => Cert.KernelIdeal.Run.frame m ρ

theorem frame_ri : Cert.frame_ReferenceIdeal := fun m ρ _ =>
  (θ_run (Cert.ReferenceIdeal.defs (F := Ideal)) _ _).mono (fun _ h c => (h c).2) (Cert.ReferenceIdeal.RefRun.run' (F := Ideal) m ρ)

theorem preserves : Cert.preserves_Kernel_KernelIdeal := trivial

/-- The kernel program ends with its result at the kernel-side result function of its arguments, the reference with its
    result at the reference-side function of ITS arguments; the arguments agree, and the two functions are one. -/
theorem algebraic : Cert.algebraic_KernelIdeal_ReferenceIdeal := by
  intro m ρ m' ρ' _ hagree
  refine ⟨_, Cert.KernelIdeal.Run.run_value m ρ, ?_⟩
  refine (θ_run (Cert.ReferenceIdeal.defs (F := Ideal)) _ _).mono (fun r h c => ⟨(h c).1.trans ?_, (h c).2⟩)
    (Cert.ReferenceIdeal.RefRun.run' (F := Ideal) m' ρ')
  obtain ⟨e0, e1, e2, e3, e4, e5, e6, e7, e8, e9, e10, e11, e12⟩ := hagree c
  rw [e0, e1, e2, e3, e4, e5, e6, e7, e8, e9, e10, e11, e12]
  exact Cert.NGCF.refResult_eq_kResult _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
